-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S256x64 .f32) (main_arg5 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x256 .f32) (main_arg1 : FVec F S10000x10000 .f32) (main_arg2 : FVec F S256x256 .f32) (main_arg3 : FVec F S256 .f32) (main_arg4 : FVec F S256x64 .f32) (main_arg5 : FVec F S64 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1x256 : Shape := ⟨2, ![1, 256]⟩
abbrev S1x64 : Shape := ⟨2, ![1, 64]⟩
abbrev S10000x64 : Shape := ⟨2, ![10000, 64]⟩
abbrev S200x10000 : Shape := ⟨2, ![200, 10000]⟩
abbrev S400x64 : Shape := ⟨2, ![400, 64]⟩
abbrev S200x256 : Shape := ⟨2, ![200, 256]⟩
abbrev S200x64 : Shape := ⟨2, ![200, 64]⟩
abbrev S400 : Shape := ⟨1, ![400]⟩
abbrev S400x1 : Shape := ⟨2, ![400, 1]⟩

abbrev nBuf : Space → Nat
  | .hbm => 9
  | .vmem => 13
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S1x256, .f32⟩
  | .hbm, ⟨7, _⟩ => ⟨S1x64, .f32⟩
  | .hbm, ⟨8, _⟩ => ⟨S10000x64, .f32⟩
  | .local _ .vmem, ⟨0, _⟩ => ⟨S10000x256, .f32⟩
  | .local _ .vmem, ⟨1, _⟩ => ⟨S256x256, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S1x256, .f32⟩
  | .local _ .vmem, ⟨7, _⟩ => ⟨S256x64, .f32⟩
  | .local _ .vmem, ⟨8, _⟩ => ⟨S1x64, .f32⟩
  | .local _ .vmem, ⟨9, _⟩ => ⟨S400x64, .f32⟩
  | .local _ .vmem, ⟨10, _⟩ => ⟨S400x64, .f32⟩
  | .local _ .vmem, ⟨11, _⟩ => ⟨S10000x256, .f32⟩
  | .local _ .vmem, ⟨12, _⟩ => ⟨S10000x64, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let c2_i32 : BitVec 32 := 2#32
  let arg0 : BitVec 32 := BitVec.ofNat 32 (i 0).val
  let v29 : BitVec 32 := Scalar.muli c2_i32 arg0
  let c200_i32 : BitVec 32 := 200#32
  let v30 : BitVec 32 := Scalar.muli v29 c200_i32
  let v31 : Index := Scalar.indexCast v30
  let c0_21 : Index := 0#32
  ![v31.toNat, 0]
def k0_off2 (i : grid0.Coords) : Fin 2 → Nat :=
  let c2_i32_25 : BitVec 32 := 2#32
  let arg0 : BitVec 32 := BitVec.ofNat 32 (i 0).val
  let v37 : BitVec 32 := Scalar.muli c2_i32_25 arg0
  let c1_i32 : BitVec 32 := 1#32
  let v38 : BitVec 32 := Scalar.addi v37 c1_i32
  let c200_i32_26 : BitVec 32 := 200#32
  let v39 : BitVec 32 := Scalar.muli v38 c200_i32_26
  let v40 : Index := Scalar.indexCast v39
  let c0_27 : Index := 0#32
  ![v40.toNat, 0]
def k0_cond3 (i : grid0.Coords) : BitVec 1 :=
  let arg0 : BitVec 32 := BitVec.ofNat 32 (i 0).val
  let c25_i32_2 : BitVec 32 := 25#32
  let v6 : BitVec 1 := Scalar.cmpi .sge arg0 c25_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c25_i32 : BitVec 32 := 25#32
  let v0 : BitVec 32 := Scalar.remsi arg0 c25_i32
  let c2_i32 : BitVec 32 := 2#32
  let v1 : BitVec 32 := Scalar.muli c2_i32 v0
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c25_i32 : BitVec 32 := 25#32
  let v0 : BitVec 32 := Scalar.remsi arg0 c25_i32
  let c2_i32 : BitVec 32 := 2#32
  let v1 : BitVec 32 := Scalar.muli c2_i32 v0
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c25_i32 : BitVec 32 := 25#32
  let v0 : BitVec 1 := Scalar.cmpi .slt arg0 c25_i32
  let c25_i32_0 : BitVec 32 := 25#32
  let v1 : BitVec 32 := Scalar.subi arg0 c25_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256_S1x256 : S256.ShapeCasts S1x256
  shapeCasts_S64_S1x64 : S64.ShapeCasts S1x64
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  shapeCasts_S10000x256_S10000x256 : S10000x256.ShapeCasts S10000x256
  inb_S200x10000_S200x10000_0_0 : ∀ a, (![0, 0] : Fin 2 → Nat) a + S200x10000.size a ≤ S200x10000.size a
  h_S200x10000 : 0 < S200x10000.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  inb_S256x64_S256x64_0_0 : ∀ a, (![0, 0] : Fin 2 → Nat) a + S256x64.size a ≤ S256x64.size a
  h_S256x64 : 0 < S256x64.numel
  h_S200x64 : 0 < S200x64.numel
  shapeCasts_S200x64_S200x64 : S200x64.ShapeCasts S200x64
  inb_S10000x64_S10000x64_0_0 : ∀ a, (![0, 0] : Fin 2 → Nat) a + S10000x64.size a ≤ S10000x64.size a
  h_S10000x64 : 0 < S10000x64.numel
  concatenates_S200x64_S200x64_S400x64_d0 : Shape.Concatenates [S200x64, S200x64] S400x64 0
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  inb_S400x64_S400x64_0_0 : ∀ a, (![0, 0] : Fin 2 → Nat) a + S400x64.size a ≤ S400x64.size a
  h_S400x64 : 0 < S400x64.numel
  dot_S10000x256_S256x256_S10000x256_1_0_0_1_n_n_wf : DotDims.WF S10000x256 S256x256 S10000x256 [1] [0] [0] [1] [] []
  dot_S200x10000_S10000x256_S200x256_1_0_0_1_n_n_wf : DotDims.WF S200x10000 S10000x256 S200x256 [1] [0] [0] [1] [] []
  dot_S200x256_S256x64_S200x64_1_0_0_1_n_n_wf : DotDims.WF S200x256 S256x64 S200x64 [1] [0] [0] [1] [] []
  dot_S200x10000_S10000x64_S200x64_1_0_0_1_n_n_wf : DotDims.WF S200x10000 S10000x64 S200x64 [1] [0] [0] [1] [] []
  hrank0 : 0 < grid0.rank
  k0_off1_inb : ∀ i : grid0.Coords, ∀ (k0_h2 : k0_cond2 i = 1#1), ∀ a, (k0_off1 i) a + S200x64.size a ≤ S10000x64.size a
  k0_off2_inb : ∀ i : grid0.Coords, ∀ (k0_h2 : k0_cond2 i = 1#1), ∀ a, (k0_off2 i) a + S200x64.size a ≤ S10000x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x64.size a ≤ S10000x64.size a
  hwx0_7 : ∀ i : grid0.Coords, EltTy.bits .f32 = 32 ∨ (Rect.block (s := S10000x64) S400x64.size (cc0_transform_7 i) (hinb0_7 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S200x256_S256x64_S200x64_1_0_0_1_n_n : DotDims S200x256 S256x64 S200x64 where
  lhsContracting := [1]
  rhsContracting := [0]
  lhsNonContracting := [0]
  rhsNonContracting := [1]
  lhsBatch := []
  rhsBatch := []
  wf := dot_S200x256_S256x64_S200x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S400x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond3 i == 1#1) | ⟨_ + 8, h⟩ => absurd h (Nat.not_lt.2 (Nat.le_add_left _ _))

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1x256 : Shape := ⟨2, ![1, 256]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S10000x256, .f32⟩
  | .hbm, ⟨7, _⟩ => ⟨S10000x256, .f32⟩
  | .hbm, ⟨8, _⟩ => ⟨S1x256, .f32⟩
  | .hbm, ⟨9, _⟩ => ⟨S10000x256, .f32⟩
  | .hbm, ⟨10, _⟩ => ⟨S10000x256, .f32⟩
  | .hbm, ⟨11, _⟩ => ⟨S_, .f32⟩
  | .hbm, ⟨12, _⟩ => ⟨S10000x256, .f32⟩
  | .hbm, ⟨13, _⟩ => ⟨S10000x256, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x64, .f32⟩
  | .hbm, ⟨33, _⟩ => ⟨S10000x64, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_call1_cst_0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_cst_1 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_v11 : Ref sig .tc := ⟨.hbm, 33, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  dot_S10000x256_S256x64_S10000x64_1_0_0_1_n_n_wf : DotDims.WF S10000x256 S256x64 S10000x64 [1] [0] [0] [1] [] []
  dot_S10000x10000_S10000x64_S10000x64_1_0_0_1_n_n_wf : DotDims.WF S10000x10000 S10000x64 S10000x64 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.KRuns.lean ====
/-
  What the three cases of the kernel body's run share: the arrays as the region finds them (the two bias
  vectors reshaped to one-row matrices by the two host lines before it, every argument untouched), each window's
  block at a grid point, the three branch conditions decided over the fifty grid points (the first point alone
  computes the first support; points 0–24 each fill 400 rows of the second support; points 25–49 each produce
  400 rows of the output), where the output window is idle (points 0–24: nothing is stored into it and its block is
  not written back there), and names for the staging and scratch memrefs the body is called with.
-/
import proofs.«165132_g65704409694814_cont_9to1c4b_205_13_alg».proof.Proof.Gen.Kernel.Launch
import proofs.«165132_g65704409694814_cont_9to1c4b_205_13_alg».proof.Proof.Gen.Kernel.Skeleton
import proofs.«165132_g65704409694814_cont_9to1c4b_205_13_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the two reshapes of the bias vectors. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is the two host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host line before the region writes an argument array: the region finds each as launched. -/
theorem V_arg (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by assumption)))

theorem V_main_arg0 (c : Dev nD) : V m c main_arg0 = m ((c : Thread nD τ).loc main_arg0) := V_arg m c _ (by decide) (by decide)
theorem V_main_arg1 (c : Dev nD) : V m c main_arg1 = m ((c : Thread nD τ).loc main_arg1) := V_arg m c _ (by decide) (by decide)
theorem V_main_arg2 (c : Dev nD) : V m c main_arg2 = m ((c : Thread nD τ).loc main_arg2) := V_arg m c _ (by decide) (by decide)
theorem V_main_arg3 (c : Dev nD) : V m c main_arg3 = m ((c : Thread nD τ).loc main_arg3) := V_arg m c _ (by decide) (by decide)
theorem V_main_arg4 (c : Dev nD) : V m c main_arg4 = m ((c : Thread nD τ).loc main_arg4) := V_arg m c _ (by decide) (by decide)
theorem V_main_arg5 (c : Dev nD) : V m c main_arg5 = m ((c : Thread nD τ).loc main_arg5) := V_arg m c _ (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place. -/
theorem before_in_of {c : Dev nD} (dat : Dat τ (Elt F) Unit ℕ (UR sig nD τ) ℕ cfg0 c) (w : Fin cfg0.W)
    (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hA : dat.A w = V m c (Pipeline.arrRef spec0 w))
    (hafter : ∀ t, (cfg0.win w).cut (cfg0.grid.coords t) (dat.after w t) = iblk m c w t)
    (hfetched : ∀ t d, dat.fetched w t d = (cfg0.win w).fill (cfg0.grid.coords t) d (iblk m c w t)) (t : Fin cfg0.N) (d) :
    dat.before w t d = (cfg0.win w).fill (cfg0.grid.coords t) d (iblk m c w t) :=
  (dat.before_in_eq_fetched w hw hlive hclip (fun t => by rw [hafter]; unfold Dat.blockOf iblk; rw [hA]) t d).trans (hfetched t d)

/-! ## The body's branch conditions, decided over the grid -/

/-- The first branch (compute the first support) is taken at the first point only. -/
abbrev cond1 (i : grid0.Coords) : Prop := (Scalar.cmpi .ne (Scalar.extui (Scalar.cmpi .eq (BitVec.ofNat 32 (i 0).val) 0#32)) 0#32) = 1#1
theorem hcond1 : ∀ t : Fin cfg0.N, cond1 (grid0.coords t) ↔ t.val = 0 :=
  (by decide +kernel : ∀ t : Fin grid0.N, cond1 (grid0.coords t) ↔ t.val = 0)

/-- The second branch (fill 400 rows of the second support) is taken at points 0–24. -/
abbrev cond2 (i : grid0.Coords) : Prop := k0_cond2 i = 1#1
theorem hcond2 : ∀ t : Fin cfg0.N, cond2 (grid0.coords t) ↔ t.val < 25 :=
  (by decide +kernel : ∀ t : Fin grid0.N, cond2 (grid0.coords t) ↔ t.val < 25)

/-- The third branch (produce 400 rows of the output) is taken at points 25–49. -/
abbrev cond3 (i : grid0.Coords) : Prop := k0_cond3 i = 1#1
theorem hcond3 : ∀ t : Fin cfg0.N, cond3 (grid0.coords t) ↔ 25 ≤ t.val :=
  (by decide +kernel : ∀ t : Fin grid0.N, cond3 (grid0.coords t) ↔ 25 ≤ t.val)

/-! ## Where the windows are idle -/

theorem liveAt_in : ∀ (w : Fin 8), w.val < 7 → ∀ i : grid0.Coords, cfg0.idle w i = false := by
  intro w hw i
  match w, hw with
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl

/-- At points 0–24 the output window is idle and its block is not written back. -/
theorem idleAt7 : ∀ t : Fin cfg0.N, t.val < 25 → cfg0.idle 7 (grid0.coords t) = true :=
  (by decide +kernel : ∀ t : Fin grid0.N, t.val < 25 → cfg0.idle 7 (grid0.coords t) = true)
theorem noFlush7 : ∀ t : Fin cfg0.N, t.val < 25 → (cfg0.win 7).flush t = false :=
  (by decide +kernel : ∀ t : Fin grid0.N, t.val < 25 → win0_7.flush t = false)
/-- At points 25–49 it is live, and its block is written back. -/
theorem liveAt7 : ∀ t : Fin cfg0.N, 25 ≤ t.val → cfg0.idle 7 (grid0.coords t) = false :=
  (by decide +kernel : ∀ t : Fin grid0.N, 25 ≤ t.val → cfg0.idle 7 (grid0.coords t) = false)
theorem flush7 : ∀ t : Fin cfg0.N, 25 ≤ t.val → (cfg0.win 7).flush t = true :=
  (by decide +kernel : ∀ t : Fin grid0.N, 25 ≤ t.val → win0_7.flush t = true)

/-! ## The memrefs the body is called with -/

abbrev ms0 (t : Fin cfg0.N) : Memref sig .tc .vmem S10000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S400x64 .f32 := win0_7.stage (cfg0.slots t 7)
abbrev hs7 (t : Fin cfg0.N) : (ms7 t).IsWhole := hstage0_7 ((cfg0.slots t 7).cast nbuf0_7)
/-- The two scratch operands: whole scoped buffers of the kernel's own (the first support; the second support). -/
abbrev scM0 : Memref sig .tc .vmem S10000x256 .f32 := Memref.whole cc0_scratch0
abbrev scM1 : Memref sig .tc .vmem S10000x64 .f32 := Memref.whole cc0_scratch1
/-- One staging buffer of the output window, through which its contents are stated. -/
abbrev VO7 : View sig .tc .vmem S400x64 .f32 := (Memref.whole cc0_stg7_0 : Memref sig .tc .vmem S400x64 .f32).view

/-- The core's scoped buffers that are no staging buffer are the two scratch operands, each owned at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

end Cert.Kernel.Hand

end
-- ==== Proof.KRunB.lean ====
/-
  The kernel body's run at a point of the first phase after the first (points 1–24): only the second branch is taken. It reads the two row strips of the adjacency, the first support from the first scratch, the first bias row and the second weights, and stores two 200-row halves into the second scratch at rows 400·t and 400·t + 200; the output window's buffer and the first scratch are handed back as found.
-/
import proofs.«165132_g65704409694814_cont_9to1c4b_205_13_alg».proof.Proof.KRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the second scratch ends with over what it held (`xs1`), with the proof that the body runs on whole
    memrefs holding the inputs' blocks, the output's buffer at anything (`xi7`, handed back), the first scratch at
    `xs0` (handed back) and the second at any `xs1` (the pieces do not depend on it). -/
noncomputable def kernelRun_B (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x256 .f32) (harg9 : arg9.IsWhole) (arg10 : Memref sig .tc .vmem S10000x64 .f32) (harg10 : arg10.IsWhole) (hc1 : ¬cond1 i) (hc2 : cond2 i) (hc3 : ¬cond3 i)
    (x0 : Vec F S10000x256 .f32) (x1 : Vec F S256x256 .f32) (x2 : Vec F S200x10000 .f32) (x3 : Vec F S200x10000 .f32) (x4 : Vec F S1x256 .f32) (x5 : Vec F S256x64 .f32) (x6 : Vec F S1x64 .f32) (xs0 : Vec F S10000x256 .f32) :
    { LS1 : List (View.Piece (Elt F) S10000x64 .f32) //
      ∀ (xs1 : Vec F S10000x64 .f32) (xi7 : Vec F S400x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0
                ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨?_, fun xs1 xi7 E K => ?run⟩
  case run =>
    haveI : Fact (¬cond1 i) := ⟨hc1⟩
    haveI : Fact (cond2 i) := ⟨hc2⟩
    haveI : Fact (¬cond3 i) := ⟨hc3⟩
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7; obtain rfl := harg9.eq_unread hf8
    obtain rfl := harg10.eq_unread hf9
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexact H9

end Cert.Kernel.Hand

end
-- ==== Proof.KRunA.lean ====
/-
  The kernel body's run at the first grid point: the first two branches are taken. It stores the product of the features and the first weights into the whole first scratch, then (reading that back) stores two 200-row halves of the second support into the second scratch at rows 0 and 200; the output window's buffer is handed back as found.
-/
import proofs.«165132_g65704409694814_cont_9to1c4b_205_13_alg».proof.Proof.KRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the two scratches end with — the first over anything (one piece covers it), the second over what it
    held (`xs1`) — with the proof that the body runs on whole memrefs holding the inputs' blocks, the output's buffer
    at anything (`xi7`, handed back), the first scratch at anything and the second at any `xs1` (the pieces do not depend on it). -/
noncomputable def kernelRun_A (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x256 .f32) (harg9 : arg9.IsWhole) (arg10 : Memref sig .tc .vmem S10000x64 .f32) (harg10 : arg10.IsWhole) (hc1 : cond1 i) (hc2 : cond2 i) (hc3 : ¬cond3 i)
    (x0 : Vec F S10000x256 .f32) (x1 : Vec F S256x256 .f32) (x2 : Vec F S200x10000 .f32) (x3 : Vec F S200x10000 .f32) (x4 : Vec F S1x256 .f32) (x5 : Vec F S256x64 .f32) (x6 : Vec F S1x64 .f32)  :
    Σ' (LS0 : List (View.Piece (Elt F) S10000x256 .f32)), { LS1 : List (View.Piece (Elt F) S10000x64 .f32) //
      ∀ (xs1 : Vec F S10000x64 .f32) (xi7 : Vec F S400x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d) ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
                ∗ (∃ f, arg9.view.loc (c : Thread nD τ) ↦[arg9.view.set]{fullShare} arg9.view.writes (Elt F) f LS0)
                ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨?_, ?_, fun xs1 xi7 E K => ?run⟩
  case run =>
    haveI : Fact (cond1 i) := ⟨hc1⟩
    haveI : Fact (cond2 i) := ⟨hc2⟩
    haveI : Fact (¬cond3 i) := ⟨hc3⟩
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, H8⟩, ⟨%f9, %hf9, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7
    obtain rfl := harg10.eq_unread hf9
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    iexact H9

end Cert.Kernel.Hand

end
-- ==== Proof.KRunC.lean ====
/-
  The kernel body's run at a point of the second phase (points 25–49): only the third branch is taken. It reads the two row strips of the adjacency, the whole second support from the second scratch and the second bias row, and stores 400 rows of the row-wise log-softmax of (strips · support + bias) into the output window's buffer, covering it; both scratches are handed back as found.
-/
import proofs.«165132_g65704409694814_cont_9to1c4b_205_13_alg».proof.Proof.KRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the output window's buffer ends with (over anything: one piece covers it), with the proof that the
    body runs on whole memrefs holding the inputs' blocks, the output's buffer at anything and the two scratches at
    `xs0` and `xs1`, both handed back. -/
noncomputable def kernelRun_C (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x256 .f32) (harg9 : arg9.IsWhole) (arg10 : Memref sig .tc .vmem S10000x64 .f32) (harg10 : arg10.IsWhole) (hc1 : ¬cond1 i) (hc2 : ¬cond2 i) (hc3 : cond3 i)
    (x0 : Vec F S10000x256 .f32) (x1 : Vec F S256x256 .f32) (x2 : Vec F S200x10000 .f32) (x3 : Vec F S200x10000 .f32) (x4 : Vec F S1x256 .f32) (x5 : Vec F S256x64 .f32) (x6 : Vec F S1x64 .f32) (xs0 : Vec F S10000x256 .f32) (xs1 : Vec F S10000x64 .f32) :
    { L7 : List (View.Piece (Elt F) S400x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)
                ∗ owns (c : Thread nD τ) arg9 fullShare xs0 ∗ owns (c : Thread nD τ) arg10 fullShare xs1) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨?_, fun E K => ?run⟩
  case run =>
    haveI : Fact (¬cond1 i) := ⟨hc1⟩
    haveI : Fact (¬cond2 i) := ⟨hc2⟩
    haveI : Fact (cond3 i) := ⟨hc3⟩
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg9.eq_unread hf8
    obtain rfl := harg10.eq_unread hf9
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [H8]
    · iexists _; isplitr; · ipureintro; exact harg9.read_unread _
      iexact H8
    iexists _; isplitr; · ipureintro; exact harg10.read_unread _
    iexact H9

end Cert.Kernel.Hand

end
-- ==== Proof.LibFrameSharedTrack.lean ====
/-
  The frame run of a one-region pipeline program whose windows may SHARE an array, with an invariant the
  certificate states point by point (a kernel that carries values in its scratch from one grid point to the next),
  @main ending with the region.

  Beyond the body obligation the certificate supplies: how the buffers behind the arrays, each whole at the full
  share, are dealt among the windows at entry (`hsplit`: an array two input windows read is halved); that the core's
  scoped buffers that are no staging buffer, each at some contents, give the invariant before the first point
  (`hin`); and that the invariant after the last point gives them back (`hout`).

  The conclusion is the frame run's post: every window's array at what the proof data compute for it, every other
  unscoped buffer as the region found it.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

variable {Λ₀ : SL.Sem.Labels} {P : Type} [Fintype P] [DecidableEq P] [∀ e, Nonempty (Val e)]

local notation "𝕄" => MT nD τ sig Unit Val ℕ (UR sig nD τ) ℕ

/-- The frame run when windows may share arrays and the invariant tracks what the body carries between points.
    `hsplit` deals the arrays' buffers among the windows; `hin` / `hout` take the scoped rest into the invariant
    before the first point and back out of it after the last. Concludes `FramePost`. -/
theorem θ_run_frame_shared_track (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (Ix := Unit) (Name := ℕ) (U := UR sig nD τ) (Lvl := ℕ) (cfgs p).spec c (V c) : sProp 𝕄)
      ⊢ (dats p c).arrays ((dats p c).arrAt · 0))
    (hin : ∀ c, scopedRest (Ix := Unit) (Name := ℕ) (U := UR sig nD τ) (Lvl := ℕ) (Val := Val) (cfgs p).spec c ⊢ (dats p c).Φ 0)
    (hout : ∀ c, (dats p c).Φ (Fin.last (cfgs p).N) ⊢ scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := show (ownU _ : sProp 𝕄) ⊢ BI.own (emb₁ (initOf (cells cfgs hinj) (launchToks cfgs hinj))) from .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr [HU]; · iempintro
      iexact HU)
    (hin := fun c => by
      iintro ⟨-, Hr⟩
      iapply (hin c); iexact Hr)
    (hout := fun c => (hout c).trans (by
      iintro Hr
      isplitr [Hr]; · iempintro
      iexact Hr))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Pipeline

end Idealize.ShloMosaic

end
-- ==== Proof.KFrame.lean ====
/-
  The frame run of the kernel, with what it computes named.

  The first scratch holds, from the end of the first grid point on, one array (`S1val`: what that point's store
  leaves). The second scratch is filled 400 rows per point over points 0–24: after point `t` its rows below
  `400·(t+1)` are those of one array (`S2val`, row block `j` being what point `j`'s two stores leave), whatever the
  rows above hold; after point 24 it is that array. At points 25–49 the output window's buffer is left at what the
  point's one covering store writes (`out7`); at points 0–24 the window is idle. The invariant carried from point to
  point says exactly this; the body obligation is, at each point, the run of the case the point is in.
-/
import proofs.«165132_g65704409694814_cont_9to1c4b_205_13_alg».proof.Proof.KRunC
import proofs.«165132_g65704409694814_cont_9to1c4b_205_13_alg».proof.Proof.LibFrameSharedTrack

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev t0 : Fin cfg0.N := ⟨0, lt_of_lt_of_eq (by omega) N_0.symm⟩

abbrev VS0 : View sig .tc .vmem S10000x256 .f32 := scM0.view
abbrev VS1 : View sig .tc .vmem S10000x64 .f32 := scM1.view

/-! ## The runs at the grid's points -/

/-- The first point's run, at that point's memrefs and blocks. -/
def runA (c : Dev nD) := kernelRun_A (F := F) c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _)
  ((hcond1 t0).mpr rfl) ((hcond2 t0).mpr (by show (0 : ℕ) < 25; omega)) (fun h => absurd ((hcond3 t0).mp h) (by show ¬(25 ≤ (0 : ℕ)); omega))
  (iblk m c 0 t0) (iblk m c 1 t0) (iblk m c 2 t0) (iblk m c 3 t0) (iblk m c 4 t0) (iblk m c 5 t0) (iblk m c 6 t0)

/-- Its one store into the first scratch covers it. -/
theorem scoverA (c : Dev nD) (y : S10000x256.Idx) : ∃ pc ∈ (runA m c).1, y ∈ pc.1.set :=
  View.cover_of_tiledL (runA m c).1 S10000x256.size (by sl_kernel_rfl) y

/-- THE FIRST SUPPORT as the kernel holds it: what the first point leaves in the first scratch. -/
def S1val (c : Dev nD) : Vec F S10000x256 .f32 := VS0.read (Elt F) (VS0.writes (Elt F) VS0.junk (runA m c).1)

/-- A later point of the first phase, at that point's memrefs and blocks, the first scratch at the first support. -/
def runB (c : Dev nD) (t : Fin cfg0.N) (h1 : t.val ≠ 0) (h2 : t.val < 25) := kernelRun_B (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _)
  (fun h => h1 ((hcond1 t).mp h)) ((hcond2 t).mpr h2) (fun h => absurd ((hcond3 t).mp h) (by omega))
  (iblk m c 0 t) (iblk m c 1 t) (iblk m c 2 t) (iblk m c 3 t) (iblk m c 4 t) (iblk m c 5 t) (iblk m c 6 t) (S1val m c)

/-- The pieces point `t` of the first phase stores into the second scratch. -/
def LS1At (c : Dev nD) (t : Fin cfg0.N) (h2 : t.val < 25) : List (View.Piece (Elt F) S10000x64 .f32) :=
  if h1 : t.val = 0 then (runA m c).2.1 else (runB m c t h1 h2).1

/-- THE SECOND SUPPORT as the kernel holds it: row block `j` (rows 400·j … 400·j + 399) is what point `j`'s two
    stores leave there. -/
def S2val (c : Dev nD) : Vec F S10000x64 .f32 := fun y =>
  if h : (y 0).val / 400 < 25 then
    VS1.read (Elt F) (VS1.writes (Elt F) VS1.junk (LS1At m c ⟨(y 0).val / 400, lt_of_lt_of_eq (by omega) N_0.symm⟩ h)) y
  else VS1.read (Elt F) VS1.junk y

/-- A point of the second phase, at that point's memrefs and blocks, the scratches at the two supports. -/
def runC (c : Dev nD) (t : Fin cfg0.N) (h3 : 25 ≤ t.val) := kernelRun_C (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _)
  (fun h => by have := (hcond1 t).mp h; omega) (fun h => by have := (hcond2 t).mp h; omega) ((hcond3 t).mpr h3)
  (iblk m c 0 t) (iblk m c 1 t) (iblk m c 2 t) (iblk m c 3 t) (iblk m c 4 t) (iblk m c 5 t) (iblk m c 6 t) (S1val m c) (S2val m c)

/-- Its one store into the output window's buffer covers it. -/
theorem cover7 (c : Dev nD) (t : Fin cfg0.N) (h3 : 25 ≤ t.val) (y : S400x64.Idx) : ∃ pc ∈ (runC m c t h3).1, y ∈ pc.1.set :=
  View.cover_of_tiledL (runC m c t h3).1 S400x64.size (by sl_kernel_rfl) y

/-- What point `t` leaves in the output window's buffer: at a point of the second phase its store; elsewhere the
    window is idle and this is not consulted. -/
def out7 (c : Dev nD) (t : Fin cfg0.N) : Vec F S400x64 .f32 :=
  if h3 : 25 ≤ t.val then VO7.read (Elt F) (VO7.writes (Elt F) VO7.junk (runC m c t h3).1) else VO7.read (Elt F) VO7.junk

/-! ## The rows of the second scratch known so far -/

/-- The rows below `n` are the second support's. -/
def Known (c : Dev nD) (n : ℕ) (X : Vec F S10000x64 .f32) : Prop := ∀ y : S10000x64.Idx, (y 0).val < n → X y = S2val m c y

/-- Where point `t`'s pieces lie: rows 400·t … 400·t + 399, all of them. -/
def PiecesAt (c : Dev nD) (t : Fin cfg0.N) (h2 : t.val < 25) : Prop :=
  (∀ p ∈ LS1At m c t h2, ∀ y : S10000x64.Idx, y ∈ p.1.set → 400 * t.val ≤ (y 0).val ∧ (y 0).val < 400 * t.val + 400)
  ∧ (∀ y : S10000x64.Idx, 400 * t.val ≤ (y 0).val → (y 0).val < 400 * t.val + 400 → ∃ p ∈ LS1At m c t h2, y ∈ p.1.set)

/-- The pieces depend on the point only. -/
theorem LS1At_congr (c : Dev nD) (t t' : Fin cfg0.N) (h : t.val < 25) (h' : t'.val < 25) (e : t = t') :
    LS1At m c t h = LS1At m c t' h' := by subst e; rfl

/-- One more row block becomes known: storing point `t`'s pieces over contents whose rows below `400·t` are known
    leaves the rows below `400·(t+1)` known. -/
theorem known_step (c : Dev nD) (t : Fin cfg0.N) (h2 : t.val < 25) (hP : PiecesAt m c t h2) (X : Vec F S10000x64 .f32)
    (hX : Known m c (400 * t.val) X) :
    Known m c (400 * (t.val + 1)) (VS1.read (Elt F) (VS1.writes (Elt F) ((Memref.isWhole_whole cc0_scratch1).unread X) (LS1At m c t h2))) := by
  intro y hy
  by_cases hlt : (y 0).val < 400 * t.val
  · rw [View.read_writes_apply_of_forall_not_mem VS1 _ y _ (fun p hp hmem => by have := (hP.1 p hp y hmem).1; omega),
      (Memref.isWhole_whole cc0_scratch1).read_unread X]
    exact hX y hlt
  · have hq : (y 0).val / 400 = t.val := by omega
    have hlt25 : (y 0).val / 400 < 25 := by omega
    have ht : (⟨(y 0).val / 400, lt_of_lt_of_eq (by omega) N_0.symm⟩ : Fin cfg0.N) = t := Fin.ext hq
    rw [View.read_writes_apply_eq VS1 _ VS1 VS1.junk y _ (hP.2 y (by omega) (by omega))]
    unfold S2val
    rw [dif_pos hlt25, LS1At_congr m c _ t hlt25 h2 ht]

/-! ## The invariant -/

/-- Before point `n`: at the start the two scratches at anything; afterwards the first at the first support and the
    second at contents whose rows below `400·n` are the second support's. -/
def Phi (c : Dev nD) : (n : ℕ) → n ≤ cfg0.N → sProp 𝕄
  | 0, _ => Pipeline.scopedRest (Ix := Unit) (Name := ℕ) (U := UR sig nD τ) (Lvl := ℕ) (Val := Elt F) spec0 c
  | n + 1, _ => iprop(owns (c : Thread nD τ) scM0 fullShare (S1val m c)
      ∗ (∃ X, ⌜Known m c (400 * (n + 1)) X⌝ ∗ owns (c : Thread nD τ) scM1 fullShare X))

theorem Phi_zero (c : Dev nD) (n : ℕ) (h : n ≤ cfg0.N) (hz : n = 0) :
    Phi m c n h = Pipeline.scopedRest (Ix := Unit) (Name := ℕ) (U := UR sig nD τ) (Lvl := ℕ) (Val := Elt F) spec0 c := by
  subst hz; rfl

theorem Phi_succ (c : Dev nD) (n : ℕ) (hn : n < cfg0.N) :
    Phi m c (n + 1) hn = iprop(owns (c : Thread nD τ) scM0 fullShare (S1val m c)
      ∗ (∃ X, ⌜Known m c (400 * (n + 1)) X⌝ ∗ owns (c : Thread nD τ) scM1 fullShare X)) := rfl

theorem Phi_pos (c : Dev nD) (n : ℕ) (h : n ≤ cfg0.N) (hz : n ≠ 0) :
    Phi m c n h = iprop(owns (c : Thread nD τ) scM0 fullShare (S1val m c)
      ∗ (∃ X, ⌜Known m c (400 * n) X⌝ ∗ owns (c : Thread nD τ) scM1 fullShare X)) := by
  cases n with
  | zero => exact absurd rfl hz
  | succ n => rfl

/-! ## The proof data -/

/-- Arrays as the region finds them; after the body each input's buffer at its block and the output's at `out7`;
    the adjacency, which two windows read, held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨_ + 8, h⟩ => absurd h (Nat.not_lt.2 (Nat.le_add_left _ _))
  Φ t := Phi m c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨_ + 8, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = out7 m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

set_option maxHeartbeats 4800000 in
/-- The body at any point: the inputs' buffers hold their blocks; the point's position says which case it is in; that
    case's run applies; the invariant hands the run the scratches and takes them back with one more row block of the
    second known (first phase), or unchanged (second phase). -/
theorem sound_body (c : Dev nD) (t : Fin cfg0.N) (hP : ∀ h2 : t.val < 25, PiecesAt m c t h2) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = Phi m c (t.val + 1) t.isLt from rfl, Phi_succ]
  have hN : t.val < 50 := lt_of_lt_of_eq t.isLt (show cfg0.N = 50 from N_0)
  rw [show (dats m 0 c).leavesExact 0 t = owns (c : Thread nD τ) (ms0 t) fullShare ((dats m 0 c).after 0 t) from by
    unfold Dat.leavesExact; rw [liveAt_in 0 (by decide) (grid0.coords t)], after_0]
  rw [show (dats m 0 c).leavesExact 1 t = owns (c : Thread nD τ) (ms1 t) fullShare ((dats m 0 c).after 1 t) from by
    unfold Dat.leavesExact; rw [liveAt_in 1 (by decide) (grid0.coords t)], after_1]
  rw [show (dats m 0 c).leavesExact 2 t = owns (c : Thread nD τ) (ms2 t) fullShare ((dats m 0 c).after 2 t) from by
    unfold Dat.leavesExact; rw [liveAt_in 2 (by decide) (grid0.coords t)], after_2]
  rw [show (dats m 0 c).leavesExact 3 t = owns (c : Thread nD τ) (ms3 t) fullShare ((dats m 0 c).after 3 t) from by
    unfold Dat.leavesExact; rw [liveAt_in 3 (by decide) (grid0.coords t)], after_3]
  rw [show (dats m 0 c).leavesExact 4 t = owns (c : Thread nD τ) (ms4 t) fullShare ((dats m 0 c).after 4 t) from by
    unfold Dat.leavesExact; rw [liveAt_in 4 (by decide) (grid0.coords t)], after_4]
  rw [show (dats m 0 c).leavesExact 5 t = owns (c : Thread nD τ) (ms5 t) fullShare ((dats m 0 c).after 5 t) from by
    unfold Dat.leavesExact; rw [liveAt_in 5 (by decide) (grid0.coords t)], after_5]
  rw [show (dats m 0 c).leavesExact 6 t = owns (c : Thread nD τ) (ms6 t) fullShare ((dats m 0 c).after 6 t) from by
    unfold Dat.leavesExact; rw [liveAt_in 6 (by decide) (grid0.coords t)], after_6]
  by_cases h2 : t.val < 25
  · rw [Dat.leavesExact_idle (dats m 0 c) 7 t (idleAt7 t h2) (noFlush7 t h2)]
    by_cases hz : t.val = 0
    · obtain rfl : t = t0 := Fin.ext hz
      rw [Phi_castSucc m c t0, Phi_zero m c _ _ rfl, scopedRest_eq]
      iintro ⟨⟨HS0, ⟨%X, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA m c).2.2 X _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, HS1⟩
      isplitl [HS0 HS1]
      · isplitl [HS0]
        · unfold owns; iexists _; isplitr
          swap; · iexact HS0
          ipureintro; exact View.read_writes_of_cover _ _ _ _ _ (scoverA m c)
        iexists _; isplitr
        · ipureintro
          have hk := known_step m c t0 h2 (hP h2) X (fun y hy => absurd hy (by show ¬((y 0).val < 400 * 0); omega))
          rw [show LS1At m c t0 h2 = (runA m c).2.1 from dif_pos rfl] at hk
          exact hk
        unfold owns; iexists _; isplitr
        swap; · iexact HS1
        ipureintro; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [Phi_castSucc m c t, Phi_pos m c _ _ hz]
      iintro ⟨⟨HS0, ⟨%X, %hX, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB m c t hz h2).2 X _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexists _; isplitr
        · ipureintro
          have hk := known_step m c t h2 (hP h2) X hX
          rw [show LS1At m c t h2 = (runB m c t hz h2).1 from dif_neg hz] at hk
          exact hk
        unfold owns; iexists _; isplitr
        swap; · iexact HS1
        ipureintro; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have h3 : 25 ≤ t.val := Nat.le_of_not_lt h2
    have hz : t.val ≠ 0 := by omega
    rw [show (dats m 0 c).leavesExact 7 t = owns (c : Thread nD τ) (ms7 t) fullShare ((dats m 0 c).after 7 t) from by
      unfold Dat.leavesExact; rw [liveAt7 t h3], after_7]
    rw [show out7 m c t = VO7.read (Elt F) (VO7.writes (Elt F) VO7.junk (runC m c t h3).1) from dif_pos h3]
    rw [Phi_castSucc m c t, Phi_pos m c _ _ hz]
    iintro ⟨⟨HS0, ⟨%X, %hX, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl : X = S2val m c := funext fun y => hX y (by have : (y 0).val < 10000 := (y 0).isLt; omega)
    iapply ((runC m c t h3).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, ⟨%e7, H7⟩, HS0, HS1⟩
    isplitl [HS0 HS1]
    · isplitl [HS0]; · iexact HS0
      iexists _; isplitr
      · ipureintro; exact fun y _ => rfl
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover7 m c t h3)

end Cert.Kernel.Hand

end
-- ==== Proof.KMain.lean ====
/-
  The kernel's frame run assembled: where the two stores of a first-phase point lie in the second scratch
  (row slabs 400·t … 400·t + 199 and 400·t + 200 … 400·t + 399, from the printed offset chains decided over the
  grid), the body obligation at every point, how the adjacency's buffer — which two windows read — is dealt to them
  in halves, the scratches into and out of the invariant, the run, and the frame.
-/
import proofs.«165132_g65704409694814_cont_9to1c4b_205_13_alg».proof.Proof.KFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where a first-phase point stores -/

/-- The first store's offsets at point `t`: row 400·t, column 0. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])
/-- The second store's: row 400·t + 200, column 0. -/
theorem off2_eq : ∀ t : Fin cfg0.N, t.val < 25 → k0_off2 (grid0.coords t) = ![400 * t.val + 200, 0] :=
  (by decide +kernel : ∀ t : Fin grid0.N, t.val < 25 → k0_off2 (grid0.coords t) = ![400 * t.val + 200, 0])

/-- The first point's pieces for the second scratch: two 200-row slabs at the printed offsets. -/
theorem shapeA (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x256 .f32) (harg9 : arg9.IsWhole) (arg10 : Memref sig .tc .vmem S10000x64 .f32) (harg10 : arg10.IsWhole) (hc1 : cond1 i) (hc2 : cond2 i) (hc3 : ¬cond3 i) (x0 : Vec F S10000x256 .f32) (x1 : Vec F S256x256 .f32) (x2 : Vec F S200x10000 .f32) (x3 : Vec F S200x10000 .f32) (x4 : Vec F S1x256 .f32) (x5 : Vec F S256x64 .f32) (x6 : Vec F S1x64 .f32) :
    ∃ w2 w1, (kernelRun_A (F := F) c i arg1 harg1 arg2 harg2 arg3 harg3 arg4 harg4 arg5 harg5 arg6 harg6 arg7 harg7 arg8 harg8 arg9 harg9 arg10 harg10 hc1 hc2 hc3 x0 x1 x2 x3 x4 x5 x6).2.1
      = [⟨Rect.unit (s := S10000x64) (k0_off2 i) S200x64.size (k0_off2_inb i hc2), w2⟩,
         ⟨Rect.unit (s := S10000x64) (k0_off1 i) S200x64.size (k0_off1_inb i hc2), w1⟩] := ⟨_, _, rfl⟩

/-- A later first-phase point's pieces: the same two slabs. -/
theorem shapeB (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x256 .f32) (harg9 : arg9.IsWhole) (arg10 : Memref sig .tc .vmem S10000x64 .f32) (harg10 : arg10.IsWhole) (hc1 : ¬cond1 i) (hc2 : cond2 i) (hc3 : ¬cond3 i) (x0 : Vec F S10000x256 .f32) (x1 : Vec F S256x256 .f32) (x2 : Vec F S200x10000 .f32) (x3 : Vec F S200x10000 .f32) (x4 : Vec F S1x256 .f32) (x5 : Vec F S256x64 .f32) (x6 : Vec F S1x64 .f32) (xs0 : Vec F S10000x256 .f32) :
    ∃ w2 w1, (kernelRun_B (F := F) c i arg1 harg1 arg2 harg2 arg3 harg3 arg4 harg4 arg5 harg5 arg6 harg6 arg7 harg7 arg8 harg8 arg9 harg9 arg10 harg10 hc1 hc2 hc3 x0 x1 x2 x3 x4 x5 x6 xs0).1
      = [⟨Rect.unit (s := S10000x64) (k0_off2 i) S200x64.size (k0_off2_inb i hc2), w2⟩,
         ⟨Rect.unit (s := S10000x64) (k0_off1 i) S200x64.size (k0_off1_inb i hc2), w1⟩] := ⟨_, _, rfl⟩

/-- Two 200-row slabs at rows `r` and `r + 200` lie in, and fill, rows `r … r + 399`. -/
theorem slabs_cover (r : ℕ) (L : List (View.Piece (Elt F) S10000x64 .f32)) (o1 o2 : Fin 2 → ℕ)
    (hb1 : ∀ a, o1 a + S200x64.size a ≤ S10000x64.size a) (hb2 : ∀ a, o2 a + S200x64.size a ≤ S10000x64.size a)
    (w1 : (Rect.unit (s := S10000x64) o1 S200x64.size hb1).shape.Idx → Elt F .f32)
    (w2 : (Rect.unit (s := S10000x64) o2 S200x64.size hb2).shape.Idx → Elt F .f32)
    (hL : L = [⟨Rect.unit (s := S10000x64) o2 S200x64.size hb2, w2⟩, ⟨Rect.unit (s := S10000x64) o1 S200x64.size hb1, w1⟩])
    (ho1 : o1 = ![r, 0]) (ho2 : o2 = ![r + 200, 0]) :
    (∀ p ∈ L, ∀ y : S10000x64.Idx, y ∈ p.1.set → r ≤ (y 0).val ∧ (y 0).val < r + 400)
    ∧ (∀ y : S10000x64.Idx, r ≤ (y 0).val → (y 0).val < r + 400 → ∃ p ∈ L, y ∈ p.1.set) := by
  subst hL
  constructor
  · intro p hp y hy
    simp only [List.mem_cons, List.mem_nil_iff, or_false] at hp
    rcases hp with rfl | rfl
    · have h0 := (Rect.mem_set_unit (inb := hb2) (i := y)).mp hy 0
      rw [ho2] at h0
      simp only [Matrix.cons_val_zero] at h0
      have : S200x64.size 0 = 200 := rfl
      omega
    · have h0 := (Rect.mem_set_unit (inb := hb1) (i := y)).mp hy 0
      rw [ho1] at h0
      simp only [Matrix.cons_val_zero] at h0
      have : S200x64.size 0 = 200 := rfl
      omega
  · intro y h1 h2
    have hy1 : (y 1).val < 64 := (y 1).isLt
    by_cases h : (y 0).val < r + 200
    · refine ⟨_, List.mem_cons_of_mem _ List.mem_cons_self, (Rect.mem_set_unit (inb := hb1) (i := y)).mpr fun a => ?_⟩
      rw [ho1]
      match a with
      | ⟨0, _⟩ => exact ⟨h1, by show (y 0).val < r + 200; omega⟩
      | ⟨1, _⟩ => exact ⟨Nat.zero_le _, by show (y 1).val < 0 + 64; omega⟩
    · refine ⟨_, List.mem_cons_self, (Rect.mem_set_unit (inb := hb2) (i := y)).mpr fun a => ?_⟩
      rw [ho2]
      match a with
      | ⟨0, _⟩ => exact ⟨by show r + 200 ≤ (y 0).val; omega, by show (y 0).val < r + 200 + 200; omega⟩
      | ⟨1, _⟩ => exact ⟨Nat.zero_le _, by show (y 1).val < 0 + 64; omega⟩

/-- Every first-phase point's pieces lie in, and fill, its 400-row block. -/
theorem piecesAt (c : Dev nD) (t : Fin cfg0.N) (h2 : t.val < 25) : PiecesAt m c t h2 := by
  unfold PiecesAt LS1At
  by_cases h1 : t.val = 0
  · obtain rfl : t = t0 := Fin.ext h1
    rw [dif_pos rfl]
    obtain ⟨w2, w1, hL⟩ := shapeA (F := F) c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _)
      ((hcond1 t0).mpr rfl) ((hcond2 t0).mpr h2) (fun h => absurd ((hcond3 t0).mp h) (by show ¬(25 ≤ (0 : ℕ)); omega))
      (iblk m c 0 t0) (iblk m c 1 t0) (iblk m c 2 t0) (iblk m c 3 t0) (iblk m c 4 t0) (iblk m c 5 t0) (iblk m c 6 t0)
    have := slabs_cover (F := F) (400 * (t0 : Fin cfg0.N).val) _ _ _ _ _ w1 w2 hL (off1_eq t0 h2) (off2_eq t0 h2)
    exact this
  · rw [dif_neg h1]
    obtain ⟨w2, w1, hL⟩ := shapeB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _)
      (fun h => h1 ((hcond1 t).mp h)) ((hcond2 t).mpr h2) (fun h => absurd ((hcond3 t).mp h) (by omega))
      (iblk m c 0 t) (iblk m c 1 t) (iblk m c 2 t) (iblk m c 3 t) (iblk m c 4 t) (iblk m c 5 t) (iblk m c 6 t) (S1val m c)
    have := slabs_cover (F := F) (400 * t.val) _ _ _ _ _ w1 w2 hL (off1_eq t h2) (off2_eq t h2)
    exact this

/-! ## The obligation, the invariant's ends, the arrays' shares -/

theorem body_obligation (c : Dev nD) : BodyObligation (dats (F := F) m 0 c) (defs₀ (F := F)) Variants.none () Set.univ := fun t => by
  rw [bigSep_W0, bigSep_W0]
  exact sound_body m c t (piecesAt m c t)

/-- What the launch hands the region is the invariant before the first point. -/
theorem hin (c : Dev nD) : Pipeline.scopedRest (Ix := Unit) (Name := ℕ) (U := UR sig nD τ) (Lvl := ℕ) (Val := Elt F) spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives the two scratches back, their contents forgotten. -/
theorem hout (c : Dev nD) : (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 50 := N_0; omega), scopedRest_eq]
  iintro ⟨HS0, ⟨%X, -, HS1⟩⟩
  isplitl [HS0]; · iexists _; iexact HS0
  iexists _; iexact HS1

/-- The share each window's array is held at: the adjacency in halves, every other array whole. -/
theorem share_0 (c : Dev nD) : (dats m 0 c).share 0 = fullShare := rfl
theorem share_1 (c : Dev nD) : (dats m 0 c).share 1 = fullShare := rfl
theorem share_2 (c : Dev nD) : (dats m 0 c).share 2 = fullShare.left := rfl
theorem share_3 (c : Dev nD) : (dats m 0 c).share 3 = fullShare.right := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl

/-- Before any write-back every window's array holds the region-entry contents. -/
theorem arrAt_zero (c : Dev nD) (w : Fin cfg0.W) : (dats m 0 c).arrAt w 0 = V m c (Pipeline.arrRef spec0 w) := A_eq m c w

/-- The pipeline's arrays at entry, as points-tos of the whole buffers behind them. -/
theorem arrays_entry (c : Dev nD) :
    (dats m 0 c).arrays ((dats m 0 c).arrAt · 0)
      = bigSep Finset.univ fun w : Fin cfg0.W =>
          ((((c.tc : Thread nD τ).loc (Pipeline.arrRef spec0 w)) ↦{(dats m 0 c).share w} V m c (Pipeline.arrRef spec0 w)) : sProp 𝕄) := by
  unfold Dat.arrays
  exact bigSep_congr fun w _ => by
    rw [(arr_whole0 w).set_eq_univ]
    beta_reduce
    rw [arrAt_zero m c w]
    try rfl

/-- The buffers behind the arrays, dealt to the windows: each whole to its one window, the adjacency's in two halves
    to the two windows that read it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : (bigSep (Finset.univ.image (Pipeline.arrRef spec0)) (fun b => (((c.tc : Thread nD τ).loc b) ↦{fullShare} V m c b : sProp 𝕄)) : sProp 𝕄)
      = iprop((((c.tc : Thread nD τ).loc main_arg0) ↦{fullShare} V m c main_arg0) ∗ (((c.tc : Thread nD τ).loc main_arg2) ↦{fullShare} V m c main_arg2)
          ∗ (((c.tc : Thread nD τ).loc main_arg1) ↦{fullShare} V m c main_arg1) ∗ (((c.tc : Thread nD τ).loc main_v0) ↦{fullShare} V m c main_v0)
          ∗ (((c.tc : Thread nD τ).loc main_arg4) ↦{fullShare} V m c main_arg4) ∗ (((c.tc : Thread nD τ).loc main_v1) ↦{fullShare} V m c main_v1)
          ∗ (((c.tc : Thread nD τ).loc main_v2) ↦{fullShare} V m c main_v2)) :=
    bigSep_eq_bigSepL_of_eq [main_arg0, main_arg2, main_arg1, main_v0, main_arg4, main_v1, main_v2] (by decide) (by decide) _
  rw [arrays_entry m c, bigSep_W0, share_0, share_1, share_2, share_3, share_4, share_5, share_6, share_7]
  unfold Pipeline.arrBufs
  rw [e]
  iintro ⟨H0, H2, H1, Hv0, H4, Hv1, Hv2⟩
  ihave Hs := (pointsTo_share (PosShare.mem_left_op_right fullShare)).1 $$ H1
  icases Hs with ⟨H1l, H1r⟩
  isplitl [H0]; · iexact H0
  isplitl [H2]; · iexact H2
  isplitl [H1l]; · iexact H1l
  isplitl [H1r]; · iexact H1r
  isplitl [Hv0]; · iexact Hv0
  isplitl [H4]; · iexact H4
  isplitl [Hv1]; · iexact Hv1
  iexact Hv2

/-! ## The run and the frame -/

set_option backward.isDefEq.respectTransparency.types false in
/-- Every weakly fair execution of @main terminates, every window's array ending at what the proof data compute for
    it and every other unscoped buffer as the region found it. -/
theorem run_main : θ_run defs (onTc (τ := τ) (main (F := F))) (s₀ m ρ) (Pipeline.FramePost cfgs (dats m) 0 (V m)) :=
  Pipeline.θ_run_frame_shared_track cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := hin m) (hout := hout m)

/-- THE FRAME: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c)⟩) (run_main m ρ)

end Cert.Kernel.Hand

end
-- ==== Proof.KIRuns.lean ====
/-
  What the three cases of the kernel body's run share: the arrays as the region finds them (the two bias
  vectors reshaped to one-row matrices by the two host lines before it, every argument untouched), each window's
  block at a grid point, the three branch conditions decided over the fifty grid points (the first point alone
  computes the first support; points 0–24 each fill 400 rows of the second support; points 25–49 each produce
  400 rows of the output), where the output window is idle (points 0–24: nothing is stored into it and its block is
  not written back there), and names for the staging and scratch memrefs the body is called with.
-/
import proofs.«165132_g65704409694814_cont_9to1c4b_205_13_alg».proof.Proof.Gen.KernelIdeal.Launch
import proofs.«165132_g65704409694814_cont_9to1c4b_205_13_alg».proof.Proof.Gen.KernelIdeal.Skeleton
import proofs.«165132_g65704409694814_cont_9to1c4b_205_13_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the two reshapes of the bias vectors. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is the two host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host line before the region writes an argument array: the region finds each as launched. -/
theorem V_arg (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by assumption)))

theorem V_main_arg0 (c : Dev nD) : V m c main_arg0 = m ((c : Thread nD τ).loc main_arg0) := V_arg m c _ (by decide) (by decide)
theorem V_main_arg1 (c : Dev nD) : V m c main_arg1 = m ((c : Thread nD τ).loc main_arg1) := V_arg m c _ (by decide) (by decide)
theorem V_main_arg2 (c : Dev nD) : V m c main_arg2 = m ((c : Thread nD τ).loc main_arg2) := V_arg m c _ (by decide) (by decide)
theorem V_main_arg3 (c : Dev nD) : V m c main_arg3 = m ((c : Thread nD τ).loc main_arg3) := V_arg m c _ (by decide) (by decide)
theorem V_main_arg4 (c : Dev nD) : V m c main_arg4 = m ((c : Thread nD τ).loc main_arg4) := V_arg m c _ (by decide) (by decide)
theorem V_main_arg5 (c : Dev nD) : V m c main_arg5 = m ((c : Thread nD τ).loc main_arg5) := V_arg m c _ (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place. -/
theorem before_in_of {c : Dev nD} (dat : Dat τ (Elt F) Unit ℕ (UR sig nD τ) ℕ cfg0 c) (w : Fin cfg0.W)
    (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hA : dat.A w = V m c (Pipeline.arrRef spec0 w))
    (hafter : ∀ t, (cfg0.win w).cut (cfg0.grid.coords t) (dat.after w t) = iblk m c w t)
    (hfetched : ∀ t d, dat.fetched w t d = (cfg0.win w).fill (cfg0.grid.coords t) d (iblk m c w t)) (t : Fin cfg0.N) (d) :
    dat.before w t d = (cfg0.win w).fill (cfg0.grid.coords t) d (iblk m c w t) :=
  (dat.before_in_eq_fetched w hw hlive hclip (fun t => by rw [hafter]; unfold Dat.blockOf iblk; rw [hA]) t d).trans (hfetched t d)

/-! ## The body's branch conditions, decided over the grid -/

/-- The first branch (compute the first support) is taken at the first point only. -/
abbrev cond1 (i : grid0.Coords) : Prop := (Scalar.cmpi .ne (Scalar.extui (Scalar.cmpi .eq (BitVec.ofNat 32 (i 0).val) 0#32)) 0#32) = 1#1
theorem hcond1 : ∀ t : Fin cfg0.N, cond1 (grid0.coords t) ↔ t.val = 0 :=
  (by decide +kernel : ∀ t : Fin grid0.N, cond1 (grid0.coords t) ↔ t.val = 0)

/-- The second branch (fill 400 rows of the second support) is taken at points 0–24. -/
abbrev cond2 (i : grid0.Coords) : Prop := k0_cond2 i = 1#1
theorem hcond2 : ∀ t : Fin cfg0.N, cond2 (grid0.coords t) ↔ t.val < 25 :=
  (by decide +kernel : ∀ t : Fin grid0.N, cond2 (grid0.coords t) ↔ t.val < 25)

/-- The third branch (produce 400 rows of the output) is taken at points 25–49. -/
abbrev cond3 (i : grid0.Coords) : Prop := k0_cond3 i = 1#1
theorem hcond3 : ∀ t : Fin cfg0.N, cond3 (grid0.coords t) ↔ 25 ≤ t.val :=
  (by decide +kernel : ∀ t : Fin grid0.N, cond3 (grid0.coords t) ↔ 25 ≤ t.val)

/-! ## Where the windows are idle -/

theorem liveAt_in : ∀ (w : Fin 8), w.val < 7 → ∀ i : grid0.Coords, cfg0.idle w i = false := by
  intro w hw i
  match w, hw with
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl

/-- At points 0–24 the output window is idle and its block is not written back. -/
theorem idleAt7 : ∀ t : Fin cfg0.N, t.val < 25 → cfg0.idle 7 (grid0.coords t) = true :=
  (by decide +kernel : ∀ t : Fin grid0.N, t.val < 25 → cfg0.idle 7 (grid0.coords t) = true)
theorem noFlush7 : ∀ t : Fin cfg0.N, t.val < 25 → (cfg0.win 7).flush t = false :=
  (by decide +kernel : ∀ t : Fin grid0.N, t.val < 25 → win0_7.flush t = false)
/-- At points 25–49 it is live, and its block is written back. -/
theorem liveAt7 : ∀ t : Fin cfg0.N, 25 ≤ t.val → cfg0.idle 7 (grid0.coords t) = false :=
  (by decide +kernel : ∀ t : Fin grid0.N, 25 ≤ t.val → cfg0.idle 7 (grid0.coords t) = false)
theorem flush7 : ∀ t : Fin cfg0.N, 25 ≤ t.val → (cfg0.win 7).flush t = true :=
  (by decide +kernel : ∀ t : Fin grid0.N, 25 ≤ t.val → win0_7.flush t = true)

/-! ## The memrefs the body is called with -/

abbrev ms0 (t : Fin cfg0.N) : Memref sig .tc .vmem S10000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S400x64 .f32 := win0_7.stage (cfg0.slots t 7)
abbrev hs7 (t : Fin cfg0.N) : (ms7 t).IsWhole := hstage0_7 ((cfg0.slots t 7).cast nbuf0_7)
/-- The two scratch operands: whole scoped buffers of the kernel's own (the first support; the second support). -/
abbrev scM0 : Memref sig .tc .vmem S10000x256 .f32 := Memref.whole cc0_scratch0
abbrev scM1 : Memref sig .tc .vmem S10000x64 .f32 := Memref.whole cc0_scratch1
/-- One staging buffer of the output window, through which its contents are stated. -/
abbrev VO7 : View sig .tc .vmem S400x64 .f32 := (Memref.whole cc0_stg7_0 : Memref sig .tc .vmem S400x64 .f32).view

/-- The core's scoped buffers that are no staging buffer are the two scratch operands, each owned at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

end Cert.KernelIdeal.Hand

end
-- ==== Proof.KIRunB.lean ====
/-
  The kernel body's run at a point of the first phase after the first (points 1–24): only the second branch is taken. It reads the two row strips of the adjacency, the first support from the first scratch, the first bias row and the second weights, and stores two 200-row halves into the second scratch at rows 400·t and 400·t + 200; the output window's buffer and the first scratch are handed back as found.
-/
import proofs.«165132_g65704409694814_cont_9to1c4b_205_13_alg».proof.Proof.KIRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the second scratch ends with over what it held (`xs1`), with the proof that the body runs on whole
    memrefs holding the inputs' blocks, the output's buffer at anything (`xi7`, handed back), the first scratch at
    `xs0` (handed back) and the second at any `xs1` (the pieces do not depend on it). -/
noncomputable def kernelRun_B (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x256 .f32) (harg9 : arg9.IsWhole) (arg10 : Memref sig .tc .vmem S10000x64 .f32) (harg10 : arg10.IsWhole) (hc1 : ¬cond1 i) (hc2 : cond2 i) (hc3 : ¬cond3 i)
    (x0 : Vec F S10000x256 .f32) (x1 : Vec F S256x256 .f32) (x2 : Vec F S200x10000 .f32) (x3 : Vec F S200x10000 .f32) (x4 : Vec F S1x256 .f32) (x5 : Vec F S256x64 .f32) (x6 : Vec F S1x64 .f32) (xs0 : Vec F S10000x256 .f32) :
    { LS1 : List (View.Piece (Elt F) S10000x64 .f32) //
      ∀ (xs1 : Vec F S10000x64 .f32) (xi7 : Vec F S400x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0
                ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨?_, fun xs1 xi7 E K => ?run⟩
  case run =>
    haveI : Fact (¬cond1 i) := ⟨hc1⟩
    haveI : Fact (cond2 i) := ⟨hc2⟩
    haveI : Fact (¬cond3 i) := ⟨hc3⟩
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7; obtain rfl := harg9.eq_unread hf8
    obtain rfl := harg10.eq_unread hf9
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexact H9

end Cert.KernelIdeal.Hand

end
-- ==== Proof.KIRunA.lean ====
/-
  The kernel body's run at the first grid point: the first two branches are taken. It stores the product of the features and the first weights into the whole first scratch, then (reading that back) stores two 200-row halves of the second support into the second scratch at rows 0 and 200; the output window's buffer is handed back as found.
-/
import proofs.«165132_g65704409694814_cont_9to1c4b_205_13_alg».proof.Proof.KIRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the two scratches end with — the first over anything (one piece covers it), the second over what it
    held (`xs1`) — with the proof that the body runs on whole memrefs holding the inputs' blocks, the output's buffer
    at anything (`xi7`, handed back), the first scratch at anything and the second at any `xs1` (the pieces do not depend on it). -/
noncomputable def kernelRun_A (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x256 .f32) (harg9 : arg9.IsWhole) (arg10 : Memref sig .tc .vmem S10000x64 .f32) (harg10 : arg10.IsWhole) (hc1 : cond1 i) (hc2 : cond2 i) (hc3 : ¬cond3 i)
    (x0 : Vec F S10000x256 .f32) (x1 : Vec F S256x256 .f32) (x2 : Vec F S200x10000 .f32) (x3 : Vec F S200x10000 .f32) (x4 : Vec F S1x256 .f32) (x5 : Vec F S256x64 .f32) (x6 : Vec F S1x64 .f32)  :
    Σ' (LS0 : List (View.Piece (Elt F) S10000x256 .f32)), { LS1 : List (View.Piece (Elt F) S10000x64 .f32) //
      ∀ (xs1 : Vec F S10000x64 .f32) (xi7 : Vec F S400x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d) ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
                ∗ (∃ f, arg9.view.loc (c : Thread nD τ) ↦[arg9.view.set]{fullShare} arg9.view.writes (Elt F) f LS0)
                ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨?_, ?_, fun xs1 xi7 E K => ?run⟩
  case run =>
    haveI : Fact (cond1 i) := ⟨hc1⟩
    haveI : Fact (cond2 i) := ⟨hc2⟩
    haveI : Fact (¬cond3 i) := ⟨hc3⟩
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, H8⟩, ⟨%f9, %hf9, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7
    obtain rfl := harg10.eq_unread hf9
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    iexact H9

end Cert.KernelIdeal.Hand

end
-- ==== Proof.KIRunC.lean ====
/-
  The kernel body's run at a point of the second phase (points 25–49): only the third branch is taken. It reads the two row strips of the adjacency, the whole second support from the second scratch and the second bias row, and stores 400 rows of the row-wise log-softmax of (strips · support + bias) into the output window's buffer, covering it; both scratches are handed back as found.
-/
import proofs.«165132_g65704409694814_cont_9to1c4b_205_13_alg».proof.Proof.KIRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the output window's buffer ends with (over anything: one piece covers it), with the proof that the
    body runs on whole memrefs holding the inputs' blocks, the output's buffer at anything and the two scratches at
    `xs0` and `xs1`, both handed back. -/
noncomputable def kernelRun_C (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x256 .f32) (harg9 : arg9.IsWhole) (arg10 : Memref sig .tc .vmem S10000x64 .f32) (harg10 : arg10.IsWhole) (hc1 : ¬cond1 i) (hc2 : ¬cond2 i) (hc3 : cond3 i)
    (x0 : Vec F S10000x256 .f32) (x1 : Vec F S256x256 .f32) (x2 : Vec F S200x10000 .f32) (x3 : Vec F S200x10000 .f32) (x4 : Vec F S1x256 .f32) (x5 : Vec F S256x64 .f32) (x6 : Vec F S1x64 .f32) (xs0 : Vec F S10000x256 .f32) (xs1 : Vec F S10000x64 .f32) :
    { L7 : List (View.Piece (Elt F) S400x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)
                ∗ owns (c : Thread nD τ) arg9 fullShare xs0 ∗ owns (c : Thread nD τ) arg10 fullShare xs1) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨?_, fun E K => ?run⟩
  case run =>
    haveI : Fact (¬cond1 i) := ⟨hc1⟩
    haveI : Fact (¬cond2 i) := ⟨hc2⟩
    haveI : Fact (cond3 i) := ⟨hc3⟩
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg9.eq_unread hf8
    obtain rfl := harg10.eq_unread hf9
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [H8]
    · iexists _; isplitr; · ipureintro; exact harg9.read_unread _
      iexact H8
    iexists _; isplitr; · ipureintro; exact harg10.read_unread _
    iexact H9

end Cert.KernelIdeal.Hand

end
-- ==== Proof.KIFrame.lean ====
/-
  The frame run of the idealized kernel, with what it computes named.

  The first scratch holds, from the end of the first grid point on, one array (`S1val`: what that point's store
  leaves). The second scratch is filled 400 rows per point over points 0–24: after point `t` its rows below
  `400·(t+1)` are those of one array (`S2val`, row block `j` being what point `j`'s two stores leave), whatever the
  rows above hold; after point 24 it is that array. At points 25–49 the output window's buffer is left at what the
  point's one covering store writes (`out7`); at points 0–24 the window is idle. The invariant carried from point to
  point says exactly this; the body obligation is, at each point, the run of the case the point is in.
-/
import proofs.«165132_g65704409694814_cont_9to1c4b_205_13_alg».proof.Proof.KIRunC
import proofs.«165132_g65704409694814_cont_9to1c4b_205_13_alg».proof.Proof.LibFrameSharedTrack

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev t0 : Fin cfg0.N := ⟨0, lt_of_lt_of_eq (by omega) N_0.symm⟩

abbrev VS0 : View sig .tc .vmem S10000x256 .f32 := scM0.view
abbrev VS1 : View sig .tc .vmem S10000x64 .f32 := scM1.view

/-! ## The runs at the grid's points -/

/-- The first point's run, at that point's memrefs and blocks. -/
def runA (c : Dev nD) := kernelRun_A (F := F) c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _)
  ((hcond1 t0).mpr rfl) ((hcond2 t0).mpr (by show (0 : ℕ) < 25; omega)) (fun h => absurd ((hcond3 t0).mp h) (by show ¬(25 ≤ (0 : ℕ)); omega))
  (iblk m c 0 t0) (iblk m c 1 t0) (iblk m c 2 t0) (iblk m c 3 t0) (iblk m c 4 t0) (iblk m c 5 t0) (iblk m c 6 t0)

/-- Its one store into the first scratch covers it. -/
theorem scoverA (c : Dev nD) (y : S10000x256.Idx) : ∃ pc ∈ (runA m c).1, y ∈ pc.1.set :=
  View.cover_of_tiledL (runA m c).1 S10000x256.size (by sl_kernel_rfl) y

/-- THE FIRST SUPPORT as the kernel holds it: what the first point leaves in the first scratch. -/
def S1val (c : Dev nD) : Vec F S10000x256 .f32 := VS0.read (Elt F) (VS0.writes (Elt F) VS0.junk (runA m c).1)

/-- A later point of the first phase, at that point's memrefs and blocks, the first scratch at the first support. -/
def runB (c : Dev nD) (t : Fin cfg0.N) (h1 : t.val ≠ 0) (h2 : t.val < 25) := kernelRun_B (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _)
  (fun h => h1 ((hcond1 t).mp h)) ((hcond2 t).mpr h2) (fun h => absurd ((hcond3 t).mp h) (by omega))
  (iblk m c 0 t) (iblk m c 1 t) (iblk m c 2 t) (iblk m c 3 t) (iblk m c 4 t) (iblk m c 5 t) (iblk m c 6 t) (S1val m c)

/-- The pieces point `t` of the first phase stores into the second scratch. -/
def LS1At (c : Dev nD) (t : Fin cfg0.N) (h2 : t.val < 25) : List (View.Piece (Elt F) S10000x64 .f32) :=
  if h1 : t.val = 0 then (runA m c).2.1 else (runB m c t h1 h2).1

/-- THE SECOND SUPPORT as the kernel holds it: row block `j` (rows 400·j … 400·j + 399) is what point `j`'s two
    stores leave there. -/
def S2val (c : Dev nD) : Vec F S10000x64 .f32 := fun y =>
  if h : (y 0).val / 400 < 25 then
    VS1.read (Elt F) (VS1.writes (Elt F) VS1.junk (LS1At m c ⟨(y 0).val / 400, lt_of_lt_of_eq (by omega) N_0.symm⟩ h)) y
  else VS1.read (Elt F) VS1.junk y

/-- A point of the second phase, at that point's memrefs and blocks, the scratches at the two supports. -/
def runC (c : Dev nD) (t : Fin cfg0.N) (h3 : 25 ≤ t.val) := kernelRun_C (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _)
  (fun h => by have := (hcond1 t).mp h; omega) (fun h => by have := (hcond2 t).mp h; omega) ((hcond3 t).mpr h3)
  (iblk m c 0 t) (iblk m c 1 t) (iblk m c 2 t) (iblk m c 3 t) (iblk m c 4 t) (iblk m c 5 t) (iblk m c 6 t) (S1val m c) (S2val m c)

/-- Its one store into the output window's buffer covers it. -/
theorem cover7 (c : Dev nD) (t : Fin cfg0.N) (h3 : 25 ≤ t.val) (y : S400x64.Idx) : ∃ pc ∈ (runC m c t h3).1, y ∈ pc.1.set :=
  View.cover_of_tiledL (runC m c t h3).1 S400x64.size (by sl_kernel_rfl) y

/-- What point `t` leaves in the output window's buffer: at a point of the second phase its store; elsewhere the
    window is idle and this is not consulted. -/
def out7 (c : Dev nD) (t : Fin cfg0.N) : Vec F S400x64 .f32 :=
  if h3 : 25 ≤ t.val then VO7.read (Elt F) (VO7.writes (Elt F) VO7.junk (runC m c t h3).1) else VO7.read (Elt F) VO7.junk

/-! ## The rows of the second scratch known so far -/

/-- The rows below `n` are the second support's. -/
def Known (c : Dev nD) (n : ℕ) (X : Vec F S10000x64 .f32) : Prop := ∀ y : S10000x64.Idx, (y 0).val < n → X y = S2val m c y

/-- Where point `t`'s pieces lie: rows 400·t … 400·t + 399, all of them. -/
def PiecesAt (c : Dev nD) (t : Fin cfg0.N) (h2 : t.val < 25) : Prop :=
  (∀ p ∈ LS1At m c t h2, ∀ y : S10000x64.Idx, y ∈ p.1.set → 400 * t.val ≤ (y 0).val ∧ (y 0).val < 400 * t.val + 400)
  ∧ (∀ y : S10000x64.Idx, 400 * t.val ≤ (y 0).val → (y 0).val < 400 * t.val + 400 → ∃ p ∈ LS1At m c t h2, y ∈ p.1.set)

/-- The pieces depend on the point only. -/
theorem LS1At_congr (c : Dev nD) (t t' : Fin cfg0.N) (h : t.val < 25) (h' : t'.val < 25) (e : t = t') :
    LS1At m c t h = LS1At m c t' h' := by subst e; rfl

/-- One more row block becomes known: storing point `t`'s pieces over contents whose rows below `400·t` are known
    leaves the rows below `400·(t+1)` known. -/
theorem known_step (c : Dev nD) (t : Fin cfg0.N) (h2 : t.val < 25) (hP : PiecesAt m c t h2) (X : Vec F S10000x64 .f32)
    (hX : Known m c (400 * t.val) X) :
    Known m c (400 * (t.val + 1)) (VS1.read (Elt F) (VS1.writes (Elt F) ((Memref.isWhole_whole cc0_scratch1).unread X) (LS1At m c t h2))) := by
  intro y hy
  by_cases hlt : (y 0).val < 400 * t.val
  · rw [View.read_writes_apply_of_forall_not_mem VS1 _ y _ (fun p hp hmem => by have := (hP.1 p hp y hmem).1; omega),
      (Memref.isWhole_whole cc0_scratch1).read_unread X]
    exact hX y hlt
  · have hq : (y 0).val / 400 = t.val := by omega
    have hlt25 : (y 0).val / 400 < 25 := by omega
    have ht : (⟨(y 0).val / 400, lt_of_lt_of_eq (by omega) N_0.symm⟩ : Fin cfg0.N) = t := Fin.ext hq
    rw [View.read_writes_apply_eq VS1 _ VS1 VS1.junk y _ (hP.2 y (by omega) (by omega))]
    unfold S2val
    rw [dif_pos hlt25, LS1At_congr m c _ t hlt25 h2 ht]

/-! ## The invariant -/

/-- Before point `n`: at the start the two scratches at anything; afterwards the first at the first support and the
    second at contents whose rows below `400·n` are the second support's. -/
def Phi (c : Dev nD) : (n : ℕ) → n ≤ cfg0.N → sProp 𝕄
  | 0, _ => Pipeline.scopedRest (Ix := Unit) (Name := ℕ) (U := UR sig nD τ) (Lvl := ℕ) (Val := Elt F) spec0 c
  | n + 1, _ => iprop(owns (c : Thread nD τ) scM0 fullShare (S1val m c)
      ∗ (∃ X, ⌜Known m c (400 * (n + 1)) X⌝ ∗ owns (c : Thread nD τ) scM1 fullShare X))

theorem Phi_zero (c : Dev nD) (n : ℕ) (h : n ≤ cfg0.N) (hz : n = 0) :
    Phi m c n h = Pipeline.scopedRest (Ix := Unit) (Name := ℕ) (U := UR sig nD τ) (Lvl := ℕ) (Val := Elt F) spec0 c := by
  subst hz; rfl

theorem Phi_succ (c : Dev nD) (n : ℕ) (hn : n < cfg0.N) :
    Phi m c (n + 1) hn = iprop(owns (c : Thread nD τ) scM0 fullShare (S1val m c)
      ∗ (∃ X, ⌜Known m c (400 * (n + 1)) X⌝ ∗ owns (c : Thread nD τ) scM1 fullShare X)) := rfl

theorem Phi_pos (c : Dev nD) (n : ℕ) (h : n ≤ cfg0.N) (hz : n ≠ 0) :
    Phi m c n h = iprop(owns (c : Thread nD τ) scM0 fullShare (S1val m c)
      ∗ (∃ X, ⌜Known m c (400 * n) X⌝ ∗ owns (c : Thread nD τ) scM1 fullShare X)) := by
  cases n with
  | zero => exact absurd rfl hz
  | succ n => rfl

/-! ## The proof data -/

/-- Arrays as the region finds them; after the body each input's buffer at its block and the output's at `out7`;
    the adjacency, which two windows read, held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨_ + 8, h⟩ => absurd h (Nat.not_lt.2 (Nat.le_add_left _ _))
  Φ t := Phi m c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨_ + 8, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = out7 m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

set_option maxHeartbeats 4800000 in
/-- The body at any point: the inputs' buffers hold their blocks; the point's position says which case it is in; that
    case's run applies; the invariant hands the run the scratches and takes them back with one more row block of the
    second known (first phase), or unchanged (second phase). -/
theorem sound_body (c : Dev nD) (t : Fin cfg0.N) (hP : ∀ h2 : t.val < 25, PiecesAt m c t h2) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = Phi m c (t.val + 1) t.isLt from rfl, Phi_succ]
  have hN : t.val < 50 := lt_of_lt_of_eq t.isLt (show cfg0.N = 50 from N_0)
  rw [show (dats m 0 c).leavesExact 0 t = owns (c : Thread nD τ) (ms0 t) fullShare ((dats m 0 c).after 0 t) from by
    unfold Dat.leavesExact; rw [liveAt_in 0 (by decide) (grid0.coords t)], after_0]
  rw [show (dats m 0 c).leavesExact 1 t = owns (c : Thread nD τ) (ms1 t) fullShare ((dats m 0 c).after 1 t) from by
    unfold Dat.leavesExact; rw [liveAt_in 1 (by decide) (grid0.coords t)], after_1]
  rw [show (dats m 0 c).leavesExact 2 t = owns (c : Thread nD τ) (ms2 t) fullShare ((dats m 0 c).after 2 t) from by
    unfold Dat.leavesExact; rw [liveAt_in 2 (by decide) (grid0.coords t)], after_2]
  rw [show (dats m 0 c).leavesExact 3 t = owns (c : Thread nD τ) (ms3 t) fullShare ((dats m 0 c).after 3 t) from by
    unfold Dat.leavesExact; rw [liveAt_in 3 (by decide) (grid0.coords t)], after_3]
  rw [show (dats m 0 c).leavesExact 4 t = owns (c : Thread nD τ) (ms4 t) fullShare ((dats m 0 c).after 4 t) from by
    unfold Dat.leavesExact; rw [liveAt_in 4 (by decide) (grid0.coords t)], after_4]
  rw [show (dats m 0 c).leavesExact 5 t = owns (c : Thread nD τ) (ms5 t) fullShare ((dats m 0 c).after 5 t) from by
    unfold Dat.leavesExact; rw [liveAt_in 5 (by decide) (grid0.coords t)], after_5]
  rw [show (dats m 0 c).leavesExact 6 t = owns (c : Thread nD τ) (ms6 t) fullShare ((dats m 0 c).after 6 t) from by
    unfold Dat.leavesExact; rw [liveAt_in 6 (by decide) (grid0.coords t)], after_6]
  by_cases h2 : t.val < 25
  · rw [Dat.leavesExact_idle (dats m 0 c) 7 t (idleAt7 t h2) (noFlush7 t h2)]
    by_cases hz : t.val = 0
    · obtain rfl : t = t0 := Fin.ext hz
      rw [Phi_castSucc m c t0, Phi_zero m c _ _ rfl, scopedRest_eq]
      iintro ⟨⟨HS0, ⟨%X, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA m c).2.2 X _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, HS1⟩
      isplitl [HS0 HS1]
      · isplitl [HS0]
        · unfold owns; iexists _; isplitr
          swap; · iexact HS0
          ipureintro; exact View.read_writes_of_cover _ _ _ _ _ (scoverA m c)
        iexists _; isplitr
        · ipureintro
          have hk := known_step m c t0 h2 (hP h2) X (fun y hy => absurd hy (by show ¬((y 0).val < 400 * 0); omega))
          rw [show LS1At m c t0 h2 = (runA m c).2.1 from dif_pos rfl] at hk
          exact hk
        unfold owns; iexists _; isplitr
        swap; · iexact HS1
        ipureintro; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [Phi_castSucc m c t, Phi_pos m c _ _ hz]
      iintro ⟨⟨HS0, ⟨%X, %hX, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB m c t hz h2).2 X _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexists _; isplitr
        · ipureintro
          have hk := known_step m c t h2 (hP h2) X hX
          rw [show LS1At m c t h2 = (runB m c t hz h2).1 from dif_neg hz] at hk
          exact hk
        unfold owns; iexists _; isplitr
        swap; · iexact HS1
        ipureintro; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have h3 : 25 ≤ t.val := Nat.le_of_not_lt h2
    have hz : t.val ≠ 0 := by omega
    rw [show (dats m 0 c).leavesExact 7 t = owns (c : Thread nD τ) (ms7 t) fullShare ((dats m 0 c).after 7 t) from by
      unfold Dat.leavesExact; rw [liveAt7 t h3], after_7]
    rw [show out7 m c t = VO7.read (Elt F) (VO7.writes (Elt F) VO7.junk (runC m c t h3).1) from dif_pos h3]
    rw [Phi_castSucc m c t, Phi_pos m c _ _ hz]
    iintro ⟨⟨HS0, ⟨%X, %hX, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl : X = S2val m c := funext fun y => hX y (by have : (y 0).val < 10000 := (y 0).isLt; omega)
    iapply ((runC m c t h3).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, ⟨%e7, H7⟩, HS0, HS1⟩
    isplitl [HS0 HS1]
    · isplitl [HS0]; · iexact HS0
      iexists _; isplitr
      · ipureintro; exact fun y _ => rfl
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover7 m c t h3)

end Cert.KernelIdeal.Hand

end
-- ==== Proof.KIMain.lean ====
/-
  The idealized kernel's frame run assembled: where the two stores of a first-phase point lie in the second scratch
  (row slabs 400·t … 400·t + 199 and 400·t + 200 … 400·t + 399, from the printed offset chains decided over the
  grid), the body obligation at every point, how the adjacency's buffer — which two windows read — is dealt to them
  in halves, the scratches into and out of the invariant, the run, and the frame.
-/
import proofs.«165132_g65704409694814_cont_9to1c4b_205_13_alg».proof.Proof.KIFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where a first-phase point stores -/

/-- The first store's offsets at point `t`: row 400·t, column 0. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])
/-- The second store's: row 400·t + 200, column 0. -/
theorem off2_eq : ∀ t : Fin cfg0.N, t.val < 25 → k0_off2 (grid0.coords t) = ![400 * t.val + 200, 0] :=
  (by decide +kernel : ∀ t : Fin grid0.N, t.val < 25 → k0_off2 (grid0.coords t) = ![400 * t.val + 200, 0])

/-- The first point's pieces for the second scratch: two 200-row slabs at the printed offsets. -/
theorem shapeA (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x256 .f32) (harg9 : arg9.IsWhole) (arg10 : Memref sig .tc .vmem S10000x64 .f32) (harg10 : arg10.IsWhole) (hc1 : cond1 i) (hc2 : cond2 i) (hc3 : ¬cond3 i) (x0 : Vec F S10000x256 .f32) (x1 : Vec F S256x256 .f32) (x2 : Vec F S200x10000 .f32) (x3 : Vec F S200x10000 .f32) (x4 : Vec F S1x256 .f32) (x5 : Vec F S256x64 .f32) (x6 : Vec F S1x64 .f32) :
    ∃ w2 w1, (kernelRun_A (F := F) c i arg1 harg1 arg2 harg2 arg3 harg3 arg4 harg4 arg5 harg5 arg6 harg6 arg7 harg7 arg8 harg8 arg9 harg9 arg10 harg10 hc1 hc2 hc3 x0 x1 x2 x3 x4 x5 x6).2.1
      = [⟨Rect.unit (s := S10000x64) (k0_off2 i) S200x64.size (k0_off2_inb i hc2), w2⟩,
         ⟨Rect.unit (s := S10000x64) (k0_off1 i) S200x64.size (k0_off1_inb i hc2), w1⟩] := ⟨_, _, rfl⟩

/-- A later first-phase point's pieces: the same two slabs. -/
theorem shapeB (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x256 .f32) (harg9 : arg9.IsWhole) (arg10 : Memref sig .tc .vmem S10000x64 .f32) (harg10 : arg10.IsWhole) (hc1 : ¬cond1 i) (hc2 : cond2 i) (hc3 : ¬cond3 i) (x0 : Vec F S10000x256 .f32) (x1 : Vec F S256x256 .f32) (x2 : Vec F S200x10000 .f32) (x3 : Vec F S200x10000 .f32) (x4 : Vec F S1x256 .f32) (x5 : Vec F S256x64 .f32) (x6 : Vec F S1x64 .f32) (xs0 : Vec F S10000x256 .f32) :
    ∃ w2 w1, (kernelRun_B (F := F) c i arg1 harg1 arg2 harg2 arg3 harg3 arg4 harg4 arg5 harg5 arg6 harg6 arg7 harg7 arg8 harg8 arg9 harg9 arg10 harg10 hc1 hc2 hc3 x0 x1 x2 x3 x4 x5 x6 xs0).1
      = [⟨Rect.unit (s := S10000x64) (k0_off2 i) S200x64.size (k0_off2_inb i hc2), w2⟩,
         ⟨Rect.unit (s := S10000x64) (k0_off1 i) S200x64.size (k0_off1_inb i hc2), w1⟩] := ⟨_, _, rfl⟩

/-- Two 200-row slabs at rows `r` and `r + 200` lie in, and fill, rows `r … r + 399`. -/
theorem slabs_cover (r : ℕ) (L : List (View.Piece (Elt F) S10000x64 .f32)) (o1 o2 : Fin 2 → ℕ)
    (hb1 : ∀ a, o1 a + S200x64.size a ≤ S10000x64.size a) (hb2 : ∀ a, o2 a + S200x64.size a ≤ S10000x64.size a)
    (w1 : (Rect.unit (s := S10000x64) o1 S200x64.size hb1).shape.Idx → Elt F .f32)
    (w2 : (Rect.unit (s := S10000x64) o2 S200x64.size hb2).shape.Idx → Elt F .f32)
    (hL : L = [⟨Rect.unit (s := S10000x64) o2 S200x64.size hb2, w2⟩, ⟨Rect.unit (s := S10000x64) o1 S200x64.size hb1, w1⟩])
    (ho1 : o1 = ![r, 0]) (ho2 : o2 = ![r + 200, 0]) :
    (∀ p ∈ L, ∀ y : S10000x64.Idx, y ∈ p.1.set → r ≤ (y 0).val ∧ (y 0).val < r + 400)
    ∧ (∀ y : S10000x64.Idx, r ≤ (y 0).val → (y 0).val < r + 400 → ∃ p ∈ L, y ∈ p.1.set) := by
  subst hL
  constructor
  · intro p hp y hy
    simp only [List.mem_cons, List.mem_nil_iff, or_false] at hp
    rcases hp with rfl | rfl
    · have h0 := (Rect.mem_set_unit (inb := hb2) (i := y)).mp hy 0
      rw [ho2] at h0
      simp only [Matrix.cons_val_zero] at h0
      have : S200x64.size 0 = 200 := rfl
      omega
    · have h0 := (Rect.mem_set_unit (inb := hb1) (i := y)).mp hy 0
      rw [ho1] at h0
      simp only [Matrix.cons_val_zero] at h0
      have : S200x64.size 0 = 200 := rfl
      omega
  · intro y h1 h2
    have hy1 : (y 1).val < 64 := (y 1).isLt
    by_cases h : (y 0).val < r + 200
    · refine ⟨_, List.mem_cons_of_mem _ List.mem_cons_self, (Rect.mem_set_unit (inb := hb1) (i := y)).mpr fun a => ?_⟩
      rw [ho1]
      match a with
      | ⟨0, _⟩ => exact ⟨h1, by show (y 0).val < r + 200; omega⟩
      | ⟨1, _⟩ => exact ⟨Nat.zero_le _, by show (y 1).val < 0 + 64; omega⟩
    · refine ⟨_, List.mem_cons_self, (Rect.mem_set_unit (inb := hb2) (i := y)).mpr fun a => ?_⟩
      rw [ho2]
      match a with
      | ⟨0, _⟩ => exact ⟨by show r + 200 ≤ (y 0).val; omega, by show (y 0).val < r + 200 + 200; omega⟩
      | ⟨1, _⟩ => exact ⟨Nat.zero_le _, by show (y 1).val < 0 + 64; omega⟩

/-- Every first-phase point's pieces lie in, and fill, its 400-row block. -/
theorem piecesAt (c : Dev nD) (t : Fin cfg0.N) (h2 : t.val < 25) : PiecesAt m c t h2 := by
  unfold PiecesAt LS1At
  by_cases h1 : t.val = 0
  · obtain rfl : t = t0 := Fin.ext h1
    rw [dif_pos rfl]
    obtain ⟨w2, w1, hL⟩ := shapeA (F := F) c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _)
      ((hcond1 t0).mpr rfl) ((hcond2 t0).mpr h2) (fun h => absurd ((hcond3 t0).mp h) (by show ¬(25 ≤ (0 : ℕ)); omega))
      (iblk m c 0 t0) (iblk m c 1 t0) (iblk m c 2 t0) (iblk m c 3 t0) (iblk m c 4 t0) (iblk m c 5 t0) (iblk m c 6 t0)
    have := slabs_cover (F := F) (400 * (t0 : Fin cfg0.N).val) _ _ _ _ _ w1 w2 hL (off1_eq t0 h2) (off2_eq t0 h2)
    exact this
  · rw [dif_neg h1]
    obtain ⟨w2, w1, hL⟩ := shapeB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _)
      (fun h => h1 ((hcond1 t).mp h)) ((hcond2 t).mpr h2) (fun h => absurd ((hcond3 t).mp h) (by omega))
      (iblk m c 0 t) (iblk m c 1 t) (iblk m c 2 t) (iblk m c 3 t) (iblk m c 4 t) (iblk m c 5 t) (iblk m c 6 t) (S1val m c)
    have := slabs_cover (F := F) (400 * t.val) _ _ _ _ _ w1 w2 hL (off1_eq t h2) (off2_eq t h2)
    exact this

/-! ## The obligation, the invariant's ends, the arrays' shares -/

theorem body_obligation (c : Dev nD) : BodyObligation (dats (F := F) m 0 c) (defs₀ (F := F)) Variants.none () Set.univ := fun t => by
  rw [bigSep_W0, bigSep_W0]
  exact sound_body m c t (piecesAt m c t)

/-- What the launch hands the region is the invariant before the first point. -/
theorem hin (c : Dev nD) : Pipeline.scopedRest (Ix := Unit) (Name := ℕ) (U := UR sig nD τ) (Lvl := ℕ) (Val := Elt F) spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives the two scratches back, their contents forgotten. -/
theorem hout (c : Dev nD) : (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 50 := N_0; omega), scopedRest_eq]
  iintro ⟨HS0, ⟨%X, -, HS1⟩⟩
  isplitl [HS0]; · iexists _; iexact HS0
  iexists _; iexact HS1

/-- The share each window's array is held at: the adjacency in halves, every other array whole. -/
theorem share_0 (c : Dev nD) : (dats m 0 c).share 0 = fullShare := rfl
theorem share_1 (c : Dev nD) : (dats m 0 c).share 1 = fullShare := rfl
theorem share_2 (c : Dev nD) : (dats m 0 c).share 2 = fullShare.left := rfl
theorem share_3 (c : Dev nD) : (dats m 0 c).share 3 = fullShare.right := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl

/-- Before any write-back every window's array holds the region-entry contents. -/
theorem arrAt_zero (c : Dev nD) (w : Fin cfg0.W) : (dats m 0 c).arrAt w 0 = V m c (Pipeline.arrRef spec0 w) := A_eq m c w

/-- The pipeline's arrays at entry, as points-tos of the whole buffers behind them. -/
theorem arrays_entry (c : Dev nD) :
    (dats m 0 c).arrays ((dats m 0 c).arrAt · 0)
      = bigSep Finset.univ fun w : Fin cfg0.W =>
          ((((c.tc : Thread nD τ).loc (Pipeline.arrRef spec0 w)) ↦{(dats m 0 c).share w} V m c (Pipeline.arrRef spec0 w)) : sProp 𝕄) := by
  unfold Dat.arrays
  exact bigSep_congr fun w _ => by
    rw [(arr_whole0 w).set_eq_univ]
    beta_reduce
    rw [arrAt_zero m c w]
    try rfl

/-- The buffers behind the arrays, dealt to the windows: each whole to its one window, the adjacency's in two halves
    to the two windows that read it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : (bigSep (Finset.univ.image (Pipeline.arrRef spec0)) (fun b => (((c.tc : Thread nD τ).loc b) ↦{fullShare} V m c b : sProp 𝕄)) : sProp 𝕄)
      = iprop((((c.tc : Thread nD τ).loc main_arg0) ↦{fullShare} V m c main_arg0) ∗ (((c.tc : Thread nD τ).loc main_arg2) ↦{fullShare} V m c main_arg2)
          ∗ (((c.tc : Thread nD τ).loc main_arg1) ↦{fullShare} V m c main_arg1) ∗ (((c.tc : Thread nD τ).loc main_v0) ↦{fullShare} V m c main_v0)
          ∗ (((c.tc : Thread nD τ).loc main_arg4) ↦{fullShare} V m c main_arg4) ∗ (((c.tc : Thread nD τ).loc main_v1) ↦{fullShare} V m c main_v1)
          ∗ (((c.tc : Thread nD τ).loc main_v2) ↦{fullShare} V m c main_v2)) :=
    bigSep_eq_bigSepL_of_eq [main_arg0, main_arg2, main_arg1, main_v0, main_arg4, main_v1, main_v2] (by decide) (by decide) _
  rw [arrays_entry m c, bigSep_W0, share_0, share_1, share_2, share_3, share_4, share_5, share_6, share_7]
  unfold Pipeline.arrBufs
  rw [e]
  iintro ⟨H0, H2, H1, Hv0, H4, Hv1, Hv2⟩
  ihave Hs := (pointsTo_share (PosShare.mem_left_op_right fullShare)).1 $$ H1
  icases Hs with ⟨H1l, H1r⟩
  isplitl [H0]; · iexact H0
  isplitl [H2]; · iexact H2
  isplitl [H1l]; · iexact H1l
  isplitl [H1r]; · iexact H1r
  isplitl [Hv0]; · iexact Hv0
  isplitl [H4]; · iexact H4
  isplitl [Hv1]; · iexact Hv1
  iexact Hv2

/-! ## The run and the frame -/

set_option backward.isDefEq.respectTransparency.types false in
/-- Every weakly fair execution of @main terminates, every window's array ending at what the proof data compute for
    it and every other unscoped buffer as the region found it. -/
theorem run_main : θ_run defs (onTc (τ := τ) (main (F := F))) (s₀ m ρ) (Pipeline.FramePost cfgs (dats m) 0 (V m)) :=
  Pipeline.θ_run_frame_shared_track cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := hin m) (hout := hout m)

/-- THE FRAME: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c)⟩) (run_main m ρ)

end Cert.KernelIdeal.Hand

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.Spec.lean ====
/-
  The two-layer graph convolution with a row-wise log-softmax, as ONE function of the six argument arrays over
  the extended reals, entry by entry:

      support1 = x · W1                                   [10000, 256]
      hidden   = max (adj · support1 + b1, 0)             [10000, 256]
      support2 = hidden · W2                              [10000, 64]
      logits   = adj · support2 + b2                      [10000, 64]
      out      = logits − (m + log Σ_c exp (logits − m)),  m the row's maximum.

  Products are plain sums over the contracted coordinate; a bias vector is added to every row; the row maximum is
  the fold of `max` from the pattern of −∞ over the row's entries. Nothing here mentions a program.
-/
import proofs.«165132_g65704409694814_cont_9to1c4b_205_13_alg».proof.Proof.LibMatProd

noncomputable section

open scoped BigOperators

namespace Cert.Gcn

open Idealize.ShloMosaic Idealize.ShloMosaic.ValueIdx Cert.MatProd

/-- A matrix of extended reals with `M` rows and `N` columns. -/
abbrev Mat (M N : Nat) : Type := (⟨2, ![M, N]⟩ : Shape).Idx → EReal
/-- A vector of extended reals with `N` entries. -/
abbrev Vec1 (N : Nat) : Type := (⟨1, ![N]⟩ : Shape).Idx → EReal

/-- A vector laid out as a matrix of one row. -/
def asRow {N : Nat} (b : Vec1 N) : Mat 1 N := fun i => b (ix1 (i 1))

theorem asRow_apply {N : Nat} (b : Vec1 N) (c : Fin N) : asRow b (ix2 0 c) = b (ix1 c) := rfl

/-- The value the pattern of −∞ denotes: where a row's maximum starts. -/
def negInf : EReal := Ideal.ofBits .f32 0xFF800000#32

/-- The maximum of row `r`: the fold of `max` from −∞ over the row's entries. -/
def rowMax {R C : Nat} (L : Mat R C) (r : Fin R) : EReal :=
  Finset.univ.fold max negInf (fun c : Fin C => L (ix2 r c))

/-- The sum over row `r` of the exponentials of the entries less the row's maximum. -/
def rowSumExp {R C : Nat} (L : Mat R C) (r : Fin R) : EReal :=
  ∑ c : Fin C, Ideal.exp (L (ix2 r c) - rowMax L r)

/-- The row-wise log-softmax, written as the entry less (the row's maximum plus the logarithm of the shifted
    exponentials' sum). -/
def logSoftmax {R C : Nat} (L : Mat R C) : Mat R C :=
  fun i => L i - (rowMax L (i 0) + Ideal.log (rowSumExp L (i 0)))

theorem logSoftmax_apply {R C : Nat} (L : Mat R C) (r : Fin R) (c : Fin C) :
    logSoftmax L (ix2 r c) = L (ix2 r c) - (rowMax L r + Ideal.log (rowSumExp L r)) := rfl

/-- A one-row matrix added to every row. -/
def addRow {R C : Nat} (A : Mat R C) (b : Mat 1 C) : Mat R C := fun i => A i + b (ix2 0 (i 1))

theorem addRow_apply {R C : Nat} (A : Mat R C) (b : Mat 1 C) (r : Fin R) (c : Fin C) :
    addRow A b (ix2 r c) = A (ix2 r c) + b (ix2 0 c) := rfl

/-- The first layer's support: features times weights. -/
def support1 (x : Mat 10000 256) (W1 : Mat 256 256) : Mat 10000 256 := prod x W1

/-- The hidden layer: adjacency times support, plus bias, clamped below at zero. -/
def hidden (x : Mat 10000 256) (adj : Mat 10000 10000) (W1 : Mat 256 256) (b1 : Vec1 256) : Mat 10000 256 :=
  denseRelu adj (support1 x W1) (asRow b1)

/-- The second layer's support: hidden times weights. -/
def support2 (x : Mat 10000 256) (adj : Mat 10000 10000) (W1 : Mat 256 256) (b1 : Vec1 256) (W2 : Mat 256 64) :
    Mat 10000 64 := prod (hidden x adj W1 b1) W2

/-- The class scores before normalisation: adjacency times the second support, plus bias. -/
def logits (x : Mat 10000 256) (adj : Mat 10000 10000) (W1 : Mat 256 256) (b1 : Vec1 256) (W2 : Mat 256 64)
    (b2 : Vec1 64) : Mat 10000 64 := addRow (prod adj (support2 x adj W1 b1 W2)) (asRow b2)

/-- The network's output: the row-wise log-softmax of the class scores. -/
def out (x : Mat 10000 256) (adj : Mat 10000 10000) (W1 : Mat 256 256) (b1 : Vec1 256) (W2 : Mat 256 64)
    (b2 : Vec1 64) : Mat 10000 64 := logSoftmax (logits x adj W1 b1 W2 b2)

end Cert.Gcn

end
-- ==== Proof.LibRowBlocks.lean ====
/-
  Row blocks of matrices over the extended reals.

  `rowsFrom r0 hr A` is rows `r0, …, r0 + m' - 1` of a matrix `A` with `n` rows (`hr : r0 + m' ≤ n`).
  A block of rows of a plain matrix product is the product of that block of rows of the LEFT operand with the whole
  right operand (`prod_rowsFrom`, by `rfl`: entry `(p, q)` of either side is `∑ k, A (r0 + p, k) * B (k, q)`) —
  what a kernel that tiles the rows of a product computes per block. General in every extent; no finiteness is asked.
  Also `zero_offsets`: the literal offsets `![0, 0]` of a whole-block access are the constant zero function.
  Imports the plain-product file `LibMatProd` (namespace `Cert.MatProd`), which must be copied with it.
-/
import proofs.«165132_g65704409694814_cont_9to1c4b_205_13_alg».proof.Proof.LibMatProd

noncomputable section

open scoped BigOperators

namespace Cert.RowBlocks

open Idealize.ShloMosaic Idealize.ShloMosaic.ValueIdx Cert.MatProd

/-- A matrix of extended reals with `M` rows and `N` columns. -/
abbrev Mat (M N : Nat) : Type := (⟨2, ![M, N]⟩ : Shape).Idx → EReal

variable {n f l m' : Nat}

/-- The zero offsets of a whole-block access, however they are spelt. -/
theorem zero_offsets : (![0, 0] : Fin 2 → Nat) = fun _ => 0 := funext fun a => by fin_cases a <;> rfl

/-- Rows `r0, …, r0 + m' - 1` of a matrix. -/
def rowsFrom (r0 : Nat) (hr : r0 + m' ≤ n) (A : Mat n f) : Mat m' f :=
  fun y => A (ix2 ⟨r0 + (y 0).val, by have := idx2_lt0 y; omega⟩ (y 1))

/-- Entry `(p, q)` of the block is entry `(r0 + p, q)` of the matrix. -/
theorem rowsFrom_apply (r0 : Nat) (hr : r0 + m' ≤ n) (A : Mat n f) (p : Fin m') (q : Fin f) :
    rowsFrom r0 hr A (ix2 p q) = A (ix2 ⟨r0 + p.val, by have := p.isLt; omega⟩ q) := rfl

/-- A block of rows of a product is the product of that block of rows of the left operand. -/
theorem prod_rowsFrom (r0 : Nat) (hr : r0 + m' ≤ n) (A : Mat n f) (B : Mat f l) :
    prod (rowsFrom r0 hr A) B = rowsFrom r0 hr (prod A B) := rfl

/-- A function applied entry by entry commutes with taking a block of rows. -/
theorem map_rowsFrom (g : EReal → EReal) (r0 : Nat) (hr : r0 + m' ≤ n) (A : Mat n f) :
    (fun i => g (rowsFrom r0 hr A i)) = rowsFrom r0 hr (fun i => g (A i)) := rfl

end Cert.RowBlocks

end
-- ==== Proof.KIBlocks.lean ====
/-
  Each window's block at a grid point, as a piece of its argument array over the extended reals: the features, the two
  weight matrices and the two bias rows are one whole block at every point; the two adjacency windows are the 200-row
  strips at rows 200·(2·(t mod 25)) and 200·(2·(t mod 25) + 1); a bias row is its vector laid out as one row (the host
  reshape before the region).
-/
import proofs.«165132_g65704409694814_cont_9to1c4b_205_13_alg».proof.Proof.KIRuns
import proofs.«165132_g65704409694814_cont_9to1c4b_205_13_alg».proof.Proof.Spec
import proofs.«165132_g65704409694814_cont_9to1c4b_205_13_alg».proof.Proof.LibRowBlocks
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.Gcn
open Cert.RowBlocks (rowsFrom)

variable (m : (ℓ : Loc nD τ sig) → Buf (Elt Ideal) ℓ)

/-! ## The arguments as matrices and vectors -/

abbrev argX (c : Dev nD) : Mat 10000 256 := m ((c : Thread nD τ).loc main_arg0)
abbrev argAdj (c : Dev nD) : Mat 10000 10000 := m ((c : Thread nD τ).loc main_arg1)
abbrev argW1 (c : Dev nD) : Mat 256 256 := m ((c : Thread nD τ).loc main_arg2)
abbrev argB1 (c : Dev nD) : Vec1 256 := m ((c : Thread nD τ).loc main_arg3)
abbrev argW2 (c : Dev nD) : Mat 256 64 := m ((c : Thread nD τ).loc main_arg4)
abbrev argB2 (c : Dev nD) : Vec1 64 := m ((c : Thread nD τ).loc main_arg5)

/-! ## The index maps, decided over the grid -/

theorem idx0 : ∀ t : Fin cfg0.N, ∀ a : Fin 2, win0_0.index t a = 0 :=
  (by decide +kernel : ∀ t : Fin grid0.N, ∀ a : Fin 2, win0_0.index t a = 0)

theorem idx1 : ∀ t : Fin cfg0.N, ∀ a : Fin 2, win0_1.index t a = 0 :=
  (by decide +kernel : ∀ t : Fin grid0.N, ∀ a : Fin 2, win0_1.index t a = 0)

theorem idx4 : ∀ t : Fin cfg0.N, ∀ a : Fin 2, win0_4.index t a = 0 :=
  (by decide +kernel : ∀ t : Fin grid0.N, ∀ a : Fin 2, win0_4.index t a = 0)

theorem idx5 : ∀ t : Fin cfg0.N, ∀ a : Fin 2, win0_5.index t a = 0 :=
  (by decide +kernel : ∀ t : Fin grid0.N, ∀ a : Fin 2, win0_5.index t a = 0)

theorem idx6 : ∀ t : Fin cfg0.N, ∀ a : Fin 2, win0_6.index t a = 0 :=
  (by decide +kernel : ∀ t : Fin grid0.N, ∀ a : Fin 2, win0_6.index t a = 0)

theorem idx2 : ∀ t : Fin cfg0.N, win0_2.index t 0 = 2 * (t.val % 25) ∧ win0_2.index t 1 = 0 :=
  (by decide +kernel : ∀ t : Fin grid0.N, win0_2.index t 0 = 2 * (t.val % 25) ∧ win0_2.index t 1 = 0)
theorem idx3 : ∀ t : Fin cfg0.N, win0_3.index t 0 = 2 * (t.val % 25) + 1 ∧ win0_3.index t 1 = 0 :=
  (by decide +kernel : ∀ t : Fin grid0.N, win0_3.index t 0 = 2 * (t.val % 25) + 1 ∧ win0_3.index t 1 = 0)

/-! ## The reshaped bias rows -/

theorem V_main_v0 (c : Dev nD) : (V m c main_v0 : S1x256.Idx → EReal) = shapeCast S1x256 (argB1 m c) shapeCasts_S256_S1x256 := by
  dsimp only [V]
  simp only [hostOps0, List.flatten_cons, List.flatten_nil, List.append_nil, List.cons_append, List.nil_append]
  after_results
  rfl

theorem V_main_v1 (c : Dev nD) : (V m c main_v1 : S1x64.Idx → EReal) = shapeCast S1x64 (argB2 m c) shapeCasts_S64_S1x64 := by
  dsimp only [V]
  simp only [hostOps0, List.flatten_cons, List.flatten_nil, List.append_nil, List.cons_append, List.nil_append]
  after_results
  rfl

/-- A vector cast to a one-row matrix is the vector laid out as a row. -/
theorem shapeCast_row {N : Nat} (b : Vec1 N) (h : (⟨1, ![N]⟩ : Shape).ShapeCasts ⟨2, ![1, N]⟩) :
    shapeCast (⟨2, ![1, N]⟩ : Shape) b h = asRow b := by
  funext j
  rw [shapeCast_addUnit_apply ![N] b h j]
  unfold asRow
  refine congrArg b (funext fun a => ?_)
  match a with
  | ⟨0, _⟩ => rfl

/-! ## The blocks -/

theorem iblk0 (c : Dev nD) (t : Fin cfg0.N) : (iblk m c 0 t : Mat 10000 256) = argX m c := by
  funext y
  unfold iblk
  rw [View.read_apply]
  show V m c main_arg0 (((cfg0.win 0).blk t).view.emb y) = _
  rw [V_main_arg0]
  refine congrArg (argX m c) (funext fun a => Fin.ext ?_)
  show win0_0.index t a * S10000x256.size a + 1 * (y a).val = (y a).val
  rw [idx0 t a]; omega

theorem iblk1 (c : Dev nD) (t : Fin cfg0.N) : (iblk m c 1 t : Mat 256 256) = argW1 m c := by
  funext y
  unfold iblk
  rw [View.read_apply]
  show V m c main_arg2 (((cfg0.win 1).blk t).view.emb y) = _
  rw [V_main_arg2]
  refine congrArg (argW1 m c) (funext fun a => Fin.ext ?_)
  show win0_1.index t a * S256x256.size a + 1 * (y a).val = (y a).val
  rw [idx1 t a]; omega

theorem iblk5 (c : Dev nD) (t : Fin cfg0.N) : (iblk m c 5 t : Mat 256 64) = argW2 m c := by
  funext y
  unfold iblk
  rw [View.read_apply]
  show V m c main_arg4 (((cfg0.win 5).blk t).view.emb y) = _
  rw [V_main_arg4]
  refine congrArg (argW2 m c) (funext fun a => Fin.ext ?_)
  show win0_5.index t a * S256x64.size a + 1 * (y a).val = (y a).val
  rw [idx5 t a]; omega

theorem iblk4 (c : Dev nD) (t : Fin cfg0.N) : (iblk m c 4 t : Mat 1 256) = asRow (argB1 m c) := by
  rw [← shapeCast_row (argB1 m c) shapeCasts_S256_S1x256, ← V_main_v0]
  funext y
  unfold iblk
  rw [View.read_apply]
  show V m c main_v0 (((cfg0.win 4).blk t).view.emb y) = _
  refine congrArg (V m c main_v0) (funext fun a => Fin.ext ?_)
  show win0_4.index t a * S1x256.size a + 1 * (y a).val = (y a).val
  rw [idx4 t a]; omega

theorem iblk6 (c : Dev nD) (t : Fin cfg0.N) : (iblk m c 6 t : Mat 1 64) = asRow (argB2 m c) := by
  rw [← shapeCast_row (argB2 m c) shapeCasts_S64_S1x64, ← V_main_v1]
  funext y
  unfold iblk
  rw [View.read_apply]
  show V m c main_v1 (((cfg0.win 6).blk t).view.emb y) = _
  refine congrArg (V m c main_v1) (funext fun a => Fin.ext ?_)
  show win0_6.index t a * S1x64.size a + 1 * (y a).val = (y a).val
  rw [idx6 t a]; omega

/-- The first adjacency window's block: the 200-row strip at row `200·(2·(t mod 25))`. -/
theorem iblk2 (c : Dev nD) (t : Fin cfg0.N) (r0 : ℕ) (hr0 : r0 = 200 * (2 * (t.val % 25))) (hr : r0 + 200 ≤ 10000) :
    (iblk m c 2 t : Mat 200 10000) = rowsFrom r0 hr (argAdj m c) := by
  funext y
  unfold iblk rowsFrom
  rw [View.read_apply]
  show V m c main_arg1 (((cfg0.win 2).blk t).view.emb y) = _
  rw [V_main_arg1]
  refine congrArg (argAdj m c) (funext fun a => Fin.ext ?_)
  match a with
  | ⟨0, _⟩ =>
    show win0_2.index t 0 * 200 + 1 * (y 0).val = r0 + (y 0).val
    rw [(idx2 t).1, hr0]; omega
  | ⟨1, _⟩ =>
    show win0_2.index t 1 * 10000 + 1 * (y 1).val = (y 1).val
    rw [(idx2 t).2]; omega

/-- The second adjacency window's block: the 200-row strip at row `200·(2·(t mod 25) + 1)`. -/
theorem iblk3 (c : Dev nD) (t : Fin cfg0.N) (r0 : ℕ) (hr0 : r0 = 200 * (2 * (t.val % 25) + 1)) (hr : r0 + 200 ≤ 10000) :
    (iblk m c 3 t : Mat 200 10000) = rowsFrom r0 hr (argAdj m c) := by
  funext y
  unfold iblk rowsFrom
  rw [View.read_apply]
  show V m c main_arg1 (((cfg0.win 3).blk t).view.emb y) = _
  rw [V_main_arg1]
  refine congrArg (argAdj m c) (funext fun a => Fin.ext ?_)
  match a with
  | ⟨0, _⟩ =>
    show win0_3.index t 0 * 200 + 1 * (y 0).val = r0 + (y 0).val
    rw [(idx3 t).1, hr0]; omega
  | ⟨1, _⟩ =>
    show win0_3.index t 1 * 10000 + 1 * (y 1).val = (y 1).val
    rw [(idx3 t).2]; omega

end Cert.KernelIdeal.Hand

end
-- ==== Proof.KIPieces.lean ====
/-
  What the pieces found by the kernel's frame run ARE, in the payloads of the kernel's arithmetic: the first point's
  one store into the first scratch is the first payload of its two blocks; a first-phase point's two stores into the
  second scratch are two 200-row slabs, the upper the fourth payload and the lower the copied fifth, of the point's
  adjacency strips, the first support, the first bias row and the second weights; a second-phase point's one store
  into the output window's buffer is the third payload of its adjacency strips, the second support and the second bias
  row. Then the frame's named values read back: the first support, the output buffer, and the rows of the second
  scratch slab by slab. Generic in the number type.
-/
import proofs.«165132_g65704409694814_cont_9to1c4b_205_13_alg».proof.Proof.KIFrame
import Idealize.ShloMosaic.Lib.WritesUnit
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole-block access are the constant zero function. -/
theorem zero_off2 : (![0, 0] : Fin 2 → ℕ) = fun _ => 0 := funext fun a => by fin_cases a <;> rfl

/-! ## The pieces each case's run found, over the blocks it is run at -/

/-- The first point's one store into the first scratch: the first payload of the two blocks it loads. -/
theorem piecesA_first (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x256 .f32) (harg9 : arg9.IsWhole) (arg10 : Memref sig .tc .vmem S10000x64 .f32) (harg10 : arg10.IsWhole) (hc1 : cond1 i) (hc2 : cond2 i) (hc3 : ¬cond3 i) (x0 : Vec F S10000x256 .f32) (x1 : Vec F S256x256 .f32) (x2 : Vec F S200x10000 .f32) (x3 : Vec F S200x10000 .f32) (x4 : Vec F S1x256 .f32) (x5 : Vec F S256x64 .f32) (x6 : Vec F S1x64 .f32) :
    (kernelRun_A (F := F) c i arg1 harg1 arg2 harg2 arg3 harg3 arg4 harg4 arg5 harg5 arg6 harg6 arg7 harg7 arg8 harg8 arg9 harg9 arg10 harg10 hc1 hc2 hc3 x0 x1 x2 x3 x4 x5 x6).1
      = [⟨Rect.unit (s := S10000x256) ![0, 0] S10000x256.size inb_S10000x256_S10000x256_0_0, k0_pay1 x0 x1⟩] := by
  unfold kernelRun_A; dsimp only; sl_unfold_run_names
  simp only [View.readAt_eq_ld, Memref.IsWhole.read_unread, View.ld_unit_zero (S := S10000x256) zero_off2,
    View.ld_unit_zero (S := S256x256) zero_off2]

/-- The first point's two stores into the second scratch, the first support read back from the first scratch. -/
theorem piecesA_second (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x256 .f32) (harg9 : arg9.IsWhole) (arg10 : Memref sig .tc .vmem S10000x64 .f32) (harg10 : arg10.IsWhole) (hc1 : cond1 i) (hc2 : cond2 i) (hc3 : ¬cond3 i) (x0 : Vec F S10000x256 .f32) (x1 : Vec F S256x256 .f32) (x2 : Vec F S200x10000 .f32) (x3 : Vec F S200x10000 .f32) (x4 : Vec F S1x256 .f32) (x5 : Vec F S256x64 .f32) (x6 : Vec F S1x64 .f32) :
    (kernelRun_A (F := F) c i arg1 harg1 arg2 harg2 arg3 harg3 arg4 harg4 arg5 harg5 arg6 harg6 arg7 harg7 arg8 harg8 arg9 harg9 arg10 harg10 hc1 hc2 hc3 x0 x1 x2 x3 x4 x5 x6).2.1
      = [⟨Rect.unit (s := S10000x64) (k0_off2 i) S200x64.size (k0_off2_inb i hc2), k0_pay2 (k0_pay5 x3 (k0_pay1 x0 x1) x4 x5)⟩,
         ⟨Rect.unit (s := S10000x64) (k0_off1 i) S200x64.size (k0_off1_inb i hc2), k0_pay4 x2 (k0_pay1 x0 x1) x4 x5⟩] := by
  unfold kernelRun_A; dsimp only; sl_unfold_run_names
  simp only [View.readAt_eq_ld, Memref.IsWhole.read_unread, View.readCov_unit_zero (S := S10000x256) _ zero_off2, View.ld_unit_zero (S := S10000x256) zero_off2,
    View.ld_unit_zero (S := S256x256) zero_off2, View.ld_unit_zero (S := S200x10000) zero_off2, View.ld_unit_zero (S := S1x256) zero_off2,
    View.ld_unit_zero (S := S256x64) zero_off2]

/-- A later first-phase point's two stores into the second scratch. -/
theorem piecesB (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x256 .f32) (harg9 : arg9.IsWhole) (arg10 : Memref sig .tc .vmem S10000x64 .f32) (harg10 : arg10.IsWhole) (hc1 : ¬cond1 i) (hc2 : cond2 i) (hc3 : ¬cond3 i) (x0 : Vec F S10000x256 .f32) (x1 : Vec F S256x256 .f32) (x2 : Vec F S200x10000 .f32) (x3 : Vec F S200x10000 .f32) (x4 : Vec F S1x256 .f32) (x5 : Vec F S256x64 .f32) (x6 : Vec F S1x64 .f32) (xs0 : Vec F S10000x256 .f32) :
    (kernelRun_B (F := F) c i arg1 harg1 arg2 harg2 arg3 harg3 arg4 harg4 arg5 harg5 arg6 harg6 arg7 harg7 arg8 harg8 arg9 harg9 arg10 harg10 hc1 hc2 hc3 x0 x1 x2 x3 x4 x5 x6 xs0).1
      = [⟨Rect.unit (s := S10000x64) (k0_off2 i) S200x64.size (k0_off2_inb i hc2), k0_pay2 (k0_pay5 x3 xs0 x4 x5)⟩,
         ⟨Rect.unit (s := S10000x64) (k0_off1 i) S200x64.size (k0_off1_inb i hc2), k0_pay4 x2 xs0 x4 x5⟩] := by
  unfold kernelRun_B; dsimp only; sl_unfold_run_names
  simp only [View.readAt_eq_ld, Memref.IsWhole.read_unread, View.ld_unit_zero (S := S10000x256) zero_off2,
    View.ld_unit_zero (S := S200x10000) zero_off2, View.ld_unit_zero (S := S1x256) zero_off2, View.ld_unit_zero (S := S256x64) zero_off2]

/-- A second-phase point's one store into the output window's buffer. -/
theorem piecesC (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x256 .f32) (harg9 : arg9.IsWhole) (arg10 : Memref sig .tc .vmem S10000x64 .f32) (harg10 : arg10.IsWhole) (hc1 : ¬cond1 i) (hc2 : ¬cond2 i) (hc3 : cond3 i) (x0 : Vec F S10000x256 .f32) (x1 : Vec F S256x256 .f32) (x2 : Vec F S200x10000 .f32) (x3 : Vec F S200x10000 .f32) (x4 : Vec F S1x256 .f32) (x5 : Vec F S256x64 .f32) (x6 : Vec F S1x64 .f32) (xs0 : Vec F S10000x256 .f32)
    (xs1 : Vec F S10000x64 .f32) :
    (kernelRun_C (F := F) c i arg1 harg1 arg2 harg2 arg3 harg3 arg4 harg4 arg5 harg5 arg6 harg6 arg7 harg7 arg8 harg8 arg9 harg9 arg10 harg10 hc1 hc2 hc3 x0 x1 x2 x3 x4 x5 x6 xs0 xs1).1
      = [⟨Rect.unit (s := S400x64) ![0, 0] S400x64.size inb_S400x64_S400x64_0_0, k0_pay3 x2 xs1 x3 xs1 x6⟩] := by
  unfold kernelRun_C; dsimp only; sl_unfold_run_names
  simp only [View.readAt_eq_ld, Memref.IsWhole.read_unread, View.ld_unit_zero (S := S200x10000) zero_off2,
    View.ld_unit_zero (S := S10000x64) zero_off2, View.ld_unit_zero (S := S1x64) zero_off2]

/-! ## What the frame's named values are -/

/-- THE FIRST SUPPORT the kernel holds is the first payload of the first point's two blocks. -/
theorem S1val_eq (c : Dev nD) : S1val m c = k0_pay1 (iblk m c 0 t0) (iblk m c 1 t0) := by
  unfold S1val
  rw [View.read_writes_junk_eq_canon]
  have h : (runA m c).1 = [⟨Rect.unit (s := S10000x256) ![0, 0] S10000x256.size inb_S10000x256_S10000x256_0_0,
      k0_pay1 (iblk m c 0 t0) (iblk m c 1 t0)⟩] :=
    piecesA_first (F := F) c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) _ _ _ (iblk m c 0 t0) (iblk m c 1 t0) (iblk m c 2 t0) (iblk m c 3 t0) (iblk m c 4 t0) (iblk m c 5 t0) (iblk m c 6 t0)
  rw [h]
  exact View.canon_unit_zero zero_off2 _ _

/-- What a second-phase point leaves in the output window's buffer: the third payload of its two adjacency strips, the
    second support and the second bias row. -/
theorem out7_eq (c : Dev nD) (t : Fin cfg0.N) (h3 : 25 ≤ t.val) :
    out7 m c t = k0_pay3 (iblk m c 2 t) (S2val m c) (iblk m c 3 t) (S2val m c) (iblk m c 6 t) := by
  unfold out7
  rw [dif_pos h3, View.read_writes_junk_eq_canon]
  have h : (runC m c t h3).1 = [⟨Rect.unit (s := S400x64) ![0, 0] S400x64.size inb_S400x64_S400x64_0_0,
      k0_pay3 (iblk m c 2 t) (S2val m c) (iblk m c 3 t) (S2val m c) (iblk m c 6 t)⟩] :=
    piecesC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) _ _ _ (iblk m c 0 t) (iblk m c 1 t) (iblk m c 2 t) (iblk m c 3 t) (iblk m c 4 t) (iblk m c 5 t) (iblk m c 6 t) (S1val m c) (S2val m c)
  rw [h]
  exact View.canon_unit_zero zero_off2 _ _

/-- The two stores of a first-phase point into the second scratch, first point or later: two 200-row slabs, the upper
    the fourth payload and the lower the fifth, of the point's adjacency strips, the first support, the first bias row and
    the second weights. -/
theorem LS1At_eq (c : Dev nD) (t : Fin cfg0.N) (h2 : t.val < 25) :
    LS1At m c t h2
      = [⟨Rect.unit (s := S10000x64) (k0_off2 (grid0.coords t)) S200x64.size (k0_off2_inb (grid0.coords t) ((hcond2 t).mpr h2)),
            k0_pay2 (k0_pay5 (iblk m c 3 t) (S1val m c) (iblk m c 4 t) (iblk m c 5 t))⟩,
         ⟨Rect.unit (s := S10000x64) (k0_off1 (grid0.coords t)) S200x64.size (k0_off1_inb (grid0.coords t) ((hcond2 t).mpr h2)),
            k0_pay4 (iblk m c 2 t) (S1val m c) (iblk m c 4 t) (iblk m c 5 t)⟩] := by
  unfold LS1At
  by_cases h1 : t.val = 0
  · obtain rfl : t = t0 := Fin.ext h1
    rw [dif_pos rfl, S1val_eq]
    exact piecesA_second (F := F) c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) _ _ _ (iblk m c 0 t0) (iblk m c 1 t0) (iblk m c 2 t0) (iblk m c 3 t0) (iblk m c 4 t0) (iblk m c 5 t0) (iblk m c 6 t0)
  · rw [dif_neg h1]
    exact piecesB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) _ _ _ (iblk m c 0 t) (iblk m c 1 t) (iblk m c 2 t) (iblk m c 3 t) (iblk m c 4 t) (iblk m c 5 t) (iblk m c 6 t) (S1val m c)

/-! ## Two 200-row slabs read back -/

/-- The first store's offsets at point `t`: row 400·t, column 0. -/
theorem pieces_off1_eq : ∀ t : Fin cfg0.N, t.val < 25 → k0_off1 (grid0.coords t) = ![400 * t.val, 0] :=
  (by decide +kernel : ∀ t : Fin grid0.N, t.val < 25 → k0_off1 (grid0.coords t) = ![400 * t.val, 0])
/-- The second store's: row 400·t + 200, column 0. -/
theorem pieces_off2_eq : ∀ t : Fin cfg0.N, t.val < 25 → k0_off2 (grid0.coords t) = ![400 * t.val + 200, 0] :=
  (by decide +kernel : ∀ t : Fin grid0.N, t.val < 25 → k0_off2 (grid0.coords t) = ![400 * t.val + 200, 0])

/-- A row of the upper slab reads the older store's payload at the row less the slab's first row. -/
theorem slab_lo (r : ℕ) (o1 o2 : Fin 2 → ℕ)
    (hb1 : ∀ a, o1 a + S200x64.size a ≤ S10000x64.size a) (hb2 : ∀ a, o2 a + S200x64.size a ≤ S10000x64.size a)
    (w1 : (Rect.unit (s := S10000x64) o1 S200x64.size hb1).shape.Idx → Elt F .f32)
    (w2 : (Rect.unit (s := S10000x64) o2 S200x64.size hb2).shape.Idx → Elt F .f32)
    (ho1 : o1 = ![r, 0]) (ho2 : o2 = ![r + 200, 0]) (y : S10000x64.Idx) (hlo : r ≤ (y 0).val) (hhi : (y 0).val < r + 200) :
    VS1.read (Elt F) (VS1.writes (Elt F) VS1.junk
        [⟨Rect.unit (s := S10000x64) o2 S200x64.size hb2, w2⟩, ⟨Rect.unit (s := S10000x64) o1 S200x64.size hb1, w1⟩]) y
      = w1 (ValueIdx.ix2 ⟨(y 0).val - r, by omega⟩ (y 1)) := by
  rw [View.read_writes_cons_rows_of_not_mem VS1 VS1.junk hb2 w2 _ y ho2 (W := 200) rfl (Or.inl (by omega))]
  exact View.read_writes_cons_rows_of_mem VS1 VS1.junk hb1 w1 [] y (ValueIdx.ix2 ⟨(y 0).val - r, by omega⟩ (y 1)) ho1
    (by show (y 0).val = r + ((y 0).val - r); omega) rfl

/-- A row of the lower slab reads the newer store's payload at the row less the slab's first row. -/
theorem slab_hi (r : ℕ) (o1 o2 : Fin 2 → ℕ)
    (hb1 : ∀ a, o1 a + S200x64.size a ≤ S10000x64.size a) (hb2 : ∀ a, o2 a + S200x64.size a ≤ S10000x64.size a)
    (w1 : (Rect.unit (s := S10000x64) o1 S200x64.size hb1).shape.Idx → Elt F .f32)
    (w2 : (Rect.unit (s := S10000x64) o2 S200x64.size hb2).shape.Idx → Elt F .f32)
    (ho2 : o2 = ![r + 200, 0]) (y : S10000x64.Idx) (hlo : r + 200 ≤ (y 0).val) (hhi : (y 0).val < r + 400) :
    VS1.read (Elt F) (VS1.writes (Elt F) VS1.junk
        [⟨Rect.unit (s := S10000x64) o2 S200x64.size hb2, w2⟩, ⟨Rect.unit (s := S10000x64) o1 S200x64.size hb1, w1⟩]) y
      = w2 (ValueIdx.ix2 ⟨(y 0).val - r - 200, by omega⟩ (y 1)) :=
  View.read_writes_cons_rows_of_mem VS1 VS1.junk hb2 w2 _ y (ValueIdx.ix2 ⟨(y 0).val - r - 200, by omega⟩ (y 1)) ho2
    (by show (y 0).val = r + 200 + ((y 0).val - r - 200); omega) rfl

/-- Rows 400·t … 400·t + 199 of the second scratch after point `t`'s stores: the fourth payload. -/
theorem S2_slab_lo (c : Dev nD) (t : Fin cfg0.N) (h2 : t.val < 25) (y : S10000x64.Idx)
    (hlo : 400 * t.val ≤ (y 0).val) (hhi : (y 0).val < 400 * t.val + 200) :
    VS1.read (Elt F) (VS1.writes (Elt F) VS1.junk (LS1At m c t h2)) y
      = k0_pay4 (iblk m c 2 t) (S1val m c) (iblk m c 4 t) (iblk m c 5 t)
          (ValueIdx.ix2 ⟨(y 0).val - 400 * t.val, by omega⟩ (y 1)) := by
  rw [LS1At_eq m c t h2]
  exact slab_lo (F := F) (400 * t.val) _ _ _ _ _ _ (pieces_off1_eq t h2) (pieces_off2_eq t h2) y hlo hhi

/-- Rows 400·t + 200 … 400·t + 399: the fifth payload, copied. -/
theorem S2_slab_hi (c : Dev nD) (t : Fin cfg0.N) (h2 : t.val < 25) (y : S10000x64.Idx)
    (hlo : 400 * t.val + 200 ≤ (y 0).val) (hhi : (y 0).val < 400 * t.val + 400) :
    VS1.read (Elt F) (VS1.writes (Elt F) VS1.junk (LS1At m c t h2)) y
      = k0_pay2 (k0_pay5 (iblk m c 3 t) (S1val m c) (iblk m c 4 t) (iblk m c 5 t))
          (ValueIdx.ix2 ⟨(y 0).val - 400 * t.val - 200, by omega⟩ (y 1)) := by
  rw [LS1At_eq m c t h2]
  exact slab_hi (F := F) (400 * t.val) _ _ _ _ _ _ (pieces_off2_eq t h2) y hlo hhi

end Cert.KernelIdeal.Hand

end
-- ==== Proof.LibCat.lean ====
/-
  A two-piece concatenation as a plain binary function of its pieces, so that a rewriting pass can reach the pieces (they
  sit, in the printed form, inside a list of shape-indexed pairs), with its reading at an index: along the concatenated
  axis, coordinates below the first piece's extent read the first piece, the others read the second piece at the
  coordinate less that extent. And the evaluation of a line of host operations at a buffer as one rewriting pass that
  also folds such concatenations.
-/
import Idealize.ShloMosaic.PureOps.Ideal
import Idealize.ShloMosaic.Lib.Pipeline.Value
import Idealize.ShloMosaic.Lib.ValueIdx
import Idealize.ShloMosaic.Lib.StableHlo.Run

noncomputable section

namespace Cert.Cat

open Idealize.ShloMosaic Idealize.ShloMosaic.ValueIdx

variable {α : Type}

/-- The concatenation of two pieces along axis `a`. -/
def cat2 (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem cat2_fold (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = cat2 t a s₁ s₂ h x₁ x₂ := rfl

/-- Two `[R, A]` and `[R, B]` pieces side by side: a column below `A` reads the first piece. -/
theorem cat2_cols_left {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin A) :
    cat2 ⟨2, ![R, A + B]⟩ 1 ⟨2, ![R, A]⟩ ⟨2, ![R, B]⟩ h x₁ x₂ (ix2 r (Fin.castAdd B k)) = x₁ (ix2 r k) :=
  concatenate_pair_apply_left 1 x₁ x₂ h (ix2 r (Fin.castAdd B k)) rfl (ix2 r k) (fun b => by
    match b with
    | ⟨0, _⟩ => rfl
    | ⟨1, _⟩ => rfl)

/-- … and a column `A + k` reads the second piece at column `k`. -/
theorem cat2_cols_right {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin B) :
    cat2 ⟨2, ![R, A + B]⟩ 1 ⟨2, ![R, A]⟩ ⟨2, ![R, B]⟩ h x₁ x₂ (ix2 r (Fin.natAdd A k)) = x₂ (ix2 r k) :=
  concatenate_pair_apply_right 1 x₁ x₂ h (ix2 r (Fin.natAdd A k)) rfl rfl (ix2 r k) (fun b hb => by
    match b with
    | ⟨0, _⟩ => rfl
    | ⟨1, _⟩ => exact absurd rfl hb) (by show k.val + A = A + k.val; omega)

end Cert.Cat

open Idealize.ShloMosaic.StableHlo in
/-- A line's fold at a buffer: the library's one-pass evaluation, alternated with folding two-piece concatenations into
    binary functions (whose pieces the next pass then reaches), until neither makes progress. -/
macro "eval_line" : tactic =>
  `(tactic| repeat (first | after_results_simp | simp only [Cert.Cat.cat2_fold]))

end
-- ==== Proof.LibKeepdims.lean ====
/-
  Column ("keepdims") layouts read at an index given by coordinates.

  A row statistic of a matrix (a row sum, a row maximum) is a vector `[a]`; to combine it with the matrix again it is
  first viewed as the one-column matrix `[a, 1]` and then repeated along the columns to `[a, b]`. A statistic of the
  whole matrix is a one-element vector `[1]`, viewed as `[1, 1]` and repeated down the rows to the column `[a, 1]`.
  And a matrix that is one block of a rank-4 array is the block `[1, 1, a, b]` with its two unit axes dropped, or
  the matrix with two unit axes put in front. Each lemma here says which ONE element of the operand such a view reads
  at an index written by coordinates: a shape cast keeps the row-major position, and a broadcast reads coordinate `0`
  on an axis of size one. They complement the leading-unit-axis casts and the row broadcast `[1, b] → [a, b]` of the
  library's layout lemmas; all are general in the sizes.
-/
import Idealize.ShloMosaic.Lib.ValueLayout

namespace Cert.Keepdims

open Idealize.ShloMosaic Idealize.ShloMosaic.ValueIdx

variable {α : Type}

/-! ## A vector as a one-column matrix, and the column repeated -/

/-- An `[a]` vector cast to the column `[a, 1]` reads, at `(i, u)`, the vector at `i`: the position `i · 1 + u` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One number as a `[1, 1]` matrix, repeated down a column -/

/-- A one-element vector `[1]` cast to `[1, 1]` reads its one element everywhere. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) := by
  obtain rfl : u = 0 := Subsingleton.elim _ _
  exact shapeCast_a_a1_apply x h 0 v

/-- A `[1, 1]` matrix broadcast to the column `[a, 1]` reads its one element in every row. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  obtain rfl : u = 0 := Subsingleton.elim _ _
  exact broadcastTo_1b_ab_apply v h p 0

/-! ## Two leading unit axes dropped from, or added to, a matrix -/

/-- A `[1, 1, a, b]` block cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- A matrix `[a, b]` cast to the block `[1, 1, a, b]` reads, at `(u, v, i, j)`, the matrix at `(i, j)`, whatever the
    two unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.add_zero])

end Cert.Keepdims
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.Payloads.lean ====
/-
  What each pure value the kernel stores IS, over the extended reals, in the vocabulary of the specification: the first
  support is a plain product; the copy is its argument; each half of a block of the second support is the dense layer of
  200 adjacency rows times the second weights; a block of the output is the row-wise log-softmax of two 200-row products
  stacked, plus the bias row. And the row-block identities that turn these into blocks of rows of the specification's
  whole arrays.
-/
import proofs.«165132_g65704409694814_cont_9to1c4b_205_13_alg».proof.Proof.Gen.KernelIdeal.Skeleton
import proofs.«165132_g65704409694814_cont_9to1c4b_205_13_alg».proof.Proof.Spec
import proofs.«165132_g65704409694814_cont_9to1c4b_205_13_alg».proof.Proof.LibMatProd
import proofs.«165132_g65704409694814_cont_9to1c4b_205_13_alg».proof.Proof.LibRowBlocks
import proofs.«165132_g65704409694814_cont_9to1c4b_205_13_alg».proof.Proof.LibCat
import proofs.«165132_g65704409694814_cont_9to1c4b_205_13_alg».proof.Proof.LibKeepdims
import proofs.«165132_g65704409694814_cont_9to1c4b_205_13_alg».proof.Proof.LibBroadcastTo

noncomputable section

open scoped BigOperators

namespace Cert.Gcn.Payload

open Idealize.ShloMosaic Idealize.ShloMosaic.ValueIdx Cert.MatProd Cert.RowBlocks Cert.KernelIdeal Cert.KernelIdeal.Gen

/-- A loaded value and a matrix of extended reals are the same type. -/
example : Vec Ideal S200x10000 .f32 = Cert.Gcn.Mat 200 10000 := rfl

/-! ## The contraction records are the plain ones -/

theorem dot_10000_256_256 : dot_S10000x256_S256x256_S10000x256_1_0_0_1_n_n = DotDims.plain 10000 256 256 := rfl
theorem dot_200_10000_256 : dot_S200x10000_S10000x256_S200x256_1_0_0_1_n_n = DotDims.plain 200 10000 256 := rfl
theorem dot_200_256_64 : dot_S200x256_S256x64_S200x64_1_0_0_1_n_n = DotDims.plain 200 256 64 := rfl
theorem dot_200_10000_64 : dot_S200x10000_S10000x64_S200x64_1_0_0_1_n_n = DotDims.plain 200 10000 64 := rfl

/-! ## The first support and the copy -/

/-- The first payload is the product of the features with the first weights. -/
theorem pay1_eq (x : Cert.Gcn.Mat 10000 256) (w : Cert.Gcn.Mat 256 256) :
    k0_pay1 (F := Ideal) x w = Cert.MatProd.prod x w := by
  unfold k0_pay1
  exact (shapeCast_self _ _).trans (matmul_plain_zero_eq (φ₁ := .f32) (φ₂ := .f32) none x w)

/-- The second payload is its argument. -/
theorem pay2_eq (v : Cert.Gcn.Mat 200 64) : k0_pay2 (F := Ideal) v = v := by
  unfold k0_pay2
  exact shapeCast_self _ _

/-! ## The dense layer on a block of 200 rows -/

/-- A product into a zero accumulator, plus a row repeated down the rows, clamped below at the zero word: the dense layer. -/
theorem dense_eq (A : Cert.Gcn.Mat 200 10000) (s1 : Cert.Gcn.Mat 10000 256) (b1r : Cert.Gcn.Mat 1 256)
    (h1 : S1x256.ShapeCasts S1x256) (h2 : S1x256.Broadcasts S200x256) :
    maximumf (F := Ideal)
        (addf (matmul (φ₁ := .f32) (φ₂ := .f32) dot_S200x10000_S10000x256_S200x256_1_0_0_1_n_n none A s1 (constant S200x256 .f32 0x00000000#32))
          (broadcastTo S200x256 (shapeCast S1x256 b1r h1) h2))
        (broadcast S200x256 (Scalar.ofBits .f32 0x00000000#32))
      = denseRelu A s1 b1r := by
  funext i
  obtain ⟨p, q, rfl⟩ : ∃ (p : Fin 200) (q : Fin 256), i = ix2 p q := ⟨i 0, i 1, eq_ix2 i⟩
  show max (FloatOps.matmul (F := Ideal) (φ₁ := .f32) (φ₂ := .f32) (DotDims.plain 200 10000 256) none A s1 (constant S200x256 .f32 0x00000000#32) (ix2 p q)
      + broadcastTo S200x256 (shapeCast S1x256 b1r h1) h2 (ix2 p q)) (Ideal.ofBits .f32 0x00000000#32)
    = max (prod A s1 (ix2 p q) + b1r (ix2 0 q)) (Ideal.ofBits .f32 0x00000000#32)
  rw [shapeCast_self, Cert.BroadcastTo.row_apply, matmul_plain_zero_eq]

/-- The fourth payload: the dense layer of a block of adjacency rows, times the second weights. -/
theorem pay4_eq (A : Cert.Gcn.Mat 200 10000) (s1 : Cert.Gcn.Mat 10000 256) (b1r : Cert.Gcn.Mat 1 256) (w2 : Cert.Gcn.Mat 256 64) :
    k0_pay4 (F := Ideal) A s1 b1r w2 = prod (denseRelu A s1 b1r) w2 := by
  unfold k0_pay4
  refine (shapeCast_self _ _).trans ?_
  refine (matmul_plain_zero_eq (φ₁ := .f32) (φ₂ := .f32) none _ w2).trans ?_
  exact congrArg (fun h => prod h w2) (dense_eq A s1 b1r _ _)

/-- The fifth payload: the same function. -/
theorem pay5_eq (A : Cert.Gcn.Mat 200 10000) (s1 : Cert.Gcn.Mat 10000 256) (b1r : Cert.Gcn.Mat 1 256) (w2 : Cert.Gcn.Mat 256 64) :
    k0_pay5 (F := Ideal) A s1 b1r w2 = prod (denseRelu A s1 b1r) w2 := by
  unfold k0_pay5
  refine (matmul_plain_zero_eq (φ₁ := .f32) (φ₂ := .f32) none _ w2).trans ?_
  exact congrArg (fun h => prod h w2) (dense_eq A s1 b1r _ _)

/-! ## Two blocks of 200 rows stacked -/

/-- Rows `0, …, 199` from `T`, rows `200, …, 399` from `B`. -/
def stack2 {N : Nat} (T B : Cert.Gcn.Mat 200 N) : Cert.Gcn.Mat 400 N :=
  fun i => if h : (i 0).val < 200 then T (ix2 ⟨(i 0).val, h⟩ (i 1))
    else B (ix2 ⟨(i 0).val - 200, by have := idx2_lt0 i; omega⟩ (i 1))

/-- A row below 200 reads the upper block. -/
theorem stack2_apply_top {N : Nat} (T B : Cert.Gcn.Mat 200 N) (r : Fin 400) (q : Fin N) (h : r.val < 200) :
    stack2 T B (ix2 r q) = T (ix2 ⟨r.val, h⟩ q) := dif_pos h

/-- A row from 200 on reads the lower block at the row less 200. -/
theorem stack2_apply_bot {N : Nat} (T B : Cert.Gcn.Mat 200 N) (r : Fin 400) (q : Fin N) (h : 200 ≤ r.val) :
    stack2 T B (ix2 r q) = B (ix2 ⟨r.val - 200, by have := r.isLt; omega⟩ q) := dif_neg (Nat.not_lt.2 h)

/-- The concatenation of two 200-row pieces along the rows is the stack. -/
theorem concatenate_rows_eq {N : Nat}
    (h : Shape.Concatenates [(⟨2, ![200, N]⟩ : Shape), ⟨2, ![200, N]⟩] ⟨2, ![400, N]⟩ 0)
    (T B : Cert.Gcn.Mat 200 N) :
    concatenate ⟨2, ![400, N]⟩ 0 [⟨⟨2, ![200, N]⟩, T⟩, ⟨⟨2, ![200, N]⟩, B⟩] h = stack2 T B := by
  funext i
  obtain ⟨r, q, rfl⟩ : ∃ (r : Fin 400) (q : Fin N), i = ix2 r q := ⟨i 0, i 1, eq_ix2 i⟩
  by_cases hr : r.val < 200
  · rw [stack2_apply_top T B r q hr]
    exact concatenate_pair_apply_left 0 T B h (ix2 r q) rfl (ix2 ⟨r.val, hr⟩ q) (fun b => by
      match b with
      | ⟨0, _⟩ => rfl
      | ⟨1, _⟩ => rfl)
  · have hr' : 200 ≤ r.val := Nat.le_of_not_lt hr
    rw [stack2_apply_bot T B r q hr']
    exact concatenate_pair_apply_right 0 T B h (ix2 r q) rfl rfl (ix2 ⟨r.val - 200, by have := r.isLt; omega⟩ q)
      (fun b hb => by
        match b with
        | ⟨0, _⟩ => exact absurd rfl hb
        | ⟨1, _⟩ => rfl) (by show r.val - 200 + 200 = r.val; omega)

/-! ## Blocks of rows of the specification's functions -/

variable {n f g m' : Nat}

/-- The dense layer of a block of rows is that block of rows of the dense layer. -/
theorem denseRelu_rowsFrom (r0 : Nat) (hr : r0 + m' ≤ n) (A : Cert.Gcn.Mat n f) (S : Cert.Gcn.Mat f g) (b : Cert.Gcn.Mat 1 g) :
    denseRelu (rowsFrom r0 hr A) S b = rowsFrom r0 hr (denseRelu A S b) := rfl

/-- A row added to every row of a block of rows is that block of rows of the sum. -/
theorem addRow_rowsFrom (r0 : Nat) (hr : r0 + m' ≤ n) (A : Cert.Gcn.Mat n f) (b : Cert.Gcn.Mat 1 f) :
    addRow (rowsFrom r0 hr A) b = rowsFrom r0 hr (addRow A b) := rfl

/-- The maximum of row `p` of a block of rows is that of row `r0 + p` of the matrix. -/
theorem rowMax_rowsFrom (r0 : Nat) (hr : r0 + m' ≤ n) (L : Cert.Gcn.Mat n f) (p : Fin m') :
    rowMax (rowsFrom r0 hr L) p = rowMax L ⟨r0 + p.val, by have := p.isLt; omega⟩ := rfl

/-- The shifted exponentials' sum of row `p` of a block of rows is that of row `r0 + p` of the matrix. -/
theorem rowSumExp_rowsFrom (r0 : Nat) (hr : r0 + m' ≤ n) (L : Cert.Gcn.Mat n f) (p : Fin m') :
    rowSumExp (rowsFrom r0 hr L) p = rowSumExp L ⟨r0 + p.val, by have := p.isLt; omega⟩ := rfl

/-- The row-wise log-softmax of a block of rows is that block of rows of the log-softmax. -/
theorem logSoftmax_rowsFrom (r0 : Nat) (hr : r0 + m' ≤ n) (L : Cert.Gcn.Mat n f) :
    logSoftmax (rowsFrom r0 hr L) = rowsFrom r0 hr (logSoftmax L) := rfl

/-- Two consecutive blocks of 200 rows stacked are the block of 400 rows. -/
theorem stack2_rowsFrom (r0 : Nat) (h1 : r0 + 200 ≤ n) (h2 : r0 + 200 + 200 ≤ n) (h3 : r0 + 400 ≤ n) (X : Cert.Gcn.Mat n f) :
    stack2 (rowsFrom r0 h1 X) (rowsFrom (r0 + 200) h2 X) = rowsFrom r0 h3 X := by
  funext i
  obtain ⟨r, q, rfl⟩ : ∃ (r : Fin 400) (q : Fin f), i = ix2 r q := ⟨i 0, i 1, eq_ix2 i⟩
  by_cases hr : r.val < 200
  · rw [stack2_apply_top _ _ r q hr]; rfl
  · have hr' : 200 ≤ r.val := Nat.le_of_not_lt hr
    rw [stack2_apply_bot _ _ r q hr']
    exact congrArg (fun t => X (ix2 t q)) (Fin.ext (by show r0 + 200 + (r.val - 200) = r0 + r.val; omega))

/-! ## The log-softmax of a block of 400 rows -/

/-- The index over row `p` with column `c` inserted is `(p, c)`. -/
theorem lift_row (h : S400x64.Reduces [1] S400) (p : Fin 400) (c : Fin 64) :
    h.lift (ix1 p) c = ix2 p c := by
  funext a
  refine Fin.ext ?_
  match a with
  | ⟨0, _⟩ => rfl
  | ⟨1, _⟩ => rfl

/-- The maximum reduction along the columns, from the pattern of −∞, is the row's maximum. -/
theorem rowMax_kernel (L : FVec Ideal S400x64 .f32) (h : S400x64.Reduces [1] S400) (hφ : FKind.Formats .f32)
    (hacc : (0xFF800000#32 : BitVec 32) = FKind.maximumf.neutral .f32 hφ) (p : Fin 400) :
    multiReduction (F := Ideal) .maximumf [1] S400 L 0xFF800000#32 h hφ hacc (ix1 p) = rowMax L p := by
  rw [Ideal.multiReduction_maximumf_single]
  show Finset.univ.fold max negInf (L ∘ h.lift (ix1 p)) = Finset.univ.fold max negInf (fun c : Fin 64 => L (ix2 p c))
  exact congrArg (fun g : Fin 64 → EReal => Finset.univ.fold max negInf g) (funext fun c => congrArg L (lift_row h p c))

/-- The sum reduction along the columns, from the zero word, is the row's sum. -/
theorem rowSum_kernel (E : FVec Ideal S400x64 .f32) (h : S400x64.Reduces [1] S400) (hφ : FKind.Formats .f32)
    (hacc : (0x00000000#32 : BitVec 32) = FKind.add.neutral .f32 hφ) (p : Fin 400) :
    multiReduction (F := Ideal) .add [1] S400 E 0x00000000#32 h hφ hacc (ix1 p) = ∑ c : Fin 64, E (ix2 p c) := by
  rw [Ideal.multiReduction_add_single]
  exact Finset.sum_congr rfl fun c _ => congrArg E (lift_row h p c)

/-- The column of row maxima of a block. -/
def kMax (L : FVec Ideal S400x64 .f32) : FVec Ideal S400x1 .f32 :=
  shapeCast S400x1 (multiReduction .maximumf [1] S400 L 0xFF800000#32 reduces_S400x64_S400 (.inl rfl) rfl) shapeCasts_S400_S400x1

theorem kMax_apply (L : FVec Ideal S400x64 .f32) (p : Fin 400) (u : Fin 1) : kMax L (ix2 p u) = rowMax L p :=
  (Cert.Keepdims.shapeCast_a_a1_apply _ _ p u).trans (rowMax_kernel L _ _ _ p)

/-- The exponentials of the entries less their row's maximum. -/
def kExp (L : FVec Ideal S400x64 .f32) : FVec Ideal S400x64 .f32 :=
  exp (subf L (broadcastTo S400x64 (kMax L) broadcasts_S400x1_S400x64))

theorem kExp_apply (L : FVec Ideal S400x64 .f32) (p : Fin 400) (c : Fin 64) :
    kExp L (ix2 p c) = Ideal.exp (L (ix2 p c) - rowMax L p) := by
  show Ideal.exp (L (ix2 p c) - broadcastTo S400x64 (kMax L) broadcasts_S400x1_S400x64 (ix2 p c)) = _
  rw [Cert.Keepdims.broadcastTo_a1_ab_apply, kMax_apply]

/-- The column of the rows' sums of those exponentials. -/
def kSum (L : FVec Ideal S400x64 .f32) : FVec Ideal S400x1 .f32 :=
  shapeCast S400x1 (multiReduction .add [1] S400 (kExp L) 0x00000000#32 reduces_S400x64_S400 (.inl rfl) rfl) shapeCasts_S400_S400x1

theorem kSum_apply (L : FVec Ideal S400x64 .f32) (p : Fin 400) (u : Fin 1) : kSum L (ix2 p u) = rowSumExp L p :=
  (Cert.Keepdims.shapeCast_a_a1_apply _ _ p u).trans
    ((rowSum_kernel (kExp L) _ _ _ p).trans (Finset.sum_congr rfl fun c _ => kExp_apply L p c))

/-- The kernel's row-wise normalisation of a block of 400 rows, as one function of the block. -/
def kernelLogSoftmax (L : FVec Ideal S400x64 .f32) : FVec Ideal S400x64 .f32 :=
  subf L (broadcastTo S400x64 (addf (kMax L) (log (kSum L))) broadcasts_S400x1_S400x64)

/-- It is the specification's row-wise log-softmax. -/
theorem kernelLogSoftmax_eq (L : Cert.Gcn.Mat 400 64) : kernelLogSoftmax L = logSoftmax L := by
  funext i
  obtain ⟨p, q, rfl⟩ : ∃ (p : Fin 400) (q : Fin 64), i = ix2 p q := ⟨i 0, i 1, eq_ix2 i⟩
  show L (ix2 p q) - broadcastTo S400x64 (addf (kMax L) (log (kSum L))) broadcasts_S400x1_S400x64 (ix2 p q)
    = L (ix2 p q) - (rowMax L p + Ideal.log (rowSumExp L p))
  rw [Cert.Keepdims.broadcastTo_a1_ab_apply]
  show L (ix2 p q) - (kMax L (ix2 p 0) + Ideal.log (kSum L (ix2 p 0))) = _
  rw [kMax_apply, kSum_apply]

/-- The scores of a block of 400 rows: two 200-row products stacked, plus the bias row. -/
theorem scores_eq (A0 : Cert.Gcn.Mat 200 10000) (s2 : Cert.Gcn.Mat 10000 64) (A1 : Cert.Gcn.Mat 200 10000) (s2' : Cert.Gcn.Mat 10000 64)
    (b2r : Cert.Gcn.Mat 1 64) (hcat : Shape.Concatenates [S200x64, S200x64] S400x64 0)
    (hsc : S1x64.ShapeCasts S1x64) (hbc : S1x64.Broadcasts S400x64) :
    addf (F := Ideal)
        (concatenate S400x64 0
          [⟨S200x64, matmul (φ₁ := .f32) (φ₂ := .f32) dot_S200x10000_S10000x64_S200x64_1_0_0_1_n_n none A0 s2 (constant S200x64 .f32 0x00000000#32)⟩,
           ⟨S200x64, matmul (φ₁ := .f32) (φ₂ := .f32) dot_S200x10000_S10000x64_S200x64_1_0_0_1_n_n none A1 s2' (constant S200x64 .f32 0x00000000#32)⟩] hcat)
        (broadcastTo S400x64 (shapeCast S1x64 b2r hsc) hbc)
      = addRow (stack2 (prod A0 s2) (prod A1 s2')) b2r := by
  have e0 : matmul (F := Ideal) (φ₁ := .f32) (φ₂ := .f32) dot_S200x10000_S10000x64_S200x64_1_0_0_1_n_n none A0 s2 (constant S200x64 .f32 0x00000000#32)
      = prod A0 s2 := matmul_plain_zero_eq (φ₁ := .f32) (φ₂ := .f32) none A0 s2
  have e1 : matmul (F := Ideal) (φ₁ := .f32) (φ₂ := .f32) dot_S200x10000_S10000x64_S200x64_1_0_0_1_n_n none A1 s2' (constant S200x64 .f32 0x00000000#32)
      = prod A1 s2' := matmul_plain_zero_eq (φ₁ := .f32) (φ₂ := .f32) none A1 s2'
  rw [e0, e1, concatenate_rows_eq hcat, shapeCast_self]
  funext i
  obtain ⟨p, q, rfl⟩ : ∃ (p : Fin 400) (q : Fin 64), i = ix2 p q := ⟨i 0, i 1, eq_ix2 i⟩
  show stack2 (prod A0 s2) (prod A1 s2') (ix2 p q) + broadcastTo S400x64 b2r hbc (ix2 p q)
    = stack2 (prod A0 s2) (prod A1 s2') (ix2 p q) + b2r (ix2 0 q)
  rw [Cert.BroadcastTo.row_apply]

/-- The third payload: the row-wise log-softmax of two 200-row products stacked, plus the bias row. -/
theorem pay3_eq (A0 : Cert.Gcn.Mat 200 10000) (s2 : Cert.Gcn.Mat 10000 64) (A1 : Cert.Gcn.Mat 200 10000) (s2' : Cert.Gcn.Mat 10000 64)
    (b2r : Cert.Gcn.Mat 1 64) :
    k0_pay3 (F := Ideal) A0 s2 A1 s2' b2r = logSoftmax (addRow (stack2 (prod A0 s2) (prod A1 s2')) b2r) := by
  refine Eq.trans (b := kernelLogSoftmax (addf (F := Ideal)
        (concatenate S400x64 0
          [⟨S200x64, matmul (φ₁ := .f32) (φ₂ := .f32) dot_S200x10000_S10000x64_S200x64_1_0_0_1_n_n none A0 s2 (constant S200x64 .f32 0x00000000#32)⟩,
           ⟨S200x64, matmul (φ₁ := .f32) (φ₂ := .f32) dot_S200x10000_S10000x64_S200x64_1_0_0_1_n_n none A1 s2' (constant S200x64 .f32 0x00000000#32)⟩]
          concatenates_S200x64_S200x64_S400x64_d0)
        (broadcastTo S400x64 (shapeCast S1x64 b2r shapeCasts_S1x64_S1x64) broadcasts_S1x64_S400x64))) rfl ?_
  rw [scores_eq]
  exact kernelLogSoftmax_eq _

/-! ## The payloads on blocks of adjacency rows -/

/-- The upper half of a block of the second support: rows `r0, …, r0 + 199` of the specification's second support. -/
theorem half_support2 (x : Cert.Gcn.Mat 10000 256) (adj : Cert.Gcn.Mat 10000 10000) (W1 : Cert.Gcn.Mat 256 256) (b1 : Vec1 256)
    (W2 : Cert.Gcn.Mat 256 64) (r0 : Nat) (hr : r0 + 200 ≤ 10000) :
    k0_pay4 (F := Ideal) (rowsFrom r0 hr adj) (support1 x W1) (asRow b1) W2 = rowsFrom r0 hr (support2 x adj W1 b1 W2) :=
  (pay4_eq _ _ _ _).trans rfl

/-- The lower half likewise. -/
theorem half_support2' (x : Cert.Gcn.Mat 10000 256) (adj : Cert.Gcn.Mat 10000 10000) (W1 : Cert.Gcn.Mat 256 256) (b1 : Vec1 256)
    (W2 : Cert.Gcn.Mat 256 64) (r0 : Nat) (hr : r0 + 200 ≤ 10000) :
    k0_pay5 (F := Ideal) (rowsFrom r0 hr adj) (support1 x W1) (asRow b1) W2 = rowsFrom r0 hr (support2 x adj W1 b1 W2) :=
  (pay5_eq _ _ _ _).trans rfl

/-- A block of the output: rows `r0, …, r0 + 399` of the specification's output. -/
theorem block_out (x : Cert.Gcn.Mat 10000 256) (adj : Cert.Gcn.Mat 10000 10000) (W1 : Cert.Gcn.Mat 256 256) (b1 : Vec1 256)
    (W2 : Cert.Gcn.Mat 256 64) (b2 : Vec1 64) (r0 : Nat) (h1 : r0 + 200 ≤ 10000) (h2 : r0 + 200 + 200 ≤ 10000)
    (h3 : r0 + 400 ≤ 10000) :
    k0_pay3 (F := Ideal) (rowsFrom r0 h1 adj) (support2 x adj W1 b1 W2) (rowsFrom (r0 + 200) h2 adj) (support2 x adj W1 b1 W2)
        (asRow b2)
      = rowsFrom r0 h3 (out x adj W1 b1 W2 b2) := by
  rw [pay3_eq, prod_rowsFrom, prod_rowsFrom, stack2_rowsFrom r0 h1 h2 h3, addRow_rowsFrom, logSoftmax_rowsFrom]
  rfl

end Cert.Gcn.Payload

end
-- ==== Proof.KIValue.lean ====
/-
  What the idealized kernel computes, over the extended reals: its result array ends at the network's output
  `Cert.Gcn.out` of the six argument arrays.

  The first scratch holds the first support (features · first weights). Row block `j` of the second scratch is the
  second support's rows 400·j … 400·j + 399 (each half a 200-row strip of the adjacency times the first support,
  plus bias, clamped, times the second weights), so after the first phase the second scratch IS the second support.
  At a second-phase point `t` the output window's buffer is rows 400·(t − 25) … of the output (two adjacency strips
  times the second support, stacked, plus bias, row-wise log-softmax), and those blocks, written back at points
  25–49, tile the result array.
-/
import proofs.«165132_g65704409694814_cont_9to1c4b_205_13_alg».proof.Proof.KIMain
import proofs.«165132_g65704409694814_cont_9to1c4b_205_13_alg».proof.Proof.KIBlocks
import proofs.«165132_g65704409694814_cont_9to1c4b_205_13_alg».proof.Proof.KIPieces
import proofs.«165132_g65704409694814_cont_9to1c4b_205_13_alg».proof.Proof.Payloads

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Gcn Cert.Gcn.Payload
open Cert.RowBlocks (rowsFrom rowsFrom_apply)

variable (m : (ℓ : Loc nD τ sig) → Buf (Elt Ideal) ℓ) (ρ : Dev nD → PrngReg)

/-- The network's output of the launch contents of the six arguments. -/
abbrev outSpec (c : Dev nD) : Gcn.Mat 10000 64 :=
  out (argX m c) (argAdj m c) (argW1 m c) (argB1 m c) (argW2 m c) (argB2 m c)

/-- The first scratch holds the first support. -/
theorem S1val_support (c : Dev nD) : (S1val m c : Gcn.Mat 10000 256) = support1 (argX m c) (argW1 m c) := by
  rw [S1val_eq, iblk0, iblk1]
  exact pay1_eq _ _

/-- The second scratch holds the second support: row block `j` is what point `j` stored, the lower half from the
    first adjacency strip, the upper from the second. -/
theorem S2val_support (c : Dev nD) :
    (S2val m c : Gcn.Mat 10000 64) = support2 (argX m c) (argAdj m c) (argW1 m c) (argB1 m c) (argW2 m c) := by
  funext y
  have hy0 : (y 0).val < 10000 := (y 0).isLt
  have h25 : (y 0).val / 400 < 25 := by omega
  let t : Fin cfg0.N := ⟨(y 0).val / 400, lt_of_lt_of_eq (by omega) N_0.symm⟩
  have ht : t.val = (y 0).val / 400 := rfl
  unfold S2val
  rw [dif_pos h25]
  show VS1.read (Elt Ideal) (VS1.writes (Elt Ideal) VS1.junk (LS1At m c t h25)) y = _
  by_cases hlo : (y 0).val < 400 * t.val + 200
  · rw [S2_slab_lo m c t h25 y (by omega) hlo,
      iblk2 m c t (400 * t.val) (by omega) (by omega), iblk4, iblk5, S1val_support,
      half_support2 _ _ _ _ _ (400 * t.val) (by omega)]
    unfold rowsFrom
    refine congrArg _ (funext fun a => Fin.ext ?_)
    match a with
    | ⟨0, _⟩ => show 400 * t.val + ((y 0).val - 400 * t.val) = (y 0).val; omega
    | ⟨1, _⟩ => rfl
  · rw [S2_slab_hi m c t h25 y (by omega) (by omega), pay2_eq,
      iblk3 m c t (400 * t.val + 200) (by omega) (by omega), iblk4, iblk5, S1val_support,
      half_support2' _ _ _ _ _ (400 * t.val + 200) (by omega)]
    unfold rowsFrom
    refine congrArg _ (funext fun a => Fin.ext ?_)
    match a with
    | ⟨0, _⟩ => show 400 * t.val + 200 + ((y 0).val - 400 * t.val - 200) = (y 0).val; omega
    | ⟨1, _⟩ => rfl

/-! ## The output blocks -/

/-- The output window is written back exactly at the second phase's points, -/
theorem flush7_iff : ∀ t : Fin cfg0.N, (cfg0.win 7).flush t = true ↔ 25 ≤ t.val :=
  (by decide +kernel : ∀ t : Fin grid0.N, win0_7.flush t = true ↔ 25 ≤ t.val)
/-- where its block index is the point's number in that phase. -/
theorem idx7 : ∀ t : Fin cfg0.N, 25 ≤ t.val → win0_7.index t 0 = t.val - 25 ∧ win0_7.index t 1 = 0 :=
  (by decide +kernel : ∀ t : Fin grid0.N, 25 ≤ t.val → win0_7.index t 0 = t.val - 25 ∧ win0_7.index t 1 = 0)

/-- What a second-phase point leaves in the output window's buffer: 400 rows of the output. -/
theorem out7_block (c : Dev nD) (t : Fin cfg0.N) (h3 : 25 ≤ t.val) (hN : t.val < 50) :
    (out7 m c t : Gcn.Mat 400 64) = rowsFrom (400 * (t.val - 25)) (by omega) (outSpec m c) := by
  rw [out7_eq m c t h3,
    iblk2 m c t (400 * (t.val - 25)) (by omega) (by omega),
    iblk3 m c t (400 * (t.val - 25) + 200) (by omega) (by omega),
    iblk6, S2val_support]
  exact block_out _ _ _ _ _ _ (400 * (t.val - 25)) (by omega) (by omega) (by omega)

/-- Block `t` of an array of the result's shape: its rows 400·(t − 25) …. -/
theorem blk7_read (c : Dev nD) (t : Fin cfg0.N) (h3 : 25 ≤ t.val) (hN : t.val < 50) (G : Gcn.Mat 10000 64) :
    (((cfg0.win 7).blk t).view.read (Elt Ideal) (G : Buf (Elt Ideal) ((cfg0.win 7).arr.view.loc (c.tc : Thread nD τ))) : Gcn.Mat 400 64)
      = rowsFrom (400 * (t.val - 25)) (by omega) G := by
  funext y
  unfold rowsFrom
  rw [View.read_apply]
  show G (((cfg0.win 7).blk t).view.emb y) = _
  refine congrArg G (funext fun a => Fin.ext ?_)
  match a with
  | ⟨0, _⟩ =>
    show win0_7.index t 0 * 400 + 1 * (y 0).val = 400 * (t.val - 25) + (y 0).val
    rw [(idx7 t h3).1]; omega
  | ⟨1, _⟩ =>
    show win0_7.index t 1 * 64 + 1 * (y 1).val = (y 1).val
    rw [(idx7 t h3).2]; omega

/-- WHAT A POINT WRITES BACK is its block of the output. -/
theorem flushed7_eq (c : Dev nD) (t : Fin cfg0.N) (hf : (cfg0.win 7).flush t = true) :
    (dats m 0 c).flushed 7 t = ((cfg0.win 7).blk t).view.read (Elt Ideal) (outSpec m c : Buf (Elt Ideal) ((cfg0.win 7).arr.view.loc (c.tc : Thread nD τ))) := by
  have h3 : 25 ≤ t.val := (flush7_iff t).mp hf
  have hN : t.val < 50 := lt_of_lt_of_eq t.isLt (show cfg0.N = 50 from N_0)
  show (cfg0.win 7).cut (grid0.coords t) ((dats m 0 c).after 7 t) = _
  rw [after_7]
  exact (out7_block m c t h3 hN).trans (blk7_read c t h3 hN (outSpec m c)).symm

/-- An index of the result array is in point `t`'s block iff each coordinate is in the block's range on its axis. -/
theorem mem_blk7 (t : Fin cfg0.N) (i : S10000x64.Idx) :
    i ∈ ((cfg0.win 7).blk t).view.set ↔ ∀ a : Fin 2, win0_7.index t a * S400x64.size a ≤ (i a).val ∧ (i a).val < win0_7.index t a * S400x64.size a + S400x64.size a := by
  show i ∈ ((View.whole main_v2).slice (win0_7.rect t)).set ↔ _
  rw [View.set_slice_whole, Rect.mem_set_unit]
  exact Iff.rfl

/-- Every index of the result array is in the block of some point that writes back. -/
theorem cover7_all (i : S10000x64.Idx) : ∃ t : Fin cfg0.N, (cfg0.win 7).flush t = true ∧ i ∈ ((cfg0.win 7).blk t).view.set := by
  have hi0 : (i 0).val < 10000 := (i 0).isLt
  have hi1 : (i 1).val < 64 := (i 1).isLt
  let t : Fin cfg0.N := ⟨25 + (i 0).val / 400, lt_of_lt_of_eq (by omega) N_0.symm⟩
  have h3 : 25 ≤ t.val := Nat.le_add_right _ _
  refine ⟨t, (flush7_iff t).mpr h3, ?_⟩
  rw [mem_blk7]
  intro a
  match a with
  | ⟨0, _⟩ =>
    show win0_7.index t 0 * 400 ≤ (i 0).val ∧ (i 0).val < win0_7.index t 0 * 400 + 400
    rw [(idx7 t h3).1]
    show (25 + (i 0).val / 400 - 25) * 400 ≤ (i 0).val ∧ (i 0).val < (25 + (i 0).val / 400 - 25) * 400 + 400
    omega
  | ⟨1, _⟩ =>
    show win0_7.index t 1 * 64 ≤ (i 1).val ∧ (i 1).val < win0_7.index t 1 * 64 + 64
    rw [(idx7 t h3).2]; omega

/-- THE RESULT ARRAY after the run is the network's output. -/
theorem final7 (c : Dev nD) : (dats m 0 c).arrAt 7 cfg0.N = (outSpec m c : Buf (Elt Ideal) ((cfg0.win 7).arr.view.loc (c.tc : Thread nD τ))) :=
  (dats m 0 c).arrAt_eq_of_cover 7 _ (fun t hf => flushed7_eq m c t hf) cover7_all

/-- The run, read: the result at the network's output, the six arguments as launched. -/
theorem run_value : θ_run defs (onTc (τ := τ) (main (F := Ideal))) ⟨m, fun _ => 0, ρ⟩ (fun r => ∀ c : Dev nD,
      r.2.mem ((c.tc : Thread nD τ).loc main_v2) = outSpec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).1 7).trans (final7 m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c)⟩) (run_main m ρ)

end Cert.KernelIdeal.Hand

end
-- ==== Proof.RefRun.lean ====
/-
  The reference program run and read back.

  The reference is a straight line of 28 host operations: two products, a bias row broadcast and added, a clamp at
  zero, two more products, a second bias, and a row-wise log-softmax spelt out in its sixteen primitive steps. Every
  weakly fair execution of it terminates with the result buffer holding `ref` of the six argument arrays, where `ref`
  composes the same operations as pure functions, stage by stage, and the arguments unchanged.
-/
import proofs.«165132_g65704409694814_cont_9to1c4b_205_13_alg».proof.Proof.Gen.ReferenceIdeal
import Idealize.ShloMosaic.Lib.StableHlo.Run

noncomputable section

namespace Cert.Gcn.RefRun

open Cert.ReferenceIdeal Cert.ReferenceIdeal.Gen Idealize.ShloMosaic Idealize.ShloMosaic.TcCoe Idealize.SL.Sem Idealize.ShloMosaic.StableHlo

variable {F : FTy → Type} [FloatOps F]

/-! ## The reference as a pure function of its arguments -/

/-- The first layer's support: features times weights. -/
def support1 (x : (⟨S10000x256, .f32⟩ : BufTy).Contents (Elt F)) (W1 : (⟨S256x256, .f32⟩ : BufTy).Contents (Elt F)) : (⟨S10000x256, .f32⟩ : BufTy).Contents (Elt F) :=
  Host.dotGeneral dot_S10000x256_S256x256_S10000x256_1_0_0_1_n_n none x W1

/-- A vector of 256 entries as a row, repeated down 10000 rows. -/
def biasRows1 (b1 : (⟨S256, .f32⟩ : BufTy).Contents (Elt F)) : (⟨S10000x256, .f32⟩ : BufTy).Contents (Elt F) :=
  broadcastInDim S10000x256 ![0, 1] bcast_S1x256_S10000x256_0_1 (broadcastInDim S1x256 ![1] bcast_S256_S1x256_1 b1)

/-- The hidden layer: adjacency times support, plus bias, clamped below at the zero word. -/
def hidden (x : (⟨S10000x256, .f32⟩ : BufTy).Contents (Elt F)) (adj : (⟨S10000x10000, .f32⟩ : BufTy).Contents (Elt F)) (W1 : (⟨S256x256, .f32⟩ : BufTy).Contents (Elt F)) (b1 : (⟨S256, .f32⟩ : BufTy).Contents (Elt F)) : (⟨S10000x256, .f32⟩ : BufTy).Contents (Elt F) :=
  maximumf (addf (Host.dotGeneral dot_S10000x10000_S10000x256_S10000x256_1_0_0_1_n_n none adj (support1 x W1)) (biasRows1 b1))
    (broadcastInDim S10000x256 ![] bcast_S_S10000x256 (constant S_ .f32 0x00000000#32))

/-- The second layer's support: hidden times weights. -/
def support2 (x : (⟨S10000x256, .f32⟩ : BufTy).Contents (Elt F)) (adj : (⟨S10000x10000, .f32⟩ : BufTy).Contents (Elt F)) (W1 : (⟨S256x256, .f32⟩ : BufTy).Contents (Elt F)) (b1 : (⟨S256, .f32⟩ : BufTy).Contents (Elt F)) (W2 : (⟨S256x64, .f32⟩ : BufTy).Contents (Elt F)) : (⟨S10000x64, .f32⟩ : BufTy).Contents (Elt F) :=
  Host.dotGeneral dot_S10000x256_S256x64_S10000x64_1_0_0_1_n_n none (hidden x adj W1 b1) W2

/-- A vector of 64 entries as a row, repeated down 10000 rows. -/
def biasRows2 (b2 : (⟨S64, .f32⟩ : BufTy).Contents (Elt F)) : (⟨S10000x64, .f32⟩ : BufTy).Contents (Elt F) :=
  broadcastInDim S10000x64 ![0, 1] bcast_S1x64_S10000x64_0_1 (broadcastInDim S1x64 ![1] bcast_S64_S1x64_1 b2)

/-- The class scores: adjacency times the second support, plus bias. -/
def logits (x : (⟨S10000x256, .f32⟩ : BufTy).Contents (Elt F)) (adj : (⟨S10000x10000, .f32⟩ : BufTy).Contents (Elt F)) (W1 : (⟨S256x256, .f32⟩ : BufTy).Contents (Elt F)) (b1 : (⟨S256, .f32⟩ : BufTy).Contents (Elt F)) (W2 : (⟨S256x64, .f32⟩ : BufTy).Contents (Elt F)) (b2 : (⟨S64, .f32⟩ : BufTy).Contents (Elt F)) : (⟨S10000x64, .f32⟩ : BufTy).Contents (Elt F) :=
  addf (Host.dotGeneral dot_S10000x10000_S10000x64_S10000x64_1_0_0_1_n_n none adj (support2 x adj W1 b1 W2)) (biasRows2 b2)

/-- Each row's maximum: the reduce of `max` from the pattern of −∞ along the columns, guarded once more against −∞. -/
def rowMax (L : (⟨S10000x64, .f32⟩ : BufTy).Contents (Elt F)) : (⟨S10000, .f32⟩ : BufTy).Contents (Elt F) :=
  maximumf (broadcastInDim S10000 ![] bcast_S_S10000 (constant S_ .f32 0xFF800000#32))
    (Host.reduce FloatOps.maximumf L (constant S_ .f32 0xFF800000#32) reducesTo_S10000x64_S10000_d1 h_S_)

/-- A value per row as a column, repeated across 64 columns. -/
def acrossCols (v : (⟨S10000x1, .f32⟩ : BufTy).Contents (Elt F)) : (⟨S10000x64, .f32⟩ : BufTy).Contents (Elt F) :=
  broadcastInDim S10000x64 ![0, 1] bcast_S10000x1_S10000x64_0_1 v

/-- A value per row as a column of one entry per row. -/
def asCol (v : (⟨S10000, .f32⟩ : BufTy).Contents (Elt F)) : (⟨S10000x1, .f32⟩ : BufTy).Contents (Elt F) :=
  broadcastInDim S10000x1 ![0] bcast_S10000_S10000x1_0 v

/-- The scores less their row's maximum. -/
def shifted (L : (⟨S10000x64, .f32⟩ : BufTy).Contents (Elt F)) : (⟨S10000x64, .f32⟩ : BufTy).Contents (Elt F) :=
  subf L (acrossCols (asCol (rowMax L)))

/-- Each row's sum of the exponentials of the shifted scores, from the zero word. -/
def rowSumExp (L : (⟨S10000x64, .f32⟩ : BufTy).Contents (Elt F)) : (⟨S10000, .f32⟩ : BufTy).Contents (Elt F) :=
  Host.reduceAdd (Host.exp (shifted L)) (constant S_ .f32 0x00000000#32) reducesTo_S10000x64_S10000_d1 h_S_

/-- The row-wise log-softmax as the reference spells it: the shifted scores less the logarithm of their exponentials'
    sum. -/
def logSoftmax (L : (⟨S10000x64, .f32⟩ : BufTy).Contents (Elt F)) : (⟨S10000x64, .f32⟩ : BufTy).Contents (Elt F) :=
  subf (shifted L) (acrossCols (Host.log (asCol (rowSumExp L))))

/-- The reference's result as a function of its six arguments. -/
def ref (x : (⟨S10000x256, .f32⟩ : BufTy).Contents (Elt F)) (adj : (⟨S10000x10000, .f32⟩ : BufTy).Contents (Elt F)) (W1 : (⟨S256x256, .f32⟩ : BufTy).Contents (Elt F)) (b1 : (⟨S256, .f32⟩ : BufTy).Contents (Elt F)) (W2 : (⟨S256x64, .f32⟩ : BufTy).Contents (Elt F)) (b2 : (⟨S64, .f32⟩ : BufTy).Contents (Elt F)) : (⟨S10000x64, .f32⟩ : BufTy).Contents (Elt F) :=
  logSoftmax (logits x adj W1 b1 W2 b2)

/-! ## The program as a list of operations -/

/-- @main's 28 operations, in order; the two called functions' operations stand where they are called. -/
abbrev ops : List (HloOp τ sig (Elt F)) :=
  [ binary main_arg0 main_arg2 main_v0 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    binary main_arg1 main_v0 main_v1 ((fun l r => Host.dotGeneral dot_S10000x10000_S10000x256_S10000x256_1_0_0_1_n_n none l r) : (⟨S10000x10000, .f32⟩ : BufTy).Contents (Elt F) → (⟨S10000x256, .f32⟩ : BufTy).Contents (Elt F) → (⟨S10000x256, .f32⟩ : BufTy).Contents (Elt F)),
    unary main_arg3 main_v2 (broadcastInDim S1x256 ![1] bcast_S256_S1x256_1 : (⟨S256, .f32⟩ : BufTy).Contents (Elt F) → (⟨S1x256, .f32⟩ : BufTy).Contents (Elt F)),
    unary main_v2 main_v3 (broadcastInDim S10000x256 ![0, 1] bcast_S1x256_S10000x256_0_1 : (⟨S1x256, .f32⟩ : BufTy).Contents (Elt F) → (⟨S10000x256, .f32⟩ : BufTy).Contents (Elt F)),
    binary main_v1 main_v3 main_v4 (addf : (⟨S10000x256, .f32⟩ : BufTy).Contents (Elt F) → (⟨S10000x256, .f32⟩ : BufTy).Contents (Elt F) → (⟨S10000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x256, .f32⟩) main_call0_v0) (broadcastInDim S10000x256 ![] bcast_S_S10000x256),
    TRef.binary (TRef.of (T := ⟨S10000x256, .f32⟩) main_v4) (TRef.of (T := ⟨S10000x256, .f32⟩) main_call0_v0) (TRef.of (T := ⟨S10000x256, .f32⟩) main_v5) maximumf,
    binary main_v5 main_arg4 main_v6 ((fun l r => Host.dotGeneral dot_S10000x256_S256x64_S10000x64_1_0_0_1_n_n none l r) : (⟨S10000x256, .f32⟩ : BufTy).Contents (Elt F) → (⟨S256x64, .f32⟩ : BufTy).Contents (Elt F) → (⟨S10000x64, .f32⟩ : BufTy).Contents (Elt F)),
    binary main_arg1 main_v6 main_v7 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg5 main_v8 (broadcastInDim S1x64 ![1] bcast_S64_S1x64_1 : (⟨S64, .f32⟩ : BufTy).Contents (Elt F) → (⟨S1x64, .f32⟩ : BufTy).Contents (Elt F)),
    unary main_v8 main_v9 (broadcastInDim S10000x64 ![0, 1] bcast_S1x64_S10000x64_0_1 : (⟨S1x64, .f32⟩ : BufTy).Contents (Elt F) → (⟨S10000x64, .f32⟩ : BufTy).Contents (Elt F)),
    binary main_v7 main_v9 main_v10 (addf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call1_cst) (constant S_ .f32 0xFF800000#32),
    TRef.binary (TRef.of (T := ⟨S10000x64, .f32⟩) main_v10) (TRef.of (T := ⟨S_, .f32⟩) main_call1_cst) (TRef.of (T := ⟨S10000, .f32⟩) main_call1_v0) (fun x v => Host.reduce FloatOps.maximumf x v reducesTo_S10000x64_S10000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S10000, .f32⟩) main_call1_v1) (broadcastInDim S10000 ![] bcast_S_S10000),
    TRef.binary (TRef.of (T := ⟨S10000, .f32⟩) main_call1_v1) (TRef.of (T := ⟨S10000, .f32⟩) main_call1_v0) (TRef.of (T := ⟨S10000, .f32⟩) main_call1_v2) maximumf,
    TRef.unary (TRef.of (T := ⟨S10000, .f32⟩) main_call1_v2) (TRef.of (T := ⟨S10000x1, .f32⟩) main_call1_v3) (broadcastInDim S10000x1 ![0] bcast_S10000_S10000x1_0),
    TRef.unary (TRef.of (T := ⟨S10000x1, .f32⟩) main_call1_v3) (TRef.of (T := ⟨S10000x64, .f32⟩) main_call1_v4) (broadcastInDim S10000x64 ![0, 1] bcast_S10000x1_S10000x64_0_1),
    TRef.binary (TRef.of (T := ⟨S10000x64, .f32⟩) main_v10) (TRef.of (T := ⟨S10000x64, .f32⟩) main_call1_v4) (TRef.of (T := ⟨S10000x64, .f32⟩) main_call1_v5) subf,
    TRef.unary (TRef.of (T := ⟨S10000x64, .f32⟩) main_call1_v5) (TRef.of (T := ⟨S10000x64, .f32⟩) main_call1_v6) Host.exp,
    TRef.nullary (TRef.of (T := ⟨S_, .f32⟩) main_call1_cst_1) (constant S_ .f32 0x00000000#32),
    TRef.binary (TRef.of (T := ⟨S10000x64, .f32⟩) main_call1_v6) (TRef.of (T := ⟨S_, .f32⟩) main_call1_cst_1) (TRef.of (T := ⟨S10000, .f32⟩) main_call1_v7) (fun x v => Host.reduceAdd x v reducesTo_S10000x64_S10000_d1 h_S_),
    TRef.unary (TRef.of (T := ⟨S10000, .f32⟩) main_call1_v7) (TRef.of (T := ⟨S10000x1, .f32⟩) main_call1_v8) (broadcastInDim S10000x1 ![0] bcast_S10000_S10000x1_0),
    TRef.unary (TRef.of (T := ⟨S10000x1, .f32⟩) main_call1_v8) (TRef.of (T := ⟨S10000x1, .f32⟩) main_call1_v9) Host.log,
    TRef.unary (TRef.of (T := ⟨S10000x1, .f32⟩) main_call1_v9) (TRef.of (T := ⟨S10000x64, .f32⟩) main_call1_v10) (broadcastInDim S10000x64 ![0, 1] bcast_S10000x1_S10000x64_0_1),
    TRef.binary (TRef.of (T := ⟨S10000x64, .f32⟩) main_call1_v5) (TRef.of (T := ⟨S10000x64, .f32⟩) main_call1_v10) (TRef.of (T := ⟨S10000x64, .f32⟩) main_v11) subf ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The first thirteen operations: the two layers, up to the class scores in `main_v10`. -/
abbrev ops1 : List (HloOp τ sig (Elt F)) :=
  [ binary main_arg0 main_arg2 main_v0 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    binary main_arg1 main_v0 main_v1 ((fun l r => Host.dotGeneral dot_S10000x10000_S10000x256_S10000x256_1_0_0_1_n_n none l r) : (⟨S10000x10000, .f32⟩ : BufTy).Contents (Elt F) → (⟨S10000x256, .f32⟩ : BufTy).Contents (Elt F) → (⟨S10000x256, .f32⟩ : BufTy).Contents (Elt F)),
    unary main_arg3 main_v2 (broadcastInDim S1x256 ![1] bcast_S256_S1x256_1 : (⟨S256, .f32⟩ : BufTy).Contents (Elt F) → (⟨S1x256, .f32⟩ : BufTy).Contents (Elt F)),
    unary main_v2 main_v3 (broadcastInDim S10000x256 ![0, 1] bcast_S1x256_S10000x256_0_1 : (⟨S1x256, .f32⟩ : BufTy).Contents (Elt F) → (⟨S10000x256, .f32⟩ : BufTy).Contents (Elt F)),
    binary main_v1 main_v3 main_v4 (addf : (⟨S10000x256, .f32⟩ : BufTy).Contents (Elt F) → (⟨S10000x256, .f32⟩ : BufTy).Contents (Elt F) → (⟨S10000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x256, .f32⟩) main_call0_v0) (broadcastInDim S10000x256 ![] bcast_S_S10000x256),
    TRef.binary (TRef.of (T := ⟨S10000x256, .f32⟩) main_v4) (TRef.of (T := ⟨S10000x256, .f32⟩) main_call0_v0) (TRef.of (T := ⟨S10000x256, .f32⟩) main_v5) maximumf,
    binary main_v5 main_arg4 main_v6 ((fun l r => Host.dotGeneral dot_S10000x256_S256x64_S10000x64_1_0_0_1_n_n none l r) : (⟨S10000x256, .f32⟩ : BufTy).Contents (Elt F) → (⟨S256x64, .f32⟩ : BufTy).Contents (Elt F) → (⟨S10000x64, .f32⟩ : BufTy).Contents (Elt F)),
    binary main_arg1 main_v6 main_v7 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg5 main_v8 (broadcastInDim S1x64 ![1] bcast_S64_S1x64_1 : (⟨S64, .f32⟩ : BufTy).Contents (Elt F) → (⟨S1x64, .f32⟩ : BufTy).Contents (Elt F)),
    unary main_v8 main_v9 (broadcastInDim S10000x64 ![0, 1] bcast_S1x64_S10000x64_0_1 : (⟨S1x64, .f32⟩ : BufTy).Contents (Elt F) → (⟨S10000x64, .f32⟩ : BufTy).Contents (Elt F)),
    binary main_v7 main_v9 main_v10 (addf : (⟨S10000x64, .f32⟩ : BufTy).Contents (Elt F) → (⟨S10000x64, .f32⟩ : BufTy).Contents (Elt F) → (⟨S10000x64, .f32⟩ : BufTy).Contents (Elt F)) ]

/-- The last fifteen operations: the called log-softmax, from the class scores in `main_v10` to the result in `main_v11`. -/
abbrev ops2 : List (HloOp τ sig (Elt F)) :=
  [ TRef.nullary (TRef.of (T := ⟨S_, .f32⟩) main_call1_cst) (constant S_ .f32 0xFF800000#32),
    TRef.binary (TRef.of (T := ⟨S10000x64, .f32⟩) main_v10) (TRef.of (T := ⟨S_, .f32⟩) main_call1_cst) (TRef.of (T := ⟨S10000, .f32⟩) main_call1_v0) (fun x v => Host.reduce FloatOps.maximumf x v reducesTo_S10000x64_S10000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S10000, .f32⟩) main_call1_v1) (broadcastInDim S10000 ![] bcast_S_S10000),
    TRef.binary (TRef.of (T := ⟨S10000, .f32⟩) main_call1_v1) (TRef.of (T := ⟨S10000, .f32⟩) main_call1_v0) (TRef.of (T := ⟨S10000, .f32⟩) main_call1_v2) maximumf,
    TRef.unary (TRef.of (T := ⟨S10000, .f32⟩) main_call1_v2) (TRef.of (T := ⟨S10000x1, .f32⟩) main_call1_v3) (broadcastInDim S10000x1 ![0] bcast_S10000_S10000x1_0),
    TRef.unary (TRef.of (T := ⟨S10000x1, .f32⟩) main_call1_v3) (TRef.of (T := ⟨S10000x64, .f32⟩) main_call1_v4) (broadcastInDim S10000x64 ![0, 1] bcast_S10000x1_S10000x64_0_1),
    TRef.binary (TRef.of (T := ⟨S10000x64, .f32⟩) main_v10) (TRef.of (T := ⟨S10000x64, .f32⟩) main_call1_v4) (TRef.of (T := ⟨S10000x64, .f32⟩) main_call1_v5) subf,
    TRef.unary (TRef.of (T := ⟨S10000x64, .f32⟩) main_call1_v5) (TRef.of (T := ⟨S10000x64, .f32⟩) main_call1_v6) Host.exp,
    TRef.nullary (TRef.of (T := ⟨S_, .f32⟩) main_call1_cst_1) (constant S_ .f32 0x00000000#32),
    TRef.binary (TRef.of (T := ⟨S10000x64, .f32⟩) main_call1_v6) (TRef.of (T := ⟨S_, .f32⟩) main_call1_cst_1) (TRef.of (T := ⟨S10000, .f32⟩) main_call1_v7) (fun x v => Host.reduceAdd x v reducesTo_S10000x64_S10000_d1 h_S_),
    TRef.unary (TRef.of (T := ⟨S10000, .f32⟩) main_call1_v7) (TRef.of (T := ⟨S10000x1, .f32⟩) main_call1_v8) (broadcastInDim S10000x1 ![0] bcast_S10000_S10000x1_0),
    TRef.unary (TRef.of (T := ⟨S10000x1, .f32⟩) main_call1_v8) (TRef.of (T := ⟨S10000x1, .f32⟩) main_call1_v9) Host.log,
    TRef.unary (TRef.of (T := ⟨S10000x1, .f32⟩) main_call1_v9) (TRef.of (T := ⟨S10000x64, .f32⟩) main_call1_v10) (broadcastInDim S10000x64 ![0, 1] bcast_S10000x1_S10000x64_0_1),
    TRef.binary (TRef.of (T := ⟨S10000x64, .f32⟩) main_call1_v5) (TRef.of (T := ⟨S10000x64, .f32⟩) main_call1_v10) (TRef.of (T := ⟨S10000x64, .f32⟩) main_v11) subf ]

/-- The whole line is the two layers' operations followed by the log-softmax's. -/
theorem ops_eq : (ops : List (HloOp τ sig (Elt F))) = ops1 ++ ops2 := rfl

/-- Running two lines one after the other: the second from what the first leaves. -/
theorem after_append {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_append l₁ l₂]

/-- What the first thirteen operations leave in `main_v10`, from any contents `V`: the class scores of the arguments'
    contents (the fold over the list unrolled, each operation's result read at its own buffer and passed over at any
    other, the typed references' transports the identity at these literal references). -/
theorem logits_at (V : Valuation τ sig (Elt F)) :
    after ops1 V (main_v10 : DevRef τ sig)
      = logits (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  simp only [TRef.toBuf, TRef.ofBuf, cast_eq]
  rfl

/-- What the last fifteen operations leave in `main_v11`, from any contents `W`: the log-softmax of `main_v10`'s. -/
theorem logSoftmax_at (W : Valuation τ sig (Elt F)) :
    after ops2 W (main_v11 : DevRef τ sig) = logSoftmax (W (main_v10 : DevRef τ sig)) := by
  after_results_simp
  simp only [TRef.toBuf, TRef.ofBuf, cast_eq]
  rfl

/-- What the operations leave in the result buffer, from any contents `V`, is `ref` of the arguments' contents. -/
theorem out_eq (V : Valuation τ sig (Elt F)) :
    after ops V (main_v11 : DevRef τ sig)
      = ref (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [ops_eq, after_append, logSoftmax_at, logits_at]
  rfl
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

/-- On every device, for any float values, from any memory with zero counters: every weakly fair execution of @main
    terminates with the result buffer at `ref` of the six arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11)
          = ref (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v11).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩)
    (run_seq scopedRefs_eq scopedSems_eq defs main (fun _ => ops) main_eq (fun _ => ops_sub) m ρ)

end Cert.Gcn.RefRun

end
-- ==== Proof.LibRealSum.lean ====
/-
  Finite sums of real numbers inside the extended reals.

  The extended reals are not a ring: a product does not distribute over a sum when an infinity meets a
  term of the other sign. Every law used by this certificate is therefore proved on the real numbers
  and carried to the extended reals through the coercion, which is additive and multiplicative on
  reals. This module holds the one general fact that makes that possible for sums of any finite length.
-/
import Mathlib

namespace LibRealSum

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end LibRealSum
-- ==== Proof.LibLogSoftmaxForms.lean ====
/-
  Two spellings of a row's log-softmax over the extended reals, and why they agree on a row of real numbers.

  For a nonempty row `f` of reals, with `m` the fold of `max` from `⊥` over the row:

      (f c − max ⊥ m) − log (0 + Σ_k exp (f k − max ⊥ m))   =   f c − (m + log Σ_k exp (f k − m)).

  The left side is how a numerically stable library routine spells it (the maximum is guarded against `−∞` once
  more, the sum starts from a zero, and the two subtractions are taken one after the other); the right side is the
  textbook form. On the extended reals subtraction is not associative at the infinities, so the equality is a fact
  about REAL rows: the maximum of finitely many reals is a real, every exponential is a positive real, their sum is
  a positive real, its logarithm is a real, and on reals `(a − m) − l = a − (m + l)`.
-/
import Idealize.ShloMosaic.PureOps.Ideal
import Mathlib
import proofs.«165132_g65704409694814_cont_9to1c4b_205_13_alg».proof.Proof.LibRealSum

noncomputable section

open scoped BigOperators

namespace Cert.LogSoftmaxForms

open Idealize.ShloMosaic

/-- The fold of `max` from `⊥` over finitely many reals is `⊥` when there are none, and a real otherwise. -/
theorem fold_max_bot_real {ι : Type*} (s : Finset ι) (f : ι → EReal) (hf : ∀ c ∈ s, ∃ r : ℝ, f c = (r : EReal)) :
    (s = ∅ ∧ s.fold max ⊥ f = ⊥) ∨ ∃ m : ℝ, s.fold max ⊥ f = (m : EReal) := by
  classical
  induction s using Finset.induction_on with
  | empty => exact Or.inl ⟨rfl, Finset.fold_empty⟩
  | insert a s ha ih =>
    right
    obtain ⟨ra, hra⟩ := hf a (Finset.mem_insert_self a s)
    rw [Finset.fold_insert ha, hra]
    rcases ih (fun c hc => hf c (Finset.mem_insert_of_mem hc)) with ⟨_, h⟩ | ⟨m, h⟩
    · rw [h]; exact ⟨ra, max_eq_left bot_le⟩
    · rw [h]; exact ⟨max ra m, (EReal.coe_strictMono.monotone.map_max (a := ra) (b := m)).symm⟩

/-- Over a nonempty row of reals the fold of `max` from `⊥` is a real. -/
theorem fold_max_bot_real_univ {C : Nat} (hC : 0 < C) (f : Fin C → EReal) (hf : ∀ c, ∃ r : ℝ, f c = (r : EReal)) :
    ∃ m : ℝ, Finset.univ.fold max ⊥ f = (m : EReal) := by
  rcases fold_max_bot_real Finset.univ f (fun c _ => hf c) with ⟨he, _⟩ | h
  · exact absurd he (Finset.univ_nonempty_iff.mpr ⟨⟨0, hC⟩⟩).ne_empty
  · exact h

/-- The sum over a nonempty row of the exponentials of real entries less a real is a positive real. -/
theorem sum_exp_sub_real {C : Nat} (hC : 0 < C) (f : Fin C → EReal) (hf : ∀ c, ∃ r : ℝ, f c = (r : EReal)) (m : ℝ) :
    ∃ s : ℝ, 0 < s ∧ ∑ k : Fin C, Ideal.exp (f k - (m : EReal)) = (s : EReal) := by
  choose l hl using hf
  refine ⟨∑ k : Fin C, Real.exp (l k - m), ?_, ?_⟩
  · haveI : Nonempty (Fin C) := ⟨⟨0, hC⟩⟩
    exact Finset.sum_pos (fun k _ => Real.exp_pos _) Finset.univ_nonempty
  · rw [LibRealSum.coe_sum]
    refine Finset.sum_congr rfl fun k _ => ?_
    rw [hl k, ← EReal.coe_sub, Ideal.exp_coe]

/-- THE TWO SPELLINGS AGREE on a nonempty row of reals. -/
theorem forms_agree {C : Nat} (hC : 0 < C) (f : Fin C → EReal) (hf : ∀ c, ∃ r : ℝ, f c = (r : EReal)) (c : Fin C) :
    (f c - max ⊥ (Finset.univ.fold max ⊥ f))
        - Ideal.log (0 + ∑ k : Fin C, Ideal.exp (f k - max ⊥ (Finset.univ.fold max ⊥ f)))
      = f c - (Finset.univ.fold max ⊥ f + Ideal.log (∑ k : Fin C, Ideal.exp (f k - Finset.univ.fold max ⊥ f))) := by
  obtain ⟨m, hm⟩ := fold_max_bot_real_univ hC f hf
  obtain ⟨s, hs, hsum⟩ := sum_exp_sub_real hC f hf m
  obtain ⟨a, ha⟩ := hf c
  rw [hm, max_eq_right bot_le, zero_add, hsum, ha, Ideal.log_coe, if_neg (not_le.mpr hs)]
  rw [← EReal.coe_sub, ← EReal.coe_sub, ← EReal.coe_add, ← EReal.coe_sub]
  exact congrArg _ (by ring)

end Cert.LogSoftmaxForms

end
-- ==== Proof.LibRealEntries.lean ====
/-
  Arrays of extended reals whose every entry is a real number, and the operations that keep them so.

  The extended reals are not a ring, and subtraction on them is not associative at the infinities; the laws this
  certificate uses hold on real numbers. This module carries "every entry is a real" through the network's stages:
  a plain matrix product of real matrices is real (a finite sum of products of reals), a row added to every row of a
  real matrix is real, and a clamp below at the zero word is real.
-/
import proofs.«165132_g65704409694814_cont_9to1c4b_205_13_alg».proof.Proof.LibMatProd
import proofs.«165132_g65704409694814_cont_9to1c4b_205_13_alg».proof.Proof.LibRealSum

noncomputable section

open scoped BigOperators

namespace Cert.RealEntries

open Idealize.ShloMosaic Idealize.ShloMosaic.ValueIdx Cert.MatProd

/-- A finite sum of products of reals is a real. -/
theorem sum_mul_real {K : Nat} (a b : Fin K → EReal) (ha : ∀ k, ∃ r : ℝ, a k = (r : EReal))
    (hb : ∀ k, ∃ r : ℝ, b k = (r : EReal)) : ∃ r : ℝ, ∑ k : Fin K, a k * b k = (r : EReal) := by
  choose a' ha' using ha
  choose b' hb' using hb
  refine ⟨∑ k : Fin K, a' k * b' k, ?_⟩
  rw [LibRealSum.coe_sum]
  exact Finset.sum_congr rfl fun k _ => by rw [ha' k, hb' k, EReal.coe_mul]

/-- The plain product of two real matrices is real. -/
theorem prod_real {M K N : Nat} (A : (⟨2, ![M, K]⟩ : Shape).Idx → EReal) (B : (⟨2, ![K, N]⟩ : Shape).Idx → EReal)
    (hA : ∀ i, ∃ r : ℝ, A i = (r : EReal)) (hB : ∀ i, ∃ r : ℝ, B i = (r : EReal)) :
    ∀ i, ∃ r : ℝ, prod A B i = (r : EReal) :=
  fun i => sum_mul_real (fun k => A (ix2 (i 0) k)) (fun k => B (ix2 k (i 1))) (fun _ => hA _) (fun _ => hB _)

/-- A dense layer of real arrays is real: the product plus a bias row, clamped below at the zero word. -/
theorem denseRelu_real {M K N : Nat} (A : (⟨2, ![M, K]⟩ : Shape).Idx → EReal) (W : (⟨2, ![K, N]⟩ : Shape).Idx → EReal)
    (B : (⟨2, ![1, N]⟩ : Shape).Idx → EReal) (hA : ∀ i, ∃ r : ℝ, A i = (r : EReal))
    (hW : ∀ i, ∃ r : ℝ, W i = (r : EReal)) (hB : ∀ i, ∃ r : ℝ, B i = (r : EReal)) :
    ∀ i, ∃ r : ℝ, denseRelu A W B i = (r : EReal) := by
  intro i
  obtain ⟨p, hp⟩ := prod_real A W hA hW i
  obtain ⟨b, hb⟩ := hB (ix2 0 (i 1))
  refine ⟨max (p + b) 0, ?_⟩
  show max (prod A W i + B (ix2 0 (i 1))) (Ideal.ofBits .f32 0x00000000#32) = _
  rw [hp, hb, Ideal.ofBits_zero_f32, ← EReal.coe_add, ← EReal.coe_zero]
  exact (EReal.coe_strictMono.monotone.map_max (a := p + b) (b := 0)).symm

end Cert.RealEntries

end
-- ==== Proof.RefValue.lean ====
/-
  The reference program's result, read entry by entry, is the network's output `Cert.Gcn.out` of the argument arrays.

  The reference composes four plain products, two bias rows, a clamp at zero and a row-wise log-softmax spelt
  `(L − m') − log (0 + Σ exp (L − m'))` with `m' = max (−∞) (row maximum from −∞)`. Read at an index over the
  extended reals each product is a finite sum of products, each broadcast a re-indexing, the clamp a `max` with the
  zero word; the log-softmax's spelling agrees with the specification's `L − (m + log Σ exp (L − m))` when the scores
  are real numbers, which they are when the six arguments are.
-/
import proofs.«165132_g65704409694814_cont_9to1c4b_205_13_alg».proof.Proof.RefRun
import proofs.«165132_g65704409694814_cont_9to1c4b_205_13_alg».proof.Proof.Spec
import proofs.«165132_g65704409694814_cont_9to1c4b_205_13_alg».proof.Proof.LibLogSoftmaxForms
import proofs.«165132_g65704409694814_cont_9to1c4b_205_13_alg».proof.Proof.LibRealEntries
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.Gcn.RefValue

open Cert.ReferenceIdeal Cert.ReferenceIdeal.Gen Idealize.ShloMosaic Idealize.ShloMosaic.ValueIdx Cert.MatProd Cert.Gcn

/-! ## The layout operations read at an index -/

/-- A vector of 256 entries laid as a row and repeated down the rows, at `i`: the vector at `i`'s column. -/
theorem biasRows1_apply (b1 : Vec1 256) (i : S10000x256.Idx) :
    RefRun.biasRows1 (F := Ideal) b1 i = asRow b1 (ix2 0 (i 1)) := by
  unfold RefRun.biasRows1
  refine (broadcastInDim_apply _ bcast_S1x256_S10000x256_0_1 _ i (ix2 0 (i 1)) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])).trans ?_
  exact broadcastInDim_apply _ bcast_S256_S1x256_1 b1 (ix2 0 (i 1)) (ix1 (i 1)) (fun a => match a with
    | ⟨0, _⟩ => by show (i 1).val = if (256 : Nat) = 1 then 0 else (i 1).val; rw [if_neg (by decide)])

/-- A vector of 64 entries laid as a row and repeated down the rows, at `i`: the vector at `i`'s column. -/
theorem biasRows2_apply (b2 : Vec1 64) (i : S10000x64.Idx) :
    RefRun.biasRows2 (F := Ideal) b2 i = asRow b2 (ix2 0 (i 1)) := by
  unfold RefRun.biasRows2
  refine (broadcastInDim_apply _ bcast_S1x64_S10000x64_0_1 _ i (ix2 0 (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])).trans ?_
  exact broadcastInDim_apply _ bcast_S64_S1x64_1 b2 (ix2 0 (i 1)) (ix1 (i 1)) (fun a => match a with
    | ⟨0, _⟩ => by show (i 1).val = if (64 : Nat) = 1 then 0 else (i 1).val; rw [if_neg (by decide)])

/-- A column repeated across the columns, at `(r, c)`: the column at row `r`. -/
theorem acrossCols_apply (v : (⟨2, ![10000, 1]⟩ : Shape).Idx → EReal) (r : Fin 10000) (c : Fin 64) :
    RefRun.acrossCols (F := Ideal) v (ix2 r c) = v (ix2 r 0) := by
  unfold RefRun.acrossCols
  exact broadcastInDim_apply _ bcast_S10000x1_S10000x64_0_1 v (ix2 r c) (ix2 r 0) (fun a => match a with
    | ⟨0, _⟩ => by show r.val = if (10000 : Nat) = 1 then 0 else r.val; rw [if_neg (by decide)]
    | ⟨1, _⟩ => by show 0 = if (1 : Nat) = 1 then 0 else c.val; rw [if_pos rfl])

/-- A value per row laid as a column, at row `r`: the value of row `r`. -/
theorem asCol_apply (v : (⟨1, ![10000]⟩ : Shape).Idx → EReal) (r : Fin 10000) :
    RefRun.asCol (F := Ideal) v (ix2 r 0) = v (ix1 r) := by
  unfold RefRun.asCol
  exact broadcastInDim_apply _ bcast_S10000_S10000x1_0 v (ix2 r 0) (ix1 r) (fun a => match a with
    | ⟨0, _⟩ => by show r.val = if (10000 : Nat) = 1 then 0 else r.val; rw [if_neg (by decide)])

/-! ## The two layers -/

/-- The first product is the specification's. -/
theorem support1_eq (x : Mat 10000 256) (W1 : Mat 256 256) :
    RefRun.support1 (F := Ideal) x W1 = Cert.Gcn.support1 x W1 :=
  dotGeneral_plain_eq (M := 10000) (K := 256) (N := 256) none .single x W1

/-- The hidden layer is the specification's. -/
theorem hidden_eq (x : Mat 10000 256) (adj : Mat 10000 10000) (W1 : Mat 256 256) (b1 : Vec1 256) :
    RefRun.hidden (F := Ideal) x adj W1 b1 = Cert.Gcn.hidden x adj W1 b1 := by
  funext i
  have e1 : Host.dotGeneral (F := Ideal) (φ₁ := .f32) (φ₂ := .f32) dot_S10000x10000_S10000x256_S10000x256_1_0_0_1_n_n none adj
      (RefRun.support1 (F := Ideal) x W1) = prod adj (Cert.Gcn.support1 x W1) := by
    rw [support1_eq]
    exact dotGeneral_plain_eq (M := 10000) (K := 10000) (N := 256) none .single adj _
  have e2 : broadcastInDim S10000x256 ![] bcast_S_S10000x256 (constant (F := Ideal) S_ .f32 0x00000000#32) i
      = Ideal.ofBits .f32 0x00000000#32 :=
    broadcastInDim_apply _ bcast_S_S10000x256 _ i ix0 (fun a => a.elim0)
  show max (Host.dotGeneral (F := Ideal) (φ₁ := .f32) (φ₂ := .f32) dot_S10000x10000_S10000x256_S10000x256_1_0_0_1_n_n none adj
      (RefRun.support1 (F := Ideal) x W1) i + RefRun.biasRows1 (F := Ideal) b1 i)
      (broadcastInDim S10000x256 ![] bcast_S_S10000x256 (constant (F := Ideal) S_ .f32 0x00000000#32) i) = _
  rw [e1, e2, biasRows1_apply]
  rfl

/-- The class scores are the specification's. -/
theorem logits_eq (x : Mat 10000 256) (adj : Mat 10000 10000) (W1 : Mat 256 256) (b1 : Vec1 256) (W2 : Mat 256 64)
    (b2 : Vec1 64) : RefRun.logits (F := Ideal) x adj W1 b1 W2 b2 = Cert.Gcn.logits x adj W1 b1 W2 b2 := by
  funext i
  have e0 : RefRun.support2 (F := Ideal) x adj W1 b1 W2 = Cert.Gcn.support2 x adj W1 b1 W2 := by
    unfold RefRun.support2
    rw [hidden_eq]
    exact dotGeneral_plain_eq (M := 10000) (K := 256) (N := 64) none .single _ W2
  have e1 : Host.dotGeneral (F := Ideal) (φ₁ := .f32) (φ₂ := .f32) dot_S10000x10000_S10000x64_S10000x64_1_0_0_1_n_n none adj
      (RefRun.support2 (F := Ideal) x adj W1 b1 W2) = prod adj (Cert.Gcn.support2 x adj W1 b1 W2) := by
    rw [e0]
    exact dotGeneral_plain_eq (M := 10000) (K := 10000) (N := 64) none .single adj _
  show Host.dotGeneral (F := Ideal) (φ₁ := .f32) (φ₂ := .f32) dot_S10000x10000_S10000x64_S10000x64_1_0_0_1_n_n none adj
      (RefRun.support2 (F := Ideal) x adj W1 b1 W2) i + RefRun.biasRows2 (F := Ideal) b2 i = _
  rw [e1, biasRows2_apply]
  rfl

/-! ## The log-softmax -/

/-- The pattern of −∞ denotes the bottom element. -/
theorem ofBits_negInf : Ideal.ofBits .f32 0xFF800000#32 = (⊥ : EReal) := by simp [Ideal.ofBits, Ideal.ieee]

/-- Dropping the column axis of a `[10000, 64]` array leaves its rows. -/
theorem reduces_cols : S10000x64.Reduces [1] S10000 := by decide

/-- The row index `r` with column `k` put back is `(r, k)`. -/
theorem lift_cols (r : Fin 10000) (k : Fin (S10000x64.size 1)) :
    reduces_cols.lift (ix1 r) k = ix2 r (⟨k.val, k.isLt⟩ : Fin 64) := by
  funext c; apply Fin.ext
  fin_cases c <;> rfl

/-- The pattern of −∞ repeated along the rows, at row `r`. -/
theorem negInfSplat_apply (r : Fin 10000) :
    broadcastInDim S10000 ![] bcast_S_S10000 (constant (F := Ideal) S_ .f32 0xFF800000#32) (ix1 r) = (⊥ : EReal) :=
  (broadcastInDim_apply _ bcast_S_S10000 _ (ix1 r) ix0 (fun a => a.elim0)).trans ofBits_negInf

/-- The host's reduce of `max` along the columns from the pattern of −∞, at row `r`: the fold of `max` from `⊥` over
    the row. -/
theorem reduceMax_cols_apply (L : Mat 10000 64) (r : Fin 10000) :
    Host.reduce FloatOps.maximumf L (constant (F := Ideal) S_ .f32 0xFF800000#32) reducesTo_S10000x64_S10000_d1 h_S_ (ix1 r)
      = Finset.univ.fold max ⊥ (fun c : Fin 64 => L (ix2 r c)) := by
  have e2 : Host.reduce FloatOps.maximumf L (constant (F := Ideal) S_ .f32 0xFF800000#32) reducesTo_S10000x64_S10000_d1 h_S_ (ix1 r)
      = Finset.univ.fold max (Ideal.ofBits .f32 0xFF800000#32) (fun c : Fin 64 => L (ix2 r c)) := by
    rw [Host.reduce_eq_fold_single (α := Ideal .f32) (FloatOps.maximumf (F := Ideal) (φ := .f32)) L _ reducesTo_S10000x64_S10000_d1 reduces_cols h_S_]
    have hf : (L ∘ reduces_cols.lift (ix1 r)) = fun k : Fin 64 => L (ix2 r k) :=
      funext fun k => congrArg L (lift_cols r k)
    exact congrArg (fun f => Finset.fold max (Ideal.ofBits .f32 0xFF800000#32) f (Finset.univ : Finset (Fin 64))) hf
  exact e2.trans (congrArg (fun b => Finset.univ.fold max b (fun c : Fin 64 => L (ix2 r c))) ofBits_negInf)

/-- The element-wise maximum of two vectors of extended reals, at an index. -/
theorem maximumf_rows_apply (A B : (⟨1, ![10000]⟩ : Shape).Idx → EReal) (j : (⟨1, ![10000]⟩ : Shape).Idx) :
    maximumf (F := Ideal) (s := S10000) (φ := .f32) A B j = max (A j) (B j) := rfl

attribute [local irreducible] Host.reduce in
/-- The reference's row maximum at row `r`: the fold of `max` from `⊥` over the row, guarded once more by `⊥`. -/
theorem rowMax_apply (L : Mat 10000 64) (r : Fin 10000) :
    RefRun.rowMax (F := Ideal) L (ix1 r) = max ⊥ (Finset.univ.fold max ⊥ fun c : Fin 64 => L (ix2 r c)) :=
  (maximumf_rows_apply _ _ (ix1 r)).trans (congr (congrArg max (negInfSplat_apply r)) (reduceMax_cols_apply L r))

/-- The shifted scores at `(r, c)`. -/
theorem shifted_apply (L : Mat 10000 64) (r : Fin 10000) (c : Fin 64) :
    RefRun.shifted (F := Ideal) L (ix2 r c)
      = L (ix2 r c) - max ⊥ (Finset.univ.fold max ⊥ fun k : Fin 64 => L (ix2 r k)) := by
  show L (ix2 r c) - RefRun.acrossCols (F := Ideal) (RefRun.asCol (F := Ideal) (RefRun.rowMax (F := Ideal) L)) (ix2 r c) = _
  rw [acrossCols_apply, asCol_apply, rowMax_apply]

/-- The host's sum along the columns from the zero word, at row `r`: zero plus the sum over the row. -/
theorem reduceAdd_cols_apply (y : Mat 10000 64) (r : Fin 10000) :
    Host.reduceAdd (F := Ideal) y (constant (F := Ideal) S_ .f32 0x00000000#32) reducesTo_S10000x64_S10000_d1 h_S_ (ix1 r)
      = 0 + ∑ k : Fin 64, y (ix2 r k) := by
  simp only [Host.reduceAdd, Ideal.hostReduceAdd_def]
  rw [Ideal.hostReduceAdd_single reducesTo_S10000x64_S10000_d1 reduces_cols]
  refine congr (congrArg _ Ideal.ofBits_zero_f32) (Finset.sum_congr rfl fun k _ => ?_)
  exact congrArg y (lift_cols r k)

/-- The reference's row sum of exponentials at row `r`. -/
theorem rowSumExp_apply (L : Mat 10000 64) (r : Fin 10000) :
    RefRun.rowSumExp (F := Ideal) L (ix1 r)
      = 0 + ∑ k : Fin 64, Ideal.exp (L (ix2 r k) - max ⊥ (Finset.univ.fold max ⊥ fun k : Fin 64 => L (ix2 r k))) := by
  unfold RefRun.rowSumExp
  rw [reduceAdd_cols_apply]
  refine congrArg (0 + ·) (Finset.sum_congr rfl fun k _ => ?_)
  show Ideal.exp (RefRun.shifted (F := Ideal) L (ix2 r k)) = _
  rw [shifted_apply]

/-- THE LOG-SOFTMAX: on real scores the reference's spelling is the specification's. -/
theorem logSoftmax_eq (L : Mat 10000 64) (hL : ∀ i, ∃ r : ℝ, L i = (r : EReal)) :
    RefRun.logSoftmax (F := Ideal) L = Cert.Gcn.logSoftmax L := by
  funext i
  obtain ⟨r, c, rfl⟩ : ∃ (r : Fin 10000) (c : Fin 64), i = ix2 r c := ⟨i 0, i 1, eq_ix2 i⟩
  have h0 : RefRun.logSoftmax (F := Ideal) L (ix2 r c)
      = RefRun.shifted (F := Ideal) L (ix2 r c) - Ideal.log (RefRun.rowSumExp (F := Ideal) L (ix1 r)) := by
    show RefRun.shifted (F := Ideal) L (ix2 r c)
        - RefRun.acrossCols (F := Ideal) (Host.log (F := Ideal) (s := S10000x1) (φ := .f32) (RefRun.asCol (F := Ideal) (RefRun.rowSumExp (F := Ideal) L))) (ix2 r c) = _
    rw [acrossCols_apply]
    show _ - Ideal.log (RefRun.asCol (F := Ideal) (RefRun.rowSumExp (F := Ideal) L) (ix2 r 0)) = _
    rw [asCol_apply]
  rw [h0, shifted_apply, rowSumExp_apply, logSoftmax_apply]
  unfold Cert.Gcn.rowSumExp Cert.Gcn.rowMax negInf
  rw [ofBits_negInf]
  exact Cert.LogSoftmaxForms.forms_agree (by decide) (fun c : Fin 64 => L (ix2 r c)) (fun c => hL _) c

/-! ## The whole reference -/

/-- The class scores of real arguments are real. -/
theorem logits_real (x : Mat 10000 256) (adj : Mat 10000 10000) (W1 : Mat 256 256) (b1 : Vec1 256) (W2 : Mat 256 64)
    (b2 : Vec1 64) (hx : ∀ i, ∃ r : ℝ, x i = (r : EReal)) (hadj : ∀ i, ∃ r : ℝ, adj i = (r : EReal))
    (hW1 : ∀ i, ∃ r : ℝ, W1 i = (r : EReal)) (hb1 : ∀ i, ∃ r : ℝ, b1 i = (r : EReal))
    (hW2 : ∀ i, ∃ r : ℝ, W2 i = (r : EReal)) (hb2 : ∀ i, ∃ r : ℝ, b2 i = (r : EReal)) :
    ∀ i, ∃ r : ℝ, Cert.Gcn.logits x adj W1 b1 W2 b2 i = (r : EReal) := by
  intro i
  have h1 := Cert.RealEntries.prod_real x W1 hx hW1
  have h2 := Cert.RealEntries.denseRelu_real adj (Cert.Gcn.support1 x W1) (asRow b1) hadj h1 (fun j => hb1 _)
  have h3 := Cert.RealEntries.prod_real (Cert.Gcn.hidden x adj W1 b1) W2 h2 hW2
  obtain ⟨p, hp⟩ := Cert.RealEntries.prod_real adj (Cert.Gcn.support2 x adj W1 b1 W2) hadj h3 i
  obtain ⟨q, hq⟩ := hb2 (ix1 (i 1))
  refine ⟨p + q, ?_⟩
  show prod adj (Cert.Gcn.support2 x adj W1 b1 W2) i + b2 (ix1 (i 1)) = _
  rw [hp, hq, EReal.coe_add]

/-- THE REFERENCE IS THE SPECIFICATION: for argument arrays of real numbers, the reference's result as a function of
    its arguments, read over the extended reals, is the network's output. -/
theorem ref_eq_out (x : Mat 10000 256) (adj : Mat 10000 10000) (W1 : Mat 256 256) (b1 : Vec1 256) (W2 : Mat 256 64)
    (b2 : Vec1 64) (hx : ∀ i, ∃ r : ℝ, x i = (r : EReal)) (hadj : ∀ i, ∃ r : ℝ, adj i = (r : EReal))
    (hW1 : ∀ i, ∃ r : ℝ, W1 i = (r : EReal)) (hb1 : ∀ i, ∃ r : ℝ, b1 i = (r : EReal))
    (hW2 : ∀ i, ∃ r : ℝ, W2 i = (r : EReal)) (hb2 : ∀ i, ∃ r : ℝ, b2 i = (r : EReal)) :
    RefRun.ref (F := Ideal) x adj W1 b1 W2 b2 = Cert.Gcn.out x adj W1 b1 W2 b2 := by
  unfold RefRun.ref Cert.Gcn.out
  rw [logits_eq]
  exact logSoftmax_eq _ (logits_real x adj W1 b1 W2 b2 hx hadj hW1 hb1 hW2 hb2)

end Cert.Gcn.RefValue

end
-- ==== Proof.Finite.lean ====
/-
  The printed test of the six arguments, read back: it conjoins, for each argument, "every entry's absolute value is below
  +∞"; where it answers true every entry of every argument is a real number, since the absolute value of either infinity
  is +∞ itself.
-/
import proofs.«165132_g65704409694814_cont_9to1c4b_205_13_alg».proof.Pre_finite_inputs
import Idealize.ShloMosaic.Lib.ReduceAll
import Idealize.ShloMosaic.Lib.ValueIdx
import Idealize.ShloMosaic.PureOps.Ideal

noncomputable section

namespace Cert.Gcn.Finite

open Idealize.ShloMosaic Cert.Pre_finite_inputs

/-- The result of a reduction over every axis has one index. -/
instance : Subsingleton S_.Idx := ⟨fun _ _ => funext fun d => d.elim0⟩

/-- An extended real whose absolute value is below the pattern of +∞ is a real number: the absolute value of either
    infinity is +∞, which is not below itself. -/
theorem real_of_abs_lt (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  induction v using EReal.rec with
  | bot => exact absurd h (by simp [Ideal.cmp])
  | coe r => exact ⟨r, rfl⟩
  | top => exact absurd h (by simp [Ideal.cmp])

/-- An array all of whose entries pass that test is an array of real numbers. -/
theorem real_of_all {s u : Shape} {axes : List (Fin s.rank)} (x : FVec Ideal s .f32)
    (bc : S_.BroadcastsInDim s (![] : Fin 0 → Fin s.rank)) (rt : s.ReducesTo axes S_) (hu : 0 < u.numel) (init : IVec u 1)
    (e : Host.reduce IntOp.andi (cmpf .olt (Host.absf x) (broadcastInDim s ![] bc (constant S_ .f32 0x7F800000#32))) init rt hu
        ValueIdx.ix0 = 1#1) (i : s.Idx) : ∃ r : ℝ, x i = (r : EReal) :=
  real_of_abs_lt (x i) (Host.reduce_andi_all _ init rt hu ValueIdx.ix0 e i)

/-- THE PRECONDITION READ BACK: where the printed test of the six arguments answers true, every entry of every
    argument is a real number. -/
theorem finite_of_pre [Facts] (a0 : FVec Ideal S10000x256 .f32) (a1 : FVec Ideal S10000x10000 .f32)
    (a2 : FVec Ideal S256x256 .f32) (a3 : FVec Ideal S256 .f32) (a4 : FVec Ideal S256x64 .f32) (a5 : FVec Ideal S64 .f32)
    (h : fn (F := Ideal) a0 a1 a2 a3 a4 a5 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [fn, fn_part1] at h0
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨real_of_all a0 _ _ _ _ e0, real_of_all a1 _ _ _ _ e1, real_of_all a2 _ _ _ _ e2, real_of_all a3 _ _ _ _ e3,
    real_of_all a4 _ _ _ _ e4, real_of_all a5 _ _ _ _ e5⟩

end Cert.Gcn.Finite

end
-- ==== Proof.lean ====
/-
  A two-layer graph convolution with a row-wise log-softmax, as one Pallas kernel against its plain jnp reference:

      out = log_softmax (adj · (max (adj · (x · W1) + b1, 0) · W2) + b2).

  The kernel runs a grid of fifty points over 400-row strips of the adjacency, each strip read as two 200-row
  halves through two windows on the one array. The first point also computes the first support x · W1 into a
  scratch it keeps for the whole run; points 0–24 each fill 400 rows of the second support into a second scratch;
  points 25–49 each produce 400 rows of the output from the full second support. Over the extended reals every
  product is a finite sum of products, so tiling the rows changes nothing (a block of rows of a product is the
  product of that block of rows), and the second scratch after the first phase IS the second support.

  The kernel writes the last step as  logits − (m + log Σ exp (logits − m)),  the reference as
  (logits − m) − log Σ exp (logits − m),  m the row's maximum. These agree where the logits are real: then m is real,
  every exponential is a positive real, their sum is a positive real and its logarithm is real, and on the reals
  a − (m + l) = (a − m) − l. That is where the precondition (every input entry finite) is used; sums and products of
  reals are real, so every logit is.

  The frames: each kernel program runs to the end with its six argument arrays unchanged (the adjacency's buffer is
  dealt in halves to the two windows that read it; the scratches' contents are carried in the invariant from point to
  point); the reference is its twenty-eight host operations in a row. No rewrite was applied between the kernel and
  its idealization, so that conjunct is trivial.
-/
import proofs.«165132_g65704409694814_cont_9to1c4b_205_13_alg».proof.Defs
import proofs.«165132_g65704409694814_cont_9to1c4b_205_13_alg».proof.Proof.Gen.Kernel
import proofs.«165132_g65704409694814_cont_9to1c4b_205_13_alg».proof.Proof.Gen.KernelIdeal
import proofs.«165132_g65704409694814_cont_9to1c4b_205_13_alg».proof.Proof.Gen.ReferenceIdeal
import proofs.«165132_g65704409694814_cont_9to1c4b_205_13_alg».proof.Proof.Gen.Pre_finite_inputs
import proofs.«165132_g65704409694814_cont_9to1c4b_205_13_alg».proof.Proof.KMain
import proofs.«165132_g65704409694814_cont_9to1c4b_205_13_alg».proof.Proof.KIValue
import proofs.«165132_g65704409694814_cont_9to1c4b_205_13_alg».proof.Proof.RefRun
import proofs.«165132_g65704409694814_cont_9to1c4b_205_13_alg».proof.Proof.RefValue
import proofs.«165132_g65704409694814_cont_9to1c4b_205_13_alg».proof.Proof.Finite

noncomputable section

namespace Cert.Proof

open Idealize.ShloMosaic Idealize.SL.Sem

/-- The word-level kernel runs to the end, its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- And the reference: its run with the result dropped. -/
theorem frame_ri : Cert.frame_ReferenceIdeal := fun m ρ _ =>
  (θ_run Cert.ReferenceIdeal.defs _ _).mono (fun _ h c => (h c).2) (Cert.Gcn.RefRun.run (F := Ideal) m ρ)

/-- From memories agreeing on the arguments both programs end with the network's output of those arguments: the
    kernel by its blocks, the reference stage by stage, the two spellings of the log-softmax meeting on real logits. -/
theorem algebraic : Cert.algebraic_KernelIdeal_ReferenceIdeal := by
  intro m ρ m' ρ' hpre hagree
  refine ⟨fun c => Cert.KernelIdeal.Hand.outSpec m c, Cert.KernelIdeal.Hand.run_value m ρ, ?_⟩
  refine (θ_run Cert.ReferenceIdeal.defs _ _).mono (fun _ h c => ⟨(h c).1.trans ?_, (h c).2⟩)
    (Cert.Gcn.RefRun.run (F := Ideal) m' ρ')
  obtain ⟨f0, f1, f2, f3, f4, f5⟩ := Cert.Gcn.Finite.finite_of_pre _ _ _ _ _ _ (hpre c)
  rw [(hagree c).1, (hagree c).2.1, (hagree c).2.2.1, (hagree c).2.2.2.1, (hagree c).2.2.2.2.1, (hagree c).2.2.2.2.2]
  exact Cert.Gcn.RefValue.ref_eq_out _ _ _ _ _ _ f0 f1 f2 f3 f4 f5

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
